-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x2048 : Shape := ⟨3, ![32, 2048, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x2048 : S_.BroadcastsInDim S32x2048x2048 (![] : Fin 0 → Fin S32x2048x2048.rank)
  reducesTo_S32x2048x2048_S_d0_1_2 : S32x2048x2048.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1024x1 .f32) (main_arg5 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1 .f32 := Host.absf main_arg4
  let main_cst_6 : FVec F S_ .f32 := constant S_ .f32 0x7F800000#32
  let main_v20 : FVec F S1024x1 .f32 := broadcastInDim S1024x1 ![] bcast_S_S1024x1 main_cst_6
  let main_v21 : IVec S1024x1 1 := cmpf .olt main_v19 main_v20
  let main_c_7 : IVec S_ 1 := constantI S_ 1 1#1
  let main_v22 : IVec S_ 1 := (fun x v => Host.reduce IntOp.andi x v reducesTo_S1024x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S32x1024 .f32) (main_arg1 : FVec F S32x2048x2048 .f32) (main_arg2 : FVec F S2048x1024 .f32) (main_arg3 : FVec F S1024 .f32) (main_arg4 : FVec F S1024x1 .f32) (main_arg5 : FVec F S1 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x2048 .f32 := Host.absf main_arg1
  let main_cst_0 : FVec F S_ .f32 := constant S_ .f32 0x7F800000#32
  let main_v5 : FVec F S32x2048x2048 .f32 := broadcastInDim S32x2048x2048 ![] bcast_S_S32x2048x2048 main_cst_0
  let main_v6 : IVec S32x2048x2048 1 := cmpf .olt main_v4 main_v5
  let main_c_1 : IVec S_ 1 := constantI S_ 1 1#1
  let main_v7 : IVec S_ 1 := (fun x v => Host.reduce IntOp.andi x v reducesTo_S32x2048x2048_S_d0_1_2 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S32x1024 : Shape := ⟨2, ![32, 1024]⟩
abbrev S32x2048x2048 : Shape := ⟨3, ![32, 2048, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S32x1x1024 : Shape := ⟨3, ![32, 1, 1024]⟩
abbrev S1024x1024 : Shape := ⟨2, ![1024, 1024]⟩
abbrev S32x1x2048 : Shape := ⟨3, ![32, 1, 2048]⟩
abbrev S32x1x1 : Shape := ⟨3, ![32, 1, 1]⟩
abbrev S32x2048x1 : Shape := ⟨3, ![32, 2048, 1]⟩
abbrev S1x1x1024 : Shape := ⟨3, ![1, 1, 1024]⟩
abbrev S1x512x2048 : Shape := ⟨3, ![1, 512, 2048]⟩
abbrev S1x1x2048 : Shape := ⟨3, ![1, 1, 2048]⟩
abbrev S1x1x1 : Shape := ⟨3, ![1, 1, 1]⟩
abbrev S1x512x1 : Shape := ⟨3, ![1, 512, 1]⟩
abbrev S1x1024 : Shape := ⟨2, ![1, 1024]⟩
abbrev S512x2048 : Shape := ⟨2, ![512, 2048]⟩
abbrev S512x1024 : Shape := ⟨2, ![512, 1024]⟩
abbrev S512x1 : Shape := ⟨2, ![512, 1]⟩
abbrev S1x1 : Shape := ⟨2, ![1, 1]⟩
abbrev S1x2048 : Shape := ⟨2, ![1, 2048]⟩
abbrev S32x2048 : Shape := ⟨2, ![32, 2048]⟩
abbrev S32x1 : Shape := ⟨2, ![32, 1]⟩

abbrev nBuf : Space → Nat
  | .hbm => 19
  | .vmem => 22
  | .smem => 0
  | _ => 0

abbrev bufTy : (tb : Table) → Fin (tcTables nBuf tb) → BufTy
  | .hbm, ⟨0, _⟩ => ⟨S32x1024, .f32⟩
  | .hbm, ⟨1, _⟩ => ⟨S32x2048x2048, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S32x1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1, .bf16⟩
  | .hbm, ⟨12, _⟩ => ⟨S32x1x2048, .f32⟩
  | .hbm, ⟨13, _⟩ => ⟨S32x1x1, .f32⟩
  | .hbm, ⟨14, _⟩ => ⟨S32x2048x1, .f32⟩
  | .hbm, ⟨15, _⟩ => ⟨S32x2048, .f32⟩
  | .hbm, ⟨16, _⟩ => ⟨S32x1, .f32⟩
  | .hbm, ⟨17, _⟩ => ⟨S32x2048, .f32⟩
  | .hbm, ⟨18, _⟩ => ⟨S32x2048x1, .f32⟩
  | .local _ .vmem, ⟨0, _⟩ => ⟨S1x1x1024, .f32⟩
  | .local _ .vmem, ⟨1, _⟩ => ⟨S1x1x1024, .f32⟩
  | .local _ .vmem, ⟨2, _⟩ => ⟨S1x512x2048, .f32⟩
  | .local _ .vmem, ⟨3, _⟩ => ⟨S1x512x2048, .f32⟩
  | .local _ .vmem, ⟨4, _⟩ => ⟨S1024x1024, .bf16⟩
  | .local _ .vmem, ⟨5, _⟩ => ⟨S1024x1024, .bf16⟩
  | .local _ .vmem, ⟨6, _⟩ => ⟨S1024, .f32⟩
  | .local _ .vmem, ⟨7, _⟩ => ⟨S1024x1, .bf16⟩
  | .local _ .vmem, ⟨8, _⟩ => ⟨S1, .f32⟩
  | .local _ .vmem, ⟨9, _⟩ => ⟨S1x1x2048, .f32⟩
  | .local _ .vmem, ⟨10, _⟩ => ⟨S1x1x2048, .f32⟩
  | .local _ .vmem, ⟨11, _⟩ => ⟨S1x1x1, .f32⟩
  | .local _ .vmem, ⟨12, _⟩ => ⟨S1x1x1, .f32⟩
  | .local _ .vmem, ⟨13, _⟩ => ⟨S1x512x1, .f32⟩
  | .local _ .vmem, ⟨14, _⟩ => ⟨S1x512x1, .f32⟩
  | .local _ .vmem, ⟨15, _⟩ => ⟨S1x1x1, .f32⟩
  | .local _ .vmem, ⟨16, _⟩ => ⟨S1x1x1, .f32⟩
  | .local _ .vmem, ⟨17, _⟩ => ⟨S1x1x2048, .f32⟩
  | .local _ .vmem, ⟨18, _⟩ => ⟨S1x1024, .f32⟩
  | .local _ .vmem, ⟨19, _⟩ => ⟨S32x2048, .f32⟩
  | .local _ .vmem, ⟨20, _⟩ => ⟨S32x1, .f32⟩
  | .local _ .vmem, ⟨21, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc1_stg0_0 : Ref sig .tc := ⟨.vmem, 19, rfl⟩
abbrev cc1_stg1_0 : Ref sig .tc := ⟨.vmem, 20, rfl⟩
abbrev cc1_stg2_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem1_0 : DmaSem sig := 16
abbrev cc1_sem2_0 : DmaSem sig := 17

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_35 : BitVec 32 := 0#32
  let v57 : BitVec 1 := Scalar.cmpi .ne v56 c0_i32_35
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S32x1024_S32x1x1024_0_2 : S32x1024.BroadcastsInDim S32x1x1024 (![0, 2] : Fin 2 → Fin S32x1x1024.rank)
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x2048_o0_0_S512x1024 : S512x2048.Slices ![0, 0] S512x1024
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  shapeCasts_S512x1_S1x512x1 : S512x1.ShapeCasts S1x512x1
  inb_S1x512x1_S1x512x1_0_0_0 : ∀ a, (![0, 0, 0] : Fin 3 → Nat) a + S1x512x1.size a ≤ S1x512x1.size a
  h_S1x512x1 : 0 < S1x512x1.numel
  reduces_S1x512x1_S1x1 : S1x512x1.Reduces [1] S1x1
  shapeCasts_S1x1_S1x1x1 : S1x1.ShapeCasts S1x1x1
  broadcasts_S1x1x1_S1x512x1 : S1x1x1.Broadcasts S1x512x1
  shapeCasts_S512x2048_S1x512x2048 : S512x2048.ShapeCasts S1x512x2048
  broadcasts_S1x512x1_S1x512x2048 : S1x512x1.Broadcasts S1x512x2048
  reduces_S1x512x2048_S1x2048 : S1x512x2048.Reduces [1] S1x2048
  shapeCasts_S1x2048_S1x1x2048 : S1x2048.ShapeCasts S1x1x2048
  broadcasts_S1x1x1_S1x1x2048 : S1x1x1.Broadcasts S1x1x2048
  shapeCasts_S32x2048x1_S32x2048 : S32x2048x1.ShapeCasts S32x2048
  shapeCasts_S32x1x1_S32x1 : S32x1x1.ShapeCasts S32x1
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x2048 : S32x1.Broadcasts S32x2048
  bcast_S32x2048_S32x2048x1_0_1 : S32x2048.BroadcastsInDim S32x2048x1 (![0, 1] : Fin 2 → Fin S32x2048x1.rank)
  dot_S1x1024_S1024x1024_S1x1024_1_0_0_1_n_n_wf : DotDims.WF S1x1024 S1024x1024 S1x1024 [1] [0] [0] [1] [] []
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S32x2048x2048.size a
  hwx0_1 : ∀ i : grid0.Coords, EltTy.bits .f32 = 32 ∨ (Rect.block (s := S32x2048x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S1024x1.size a
  hwx0_5 : ∀ i : grid0.Coords, EltTy.bits .bf16 = 32 ∨ (Rect.block (s := S1024x1) S1024x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S32x1x1.size a
  hwx0_8 : ∀ i : grid0.Coords, EltTy.bits .f32 = 32 ∨ (Rect.block (s := S32x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1.size a ≤ S32x2048x1.size a
  hwx0_9 : ∀ i : grid0.Coords, EltTy.bits .f32 = 32 ∨ (Rect.block (s := S32x2048x1) S1x512x1.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x2048.size a ≤ S32x2048.size a
  hwx1_0 : ∀ i : grid1.Coords, EltTy.bits .f32 = 32 ∨ (Rect.block (s := S32x2048) S32x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2048.size a ≤ S32x2048.size a
  hwx1_2 : ∀ i : grid1.Coords, EltTy.bits .f32 = 32 ∨ (Rect.block (s := S32x2048) S32x2048.size (cc1_transform_2 i) (hinb1_2 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun _ => false | ⟨_ + 10, h⟩ => absurd h (Nat.not_lt.2 (Nat.le_add_left _ _))

abbrev win1_0 : Pipeline.Window sig grid1 :=
  Pipeline.Window.ofSpec (Memref.whole main_v7) S32x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S32x2048.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x1024 : Shape := ⟨2, ![32, 1024]⟩
abbrev S32x2048x2048 : Shape := ⟨3, ![32, 2048, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S32x2048x1024 : Shape := ⟨3, ![32, 2048, 1024]⟩
abbrev S32x1x1024 : Shape := ⟨3, ![32, 1, 1024]⟩
abbrev S1x1x1024 : Shape := ⟨3, ![1, 1, 1024]⟩
abbrev S32x2048x1 : Shape := ⟨3, ![32, 2048, 1]⟩
abbrev S1x1x1 : Shape := ⟨3, ![1, 1, 1]⟩
abbrev S_ : Shape := ⟨0, ![]⟩
abbrev S32x1 : Shape := ⟨2, ![32, 1]⟩
abbrev S32x1x1 : Shape := ⟨3, ![32, 1, 1]⟩
abbrev S32x1x2048 : Shape := ⟨3, ![32, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x2048, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S32x2048x1024, .f32⟩
  | .hbm, ⟨7, _⟩ => ⟨S32x1x1024, .f32⟩
  | .hbm, ⟨8, _⟩ => ⟨S32x2048x1024, .f32⟩
  | .hbm, ⟨9, _⟩ => ⟨S32x2048x2048, .f32⟩
  | .hbm, ⟨10, _⟩ => ⟨S32x2048x1024, .f32⟩
  | .hbm, ⟨11, _⟩ => ⟨S1x1x1024, .f32⟩
  | .hbm, ⟨12, _⟩ => ⟨S32x2048x1024, .f32⟩
  | .hbm, ⟨13, _⟩ => ⟨S32x2048x1024, .f32⟩
  | .hbm, ⟨14, _⟩ => ⟨S32x2048x1, .f32⟩
  | .hbm, ⟨15, _⟩ => ⟨S1x1x1, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .f32⟩
  | .hbm, ⟨23, _⟩ => ⟨S32x1x1, .f32⟩
  | .hbm, ⟨24, _⟩ => ⟨S32x2048x1, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x1, .f32⟩
  | .hbm, ⟨29, _⟩ => ⟨S32x1x1, .f32⟩
  | .hbm, ⟨30, _⟩ => ⟨S32x2048x1, .f32⟩
  | .hbm, ⟨31, _⟩ => ⟨S32x2048x1, .f32⟩
  | .hbm, ⟨32, _⟩ => ⟨S32x1x2048, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S32x2048x2048_S32x2048x1024_0_0_0 : S32x2048x2048.Slices ![0, 0, 0] S32x2048x1024
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  concatenates_S32x2048x1024_S32x2048x1024_S32x2048x2048_d2 : Shape.Concatenates [S32x2048x1024, S32x2048x1024] S32x2048x2048 2
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x1_d1 : S32x2048x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2048x1_0_1_2 : S32x1x1.BroadcastsInDim S32x2048x1 (![0, 1, 2] : Fin 3 → Fin S32x2048x1.rank)
  dot_S32x2048x2048_S2048x1024_S32x2048x1024_2_0_01_1_n_n_wf : DotDims.WF S32x2048x2048 S2048x1024 S32x2048x1024 [2] [0] [0, 1] [1] [] []
  dot_S32x2048x1024_S1024x1_S32x2048x1_2_0_01_1_n_n_wf : DotDims.WF S32x2048x1024 S1024x1 S32x2048x1 [2] [0] [0, 1] [1] [] []
  dot_S32x2048x1_S32x2048x2048_S32x1x2048_1_1_2_2_0_0_wf : DotDims.WF S32x2048x1 S32x2048x2048 S32x1x2048 [1] [1] [2] [2] [0] [0]

variable [Facts₀]

def dot_S32x2048x2048_S2048x1024_S32x2048x1024_2_0_01_1_n_n : DotDims S32x2048x2048 S2048x1024 S32x2048x1024 where
  lhsContracting := [2]
  rhsContracting := [0]
  lhsNonContracting := [0, 1]
  rhsNonContracting := [1]
  lhsBatch := []
  rhsBatch := []
  wf := dot_S32x2048x2048_S2048x1024_S32x2048x1024_2_0_01_1_n_n_wf
def dot_S32x2048x1024_S1024x1_S32x2048x1_2_0_01_1_n_n : DotDims S32x2048x1024 S1024x1 S32x2048x1 where
  lhsContracting := [2]
  rhsContracting := [0]
  lhsNonContracting := [0, 1]
  rhsNonContracting := [1]
  lhsBatch := []
  rhsBatch := []
  wf := dot_S32x2048x1024_S1024x1_S32x2048x1_2_0_01_1_n_n_wf
def dot_S32x2048x1_S32x2048x2048_S32x1x2048_1_1_2_2_0_0 : DotDims S32x2048x1 S32x2048x2048 S32x1x2048 where
  lhsContracting := [1]
  rhsContracting := [1]
  lhsNonContracting := [2]
  rhsNonContracting := [2]
  lhsBatch := [0]
  rhsBatch := [0]
  wf := dot_S32x2048x1_S32x2048x2048_S32x1x2048_1_1_2_2_0_0_wf

class Facts : Prop extends Facts₀ where

variable [Facts]
-- ==== Proof.KR0Base.lean ====
import proofs.«124677_j49830210568541_2_alg».proof.Proof.Gen.Kernel.Launch
import proofs.«124677_j49830210568541_2_alg».proof.Proof.Gen.Kernel.Skeleton
import proofs.«124677_j49830210568541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its three control cases share

The body branches twice on the second grid coordinate: the reset of the running maximum, the running
denominator, the running numerator and the query projection at the first tile of a batch row, and the
normalisation at its last tile. Over the 32 x 4 grid the first holds at the points = 0 (mod 4), the
second at the points = 3 (mod 4). -/

/-- The first branch's condition over the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition over the grid coordinates. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the context row and the log-sum-exp are stored at a row's last tile only -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_9 : ∀ t : Fin cfg0.N, cfg0.idle 9 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The staging memrefs at a point, and the four scratch operands -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1 .f32 := win0_9.stage (cfg0.slots t 9)
abbrev hs0_9 (t : Fin cfg0.N) : (ms0_9 t).IsWhole := hstage0_9 ((cfg0.slots t 9).cast nbuf0_9)
abbrev scM0_0 : Memref sig .tc .vmem S1x1x1 .f32 := Memref.whole cc0_scratch0
abbrev VS0_0 : View sig .tc .vmem S1x1x1 .f32 := scM0_0.view
abbrev scM0_1 : Memref sig .tc .vmem S1x1x1 .f32 := Memref.whole cc0_scratch1
abbrev VS0_1 : View sig .tc .vmem S1x1x1 .f32 := scM0_1.view
abbrev scM0_2 : Memref sig .tc .vmem S1x1x2048 .f32 := Memref.whole cc0_scratch2
abbrev VS0_2 : View sig .tc .vmem S1x1x2048 .f32 := scM0_2.view
abbrev scM0_3 : Memref sig .tc .vmem S1x1024 .f32 := Memref.whole cc0_scratch3
abbrev VS0_3 : View sig .tc .vmem S1x1024 .f32 := scM0_3.view
abbrev VO0_7 : View sig .tc .vmem S1x1x2048 .f32 := (Memref.whole cc0_stg7_0 : Memref sig .tc .vmem S1x1x2048 .f32).view
abbrev VO0_8 : View sig .tc .vmem S1x1x1 .f32 := (Memref.whole cc0_stg8_0 : Memref sig .tc .vmem S1x1x1 .f32).view
abbrev VO0_9 : View sig .tc .vmem S1x512x1 .f32 := (Memref.whole cc0_stg9_0 : Memref sig .tc .vmem S1x512x1 .f32).view

/-- The region's class invariant spelt out: the four scratch operands owned at some contents, the second
    region's three staging buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := by
  unfold Pipeline.ΦA; rw [scopedRest0_eq]; simp only [scM0_0, scM0_1, scM0_2, scM0_3, owns_whole]; try rfl

end Cert.Kernel.Hand

end
-- ==== Proof.KR0RunB.lean ====
import proofs.«124677_j49830210568541_2_alg».proof.Proof.KR0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile of a batch row (neither branch taken): on whole memrefs — the seven inputs at
    their contents, the context row's and the log-sum-exp's buffers handed back untouched, the score block's
    at anything, the four scratch operands at what the tile before left — it runs to the continuation
    with the score block, the running maximum, denominator and numerator stored (their pieces, last first,
    are what the run finds) and the query projection as it was. -/
noncomputable def kernelRun0_B (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) :
    Σ' (L9 : List (View.Piece (Elt F) S1x512x1 .f32)) (LS0 : List (View.Piece (Elt F) S1x1x1 .f32)) (LS1 : List (View.Piece (Elt F) S1x1x1 .f32)), { LS2 : List (View.Piece (Elt F) S1x1x2048 .f32) //
      ∀ (xi7 : Vec F S1x1x2048 .f32) (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ owns (c : Thread nD τ) arg15 fullShare xs3) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi7 xi8 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    iexists _; isplitr; · ipureintro; exact harg15.read_unread _
    iexact HS3

end Cert.Kernel.Hand

end
-- ==== Proof.KR0RunA.lean ====
import proofs.«124677_j49830210568541_2_alg».proof.Proof.KR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile of a batch row (the reset taken, the normalisation not): on whole memrefs —
    the seven inputs at their contents, the context row's and the log-sum-exp's buffers handed back
    untouched, the score block's and the four scratch operands at anything — it runs to the continuation
    with the score block and all four scratch operands stored (their pieces, last first, are what the
    run finds). -/
noncomputable def kernelRun0_A (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) :
    Σ' (L9 : List (View.Piece (Elt F) S1x512x1 .f32)) (LS0 : List (View.Piece (Elt F) S1x1x1 .f32)) (LS1 : List (View.Piece (Elt F) S1x1x1 .f32)) (LS2 : List (View.Piece (Elt F) S1x1x2048 .f32)), { LS3 : List (View.Piece (Elt F) S1x1024 .f32) //
      ∀ (xi7 : Vec F S1x1x2048 .f32) (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 xi8 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    iexists _; iexact HS3

end Cert.Kernel.Hand

end
-- ==== Proof.KR0RunC.lean ====
import proofs.«124677_j49830210568541_2_alg».proof.Proof.KR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile of a batch row (the reset not taken, the normalisation taken): on whole
    memrefs — the seven inputs at their contents, the three outputs' buffers at anything, the four scratch
    operands at what the tile before left — it runs to the continuation with the context row, the
    log-sum-exp, the score block and the running maximum, denominator and numerator stored (their pieces,
    last first, are what the run finds) and the query projection as it was. -/
noncomputable def kernelRun0_C (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) :
    Σ' (L7 : List (View.Piece (Elt F) S1x1x2048 .f32)) (L8 : List (View.Piece (Elt F) S1x1x1 .f32)) (L9 : List (View.Piece (Elt F) S1x512x1 .f32)) (LS0 : List (View.Piece (Elt F) S1x1x1 .f32)) (LS1 : List (View.Piece (Elt F) S1x1x1 .f32)), { LS2 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ owns (c : Thread nD τ) arg15 fullShare xs3) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; isplitr; · ipureintro; exact harg15.read_unread _
    iexact HS3

end Cert.Kernel.Hand

end
-- ==== Proof.KR0Frame.lean ====
import proofs.«124677_j49830210568541_2_alg».proof.Proof.KR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its buffers hold point by point, the proof data and the body obligation

At the entry contents `V`. The running maximum, denominator, numerator and the query projection live in
scratch operands the kernel carries from one tile of a batch row to the next; the invariant names their
contents after every point. -/

/-- What the three output buffers and the four scratch operands hold after the body at a point. -/
structure Outs0 (F : FTy → Type) [FloatOps F] where
  o7 : Vec F S1x1x2048 .f32
  o8 : Vec F S1x1x1 .f32
  o9 : Vec F S1x512x1 .f32
  s0 : Vec F S1x1x1 .f32
  s1 : Vec F S1x1x1 .f32
  s2 : Vec F S1x1x2048 .f32
  s3 : Vec F S1x1024 .f32

/-! ## Each case's stores cover the buffers they go to -/

theorem cover0_A_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S1x512x1.size (by sl_kernel_rfl) y
theorem cover0_A_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S1x1x1.size (by sl_kernel_rfl) y
theorem cover0_A_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S1x1x1.size (by sl_kernel_rfl) y
theorem cover0_A_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S1x1x2048.size (by sl_kernel_rfl) y
theorem cover0_A_LS3 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S1x1024.size (by sl_kernel_rfl) y
theorem cover0_B_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 S1x512x1.size (by sl_kernel_rfl) y
theorem cover0_B_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 S1x1x1.size (by sl_kernel_rfl) y
theorem cover0_B_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 S1x1x1.size (by sl_kernel_rfl) y
theorem cover0_B_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 S1x1x2048.size (by sl_kernel_rfl) y
theorem cover0_C_L7 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 S1x1x2048.size (by sl_kernel_rfl) y
theorem cover0_C_L8 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 S1x1x1.size (by sl_kernel_rfl) y
theorem cover0_C_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 S1x512x1.size (by sl_kernel_rfl) y
theorem cover0_C_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 S1x1x1.size (by sl_kernel_rfl) y
theorem cover0_C_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 S1x1x1.size (by sl_kernel_rfl) y
theorem cover0_C_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1 S1x1x2048.size (by sl_kernel_rfl) y

/-- What the first tile of a row leaves: the score block and all four scratch operands as stored; the
    context row and the log-sum-exp are not stored there (placeholders nothing reads). -/
def caseA (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : Outs0 F where
  o7 := VO0_7.read (Elt F) VO0_7.junk
  o8 := VO0_8.read (Elt F) VO0_8.junk
  o9 := VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1)
  s3 := VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1)

/-- What a middle tile leaves: the score block, the running maximum, denominator and numerator as stored,
    the query projection as it was. -/
def caseB (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : Outs0 F where
  o7 := VO0_7.read (Elt F) VO0_7.junk
  o8 := VO0_8.read (Elt F) VO0_8.junk
  o9 := VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1)
  s3 := xs3

/-- What the last tile leaves: all three outputs and the three running quantities as stored, the query
    projection as it was. -/
def caseC (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : Outs0 F where
  o7 := VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1)
  o8 := VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1)
  o9 := VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1)
  s3 := xs3

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The recursion over the points: the case the point is in, run on the point's input blocks and, past a
    row's first tile, on the scratch contents the point before left. -/
def outsAt0 (c : Dev nD) : (n : ℕ) → n < cfg0.N → Outs0 F
  | 0, hn => caseA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 4 = 0 then
      if h1 : (n + 1) % 4 = 3 then
        False.elim (by omega)
      else
        caseA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : (n + 1) % 4 = 3 then
        caseC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3
      else
        caseB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3

theorem outsAt0_A (c : Dev nD) (t : Fin cfg0.N) (h0 : t.val % 4 = 0) (h1 : ¬t.val % 4 = 3) :
    outsAt0 V c t.val t.isLt = caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the four
    scratch operands at what the point before left, the second region's staging buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ owns (c : Thread nD τ) scM0_3 fullShare ((outsAt0 V c n hn).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ owns (c : Thread nD τ) scM0_3 fullShare ((outsAt0 V c n hn).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).s0) ∗ owns (c : Thread nD τ) scM0_1 fullShare ((outsAt0 V c (n - 1) (by omega)).s1) ∗ owns (c : Thread nD τ) scM0_2 fullShare ((outsAt0 V c (n - 1) (by omega)).s2) ∗ owns (c : Thread nD τ) scM0_3 fullShare ((outsAt0 V c (n - 1) (by omega)).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := by
  cases n with
  | zero => exact absurd rfl hz
  | succ n => rfl

/-- The proof data of the first pipeline at the entry contents: the inputs kept, the outputs at the
    recursion's components, the invariant `PhiS`, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).o7
    | ⟨8, _⟩ => (outsAt0 V c t.val t.isLt).o8
    | ⟨9, _⟩ => (outsAt0 V c t.val t.isLt).o9
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the closed forms of the two conditions say which case the point is in; the
    inputs' memrefs hold their blocks; the invariant hands the scratch operands in (at anything before the
    first point, at what the point before left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · -- the first tile of a batch row
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold caseA; (try dsimp only)
      by_cases hz : t.val = 0
      · rw [PhiS_castSucc V c t, PhiS_zero V c _ _ hz, PhiA0_eq]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, H8, ⟨%e9, H9⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (cover0_A_LS0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover0_A_LS1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (cover0_A_LS2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (cover0_A_LS3 c _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        unfold owns; iexists _; isplitr
        swap; · iexact H9
        ipureintro; exact View.read_writes_of_cover _ _ _ _ _ (cover0_A_L9 c _ _ _ _ _ _ _ _ _ _ _ _ _ _ _ _ _ _ _ _ _ _ _ _ _ _ _ _ _ _ _ _ _ _ _ _ _ _)
      · rw [PhiS_castSucc V c t, PhiS_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, ⟨%e9, H9⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (cover0_A_LS0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover0_A_LS1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (cover0_A_LS2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (cover0_A_LS3 c _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        unfold owns; iexists _; isplitr
        swap; · iexact H9
        ipureintro; exact View.read_writes_of_cover _ _ _ _ _ (cover0_A_L9 c _ _ _ _ _ _ _ _ _ _ _ _ _ _ _ _ _ _ _ _ _ _ _ _ _ _ _ _ _ _ _ _ _ _ _ _ _ _)
  · by_cases h1 : t.val % 4 = 3
    · -- the last tile of a batch row
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold caseC; (try dsimp only)
      have hz : t.val ≠ 0 := by omega
      rw [PhiS_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%e9, H9⟩, ⟨%es0, HS0⟩, ⟨%es1, HS1⟩, ⟨%es2, HS2⟩, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (cover0_C_LS0 c _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_LS1 c _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_LS2 c _ _ _ _ _ _ _ _ _ _ _ _ _ _ _ _ _ _ _ _ _ _ _ _ _ _ _ _ _ _ _ _ _ _ _ _ _ _ _ _ _ _)
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_L7 c _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_L8 c _ _ _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_C_L9 c _ _ _ _ _ _ _ _ _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold caseB; (try dsimp only)
      have hz : t.val ≠ 0 := by omega
      rw [PhiS_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, ⟨%e9, H9⟩, ⟨%es0, HS0⟩, ⟨%es1, HS1⟩, ⟨%es2, HS2⟩, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (cover0_B_LS0 c _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_B_LS1 c _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_B_LS2 c _ _ _ _ _ _ _ _ _ _ _ _ _ _ _ _ _ _ _ _ _ _ _ _ _ _ _ _ _ _ _ _ _ _ _ _ _ _ _ _ _ _)
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      unfold owns; iexists _; isplitr
      swap; · iexact H9
      ipureintro; exact View.read_writes_of_cover _ _ _ _ _ (cover0_B_L9 c _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end

end Cert.Kernel.Hand

end
-- ==== Proof.KR1.lean ====
import proofs.«124677_j49830210568541_2_alg».proof.Proof.Gen.Kernel.Launch
import proofs.«124677_j49830210568541_2_alg».proof.Proof.Gen.Kernel.Skeleton
import proofs.«124677_j49830210568541_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the second kernel, at the entry contents `V`

One grid point; the whole score matrix and the whole column of log-sum-exps are staged, and the body
stores exp (score - lse) over the whole output block. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S32x2048 := Rect.unit (s := S32x2048) ![0, 0] S32x2048.size inb_S32x2048_S32x2048_0_0
abbrev r1_1 : Rect S32x1 := Rect.unit (s := S32x1) ![0, 0] S32x1.size inb_S32x1_S32x1_0_0

/-- The output block after the body: its one store, of the payload of the two loaded blocks. -/
def out1_2 (x0 : Vec F S32x2048 .f32) (x1 : Vec F S32x1 .f32) : Vec F S32x2048 .f32 :=
  View.canon [⟨r1_0, k1_pay1 (View.ld x0 r1_0) (View.ld x1 r1_1)⟩]

theorem cover1_2 (p0 : Vec F S32x2048 .f32) (y : S32x2048.Idx) :
    ∃ pc ∈ ([⟨r1_0, p0⟩] : List (View.Piece (Elt F) S32x2048 .f32)), y ∈ pc.1.set :=
  View.cover_of_tiled [⟨r1_0, p0⟩] S32x2048.size (by rfl) y

set_option maxHeartbeats 1000000 in
/-- The body on whole staging memrefs: the two inputs kept, the output at `out1_2` of them. -/
theorem sound_kernel1 (c : Dev nD) (E : Set ℕ) (i : grid1.Coords) (arg1 : Memref sig .tc .vmem S32x2048 .f32) (harg1 : arg1.IsWhole) (arg2 : Memref sig .tc .vmem S32x1 .f32) (harg2 : arg2.IsWhole) (arg3 : Memref sig .tc .vmem S32x2048 .f32) (harg3 : arg3.IsWhole)
    (x0 : Vec F S32x2048 .f32) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline: the arrays as found, the inputs kept, the output at `out1_2`
    of the input blocks, the class invariant, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
import proofs.«124677_j49830210568541_2_alg».proof.Proof.KR0Frame
import proofs.«124677_j49830210568541_2_alg».proof.Proof.KR1
import proofs.«124677_j49830210568541_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five segments from the launch to the return

A host stretch, the first kernel's region, a host stretch (two reshapes), the second kernel's region, a
host stretch (one broadcast). The buffer contents at each boundary are a fold from the launch memory. -/

variable (m : (ℓ : Loc nD τ sig) → Buf (Elt F) ℓ)

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: what @main returns from. -/
abbrev W5 : Dev nD → Valuation τ sig (Elt F) := fun c => StableHlo.after hostOps2 (W4 m c)

/-! ### The arguments end as launched: no host operation and no region writes one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 4).trans (((dat0 (U1 m) c).arrAt_in 4 rfl _).trans (A_eq0 (U1 m) c 4))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := (W2_arr m c 6).trans (((dat0 (U1 m) c).arrAt_in 6 rfl _).trans (A_eq0 (U1 m) c 6))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at their final contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (U1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their final contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (mainSegs m) := (main_chain c).trans (by chain_rfl)

set_option backward.isDefEq.respectTransparency.types false in
/-- From any launch memory with zero counters every weakly fair execution of @main terminates, nothing
    faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c)⟩) (run_all m ρ)

end Cert.Kernel.Hand

end
-- ==== Proof.KiR0Base.lean ====
import proofs.«124677_j49830210568541_2_alg».proof.Proof.Gen.KernelIdeal.Launch
import proofs.«124677_j49830210568541_2_alg».proof.Proof.Gen.KernelIdeal.Skeleton
import proofs.«124677_j49830210568541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its three control cases share

The body branches twice on the second grid coordinate: the reset of the running maximum, the running
denominator, the running numerator and the query projection at the first tile of a batch row, and the
normalisation at its last tile. Over the 32 x 4 grid the first holds at the points = 0 (mod 4), the
second at the points = 3 (mod 4). -/

/-- The first branch's condition over the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch's condition over the grid coordinates. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the context row and the log-sum-exp are stored at a row's last tile only -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_9 : ∀ t : Fin cfg0.N, cfg0.idle 9 (grid0.coords t) = false := by decide +kernel

theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem idleAt0_8_B : ∀ t : Fin cfg0.N, ¬cond0_0 (grid0.coords t) → ¬cond0_1 (grid0.coords t) → cfg0.idle 8 (grid0.coords t) = true := by decide +kernel
theorem noFlush0_8_B : ∀ t : Fin cfg0.N, ¬cond0_0 (grid0.coords t) → ¬cond0_1 (grid0.coords t) → (cfg0.win 8).flush t = false := by decide +kernel
theorem liveAt0_8_C : ∀ t : Fin cfg0.N, ¬cond0_0 (grid0.coords t) → cond0_1 (grid0.coords t) → cfg0.idle 8 (grid0.coords t) = false := by decide +kernel

/-! ## The staging memrefs at a point, and the four scratch operands -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1 .f32 := win0_9.stage (cfg0.slots t 9)
abbrev hs0_9 (t : Fin cfg0.N) : (ms0_9 t).IsWhole := hstage0_9 ((cfg0.slots t 9).cast nbuf0_9)
abbrev scM0_0 : Memref sig .tc .vmem S1x1x1 .f32 := Memref.whole cc0_scratch0
abbrev VS0_0 : View sig .tc .vmem S1x1x1 .f32 := scM0_0.view
abbrev scM0_1 : Memref sig .tc .vmem S1x1x1 .f32 := Memref.whole cc0_scratch1
abbrev VS0_1 : View sig .tc .vmem S1x1x1 .f32 := scM0_1.view
abbrev scM0_2 : Memref sig .tc .vmem S1x1x2048 .f32 := Memref.whole cc0_scratch2
abbrev VS0_2 : View sig .tc .vmem S1x1x2048 .f32 := scM0_2.view
abbrev scM0_3 : Memref sig .tc .vmem S1x1024 .f32 := Memref.whole cc0_scratch3
abbrev VS0_3 : View sig .tc .vmem S1x1024 .f32 := scM0_3.view
abbrev VO0_7 : View sig .tc .vmem S1x1x2048 .f32 := (Memref.whole cc0_stg7_0 : Memref sig .tc .vmem S1x1x2048 .f32).view
abbrev VO0_8 : View sig .tc .vmem S1x1x1 .f32 := (Memref.whole cc0_stg8_0 : Memref sig .tc .vmem S1x1x1 .f32).view
abbrev VO0_9 : View sig .tc .vmem S1x512x1 .f32 := (Memref.whole cc0_stg9_0 : Memref sig .tc .vmem S1x512x1 .f32).view

/-- The region's class invariant spelt out: the four scratch operands owned at some contents, the second
    region's three staging buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
          ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := by
  unfold Pipeline.ΦA; rw [scopedRest0_eq]; simp only [scM0_0, scM0_1, scM0_2, scM0_3, owns_whole]; try rfl

end Cert.KernelIdeal.Hand

end
-- ==== Proof.KiR0RunB.lean ====
import proofs.«124677_j49830210568541_2_alg».proof.Proof.KiR0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle tile of a batch row (neither branch taken): on whole memrefs — the seven inputs at
    their contents, the context row's and the log-sum-exp's buffers handed back untouched, the score block's
    at anything, the four scratch operands at what the tile before left — it runs to the continuation
    with the score block, the running maximum, denominator and numerator stored (their pieces, last first,
    are what the run finds) and the query projection as it was. -/
noncomputable def kernelRun0_B (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) :
    Σ' (L9 : List (View.Piece (Elt F) S1x512x1 .f32)) (LS0 : List (View.Piece (Elt F) S1x1x1 .f32)) (LS1 : List (View.Piece (Elt F) S1x1x1 .f32)), { LS2 : List (View.Piece (Elt F) S1x1x2048 .f32) //
      ∀ (xi7 : Vec F S1x1x2048 .f32) (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ owns (c : Thread nD τ) arg15 fullShare xs3) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xi7 xi8 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    iexists _; isplitr; · ipureintro; exact harg15.read_unread _
    iexact HS3

end Cert.KernelIdeal.Hand

end
-- ==== Proof.KiR0RunA.lean ====
import proofs.«124677_j49830210568541_2_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first tile of a batch row (the reset taken, the normalisation not): on whole memrefs —
    the seven inputs at their contents, the context row's and the log-sum-exp's buffers handed back
    untouched, the score block's and the four scratch operands at anything — it runs to the continuation
    with the score block and all four scratch operands stored (their pieces, last first, are what the
    run finds). -/
noncomputable def kernelRun0_A (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) :
    Σ' (L9 : List (View.Piece (Elt F) S1x512x1 .f32)) (LS0 : List (View.Piece (Elt F) S1x1x1 .f32)) (LS1 : List (View.Piece (Elt F) S1x1x1 .f32)) (LS2 : List (View.Piece (Elt F) S1x1x2048 .f32)), { LS3 : List (View.Piece (Elt F) S1x1024 .f32) //
      ∀ (xi7 : Vec F S1x1x2048 .f32) (xi8 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d)
            ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun xi7 xi8 E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Hand

end
-- ==== Proof.KiR0RunC.lean ====
import proofs.«124677_j49830210568541_2_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last tile of a batch row (the reset not taken, the normalisation taken): on whole
    memrefs — the seven inputs at their contents, the three outputs' buffers at anything, the four scratch
    operands at what the tile before left — it runs to the continuation with the context row, the
    log-sum-exp, the score block and the running maximum, denominator and numerator stored (their pieces,
    last first, are what the run finds) and the query projection as it was. -/
noncomputable def kernelRun0_C (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i)
    (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) :
    Σ' (L7 : List (View.Piece (Elt F) S1x1x2048 .f32)) (L8 : List (View.Piece (Elt F) S1x1x1 .f32)) (L9 : List (View.Piece (Elt F) S1x512x1 .f32)) (LS0 : List (View.Piece (Elt F) S1x1x1 .f32)) (LS1 : List (View.Piece (Elt F) S1x1x1 .f32)), { LS2 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ owns (c : Thread nD τ) arg15 fullShare xs3) -∗ K ⟨⟩))
          ⊢ wp frame (wpE (defs₀ (F := F)) Variants.none c none) E (cc0__kernel_a i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__kernel_a_eq_skeleton]; unfold cc0__kernel_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg12.eq_unread hfs0; obtain rfl := harg13.eq_unread hfs1; obtain rfl := harg14.eq_unread hfs2; obtain rfl := harg15.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; isplitr; · ipureintro; exact harg15.read_unread _
    iexact HS3

end Cert.KernelIdeal.Hand

end
-- ==== Proof.KiR0Frame.lean ====
import proofs.«124677_j49830210568541_2_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what its buffers hold point by point, the proof data and the body obligation

At the entry contents `V`. The running maximum, denominator, numerator and the query projection live in
scratch operands the kernel carries from one tile of a batch row to the next; the invariant names their
contents after every point. -/

/-- What the three output buffers and the four scratch operands hold after the body at a point. -/
structure Outs0 (F : FTy → Type) [FloatOps F] where
  o7 : Vec F S1x1x2048 .f32
  o8 : Vec F S1x1x1 .f32
  o9 : Vec F S1x512x1 .f32
  s0 : Vec F S1x1x1 .f32
  s1 : Vec F S1x1x1 .f32
  s2 : Vec F S1x1x2048 .f32
  s3 : Vec F S1x1024 .f32

/-! ## Each case's stores cover the buffers they go to -/

theorem cover0_A_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1 S1x512x1.size (by sl_kernel_rfl) y
theorem cover0_A_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1 S1x1x1.size (by sl_kernel_rfl) y
theorem cover0_A_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1 S1x1x1.size (by sl_kernel_rfl) y
theorem cover0_A_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1 S1x1x2048.size (by sl_kernel_rfl) y
theorem cover0_A_LS3 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32)  (y : S1x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1 S1x1024.size (by sl_kernel_rfl) y
theorem cover0_B_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 S1x512x1.size (by sl_kernel_rfl) y
theorem cover0_B_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 S1x1x1.size (by sl_kernel_rfl) y
theorem cover0_B_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 S1x1x1.size (by sl_kernel_rfl) y
theorem cover0_B_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 S1x1x2048.size (by sl_kernel_rfl) y
theorem cover0_C_L7 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1 S1x1x2048.size (by sl_kernel_rfl) y
theorem cover0_C_L8 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1 S1x1x1.size (by sl_kernel_rfl) y
theorem cover0_C_L9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1 S1x512x1.size (by sl_kernel_rfl) y
theorem cover0_C_LS0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1 S1x1x1.size (by sl_kernel_rfl) y
theorem cover0_C_LS1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1 S1x1x1.size (by sl_kernel_rfl) y
theorem cover0_C_LS2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) (y : S1x1x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1 S1x1x2048.size (by sl_kernel_rfl) y

/-- What the first tile of a row leaves: the score block and all four scratch operands as stored; the
    context row and the log-sum-exp are not stored there (placeholders nothing reads). -/
def caseA (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : Outs0 F where
  o7 := VO0_7.read (Elt F) VO0_7.junk
  o8 := VO0_8.read (Elt F) VO0_8.junk
  o9 := VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.1)
  s3 := VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).2.2.2.2.1)

/-- What a middle tile leaves: the score block, the running maximum, denominator and numerator as stored,
    the query projection as it was. -/
def caseB (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : Outs0 F where
  o7 := VO0_7.read (Elt F) VO0_7.junk
  o8 := VO0_8.read (Elt F) VO0_8.junk
  o9 := VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1)
  s3 := xs3

/-- What the last tile leaves: all three outputs and the three running quantities as stored, the query
    projection as it was. -/
def caseC (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : Outs0 F where
  o7 := VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).1)
  o8 := VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.1)
  o9 := VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).2.2.2.2.2.1)
  s3 := xs3

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The recursion over the points: the case the point is in, run on the point's input blocks and, past a
    row's first tile, on the scratch contents the point before left. -/
def outsAt0 (c : Dev nD) : (n : ℕ) → n < cfg0.N → Outs0 F
  | 0, hn => caseA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 4 = 0 then
      if h1 : (n + 1) % 4 = 3 then
        False.elim (by omega)
      else
        caseA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : (n + 1) % 4 = 3 then
        caseC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3
      else
        caseB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).s0 (outsAt0 c n (Nat.lt_of_succ_lt hn)).s1 (outsAt0 c n (Nat.lt_of_succ_lt hn)).s2 (outsAt0 c n (Nat.lt_of_succ_lt hn)).s3

theorem outsAt0_A (c : Dev nD) (t : Fin cfg0.N) (h0 : t.val % 4 = 0) (h1 : ¬t.val % 4 = 3) :
    outsAt0 V c t.val t.isLt = caseA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = caseB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = caseC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).s0 (outsAt0 V c (t.val - 1) (Nat.lt_of_le_of_lt (Nat.sub_le _ _) t.isLt)).s1 (outsAt0 V c (t.val - 1) (Nat.lt_of_le_of_lt (Nat.sub_le _ _) t.isLt)).s2 (outsAt0 V c (t.val - 1) (Nat.lt_of_le_of_lt (Nat.sub_le _ _) t.isLt)).s3 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the four
    scratch operands at what the point before left, the second region's staging buffers at anything, the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ owns (c : Thread nD τ) scM0_3 fullShare ((outsAt0 V c n hn).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ owns (c : Thread nD τ) scM0_3 fullShare ((outsAt0 V c n hn).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).s0) ∗ owns (c : Thread nD τ) scM0_1 fullShare ((outsAt0 V c (n - 1) (by omega)).s1) ∗ owns (c : Thread nD τ) scM0_2 fullShare ((outsAt0 V c (n - 1) (by omega)).s2) ∗ owns (c : Thread nD τ) scM0_3 fullShare ((outsAt0 V c (n - 1) (by omega)).s3) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := by
  cases n with
  | zero => exact absurd rfl hz
  | succ n => rfl

/-- The proof data of the first pipeline at the entry contents: the inputs kept, the outputs at the
    recursion's components, the invariant `PhiS`, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).o7
    | ⟨8, _⟩ => (outsAt0 V c t.val t.isLt).o8
    | ⟨9, _⟩ => (outsAt0 V c t.val t.isLt).o9
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).o7 := by dsimp only [dat0]
theorem after0_8 (c : Dev nD) (t : Fin cfg0.N) : (dat0 V c).after 8 t = (outsAt0 V c t.val t.isLt).o8 := by dsimp only [dat0]
theorem after0_9 (c : Dev nD) (t : Fin cfg0.N) : (dat0 V c).after 9 t = (outsAt0 V c t.val t.isLt).o9 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the closed forms of the two conditions say which case the point is in; the
    inputs' memrefs hold their blocks; the invariant hands the scratch operands in (at anything before the
    first point, at what the point before left afterwards) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · -- the first tile of a batch row
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dat0 V c) 8 t (idleAt0_8_A t ((hcond0_0 t).mpr h0) (fun h => h1 ((hcond0_1 t).mp h))) (noFlush0_8_A t ((hcond0_0 t).mpr h0) (fun h => h1 ((hcond0_1 t).mp h)))]
      rw [outsAt0_A V c t h0 h1]
      unfold caseA; (try dsimp only)
      by_cases hz : t.val = 0
      · rw [PhiS_castSucc V c t, PhiS_zero V c _ _ hz, PhiA0_eq]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, H7, H8, ⟨%e9, H9⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (cover0_A_LS0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover0_A_LS1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (cover0_A_LS2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (cover0_A_LS3 c _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        unfold owns; iexists _; isplitr
        swap; · iexact H9
        ipureintro; exact View.read_writes_of_cover _ _ _ _ _ (cover0_A_L9 c _ _ _ _ _ _ _ _ _ _ _ _ _ _ _ _ _ _ _ _ _ _ _ _ _ _ _ _ _ _ _ _ _ _ _ _ _ _)
      · rw [PhiS_castSucc V c t, PhiS_pos V c _ _ hz]
        iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, H8, ⟨%e9, H9⟩, ⟨%es0, HS0⟩, ⟨%es1, HS1⟩, ⟨%es2, HS2⟩, ⟨%es3, HS3⟩⟩
        isplitl [HS0 HS1 HS2 HS3 HR Hg]
        · isplitl [HS0 HS1 HS2 HS3 HR]
          · isplitl [HS0]
            · unfold owns; iexists _; isplitr
              swap; · iexact HS0
              ipureintro; exact View.read_writes_of_cover _ _ _ _ _ (cover0_A_LS0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (cover0_A_LS1 c _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (cover0_A_LS2 c _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (cover0_A_LS3 c _ _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        unfold owns; iexists _; isplitr
        swap; · iexact H9
        ipureintro; exact View.read_writes_of_cover _ _ _ _ _ (cover0_A_L9 c _ _ _ _ _ _ _ _ _ _ _ _ _ _ _ _ _ _ _ _ _ _ _ _ _ _ _ _ _ _ _ _ _ _ _ _ _ _)
  · by_cases h1 : t.val % 4 = 3
    · -- the last tile of a batch row
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [show (dat0 V c).leavesExact 8 t = owns (c : Thread nD τ) (ms0_8 t) fullShare ((dat0 V c).after 8 t) from by
        unfold Dat.leavesExact; rw [liveAt0_8_C t (fun h => h0 ((hcond0_0 t).mp h)) ((hcond0_1 t).mpr h1)], after0_8]
      rw [outsAt0_C V c t h0 h1]
      unfold caseC; (try dsimp only)
      have hz : t.val ≠ 0 := by omega
      rw [PhiS_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%e8, H8⟩, ⟨%e9, H9⟩, ⟨%es0, HS0⟩, ⟨%es1, HS1⟩, ⟨%es2, HS2⟩, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (cover0_C_LS0 c _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_C_LS1 c _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_C_LS2 c _ _ _ _ _ _ _ _ _ _ _ _ _ _ _ _ _ _ _ _ _ _ _ _ _ _ _ _ _ _ _ _ _ _ _ _ _ _ _ _ _ _)
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_L7 c _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_L8 c _ _ _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_C_L9 c _ _ _ _ _ _ _ _ _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 9 t = owns (c : Thread nD τ) (ms0_9 t) fullShare ((dat0 V c).after 9 t) from by
        unfold Dat.leavesExact; rw [liveAt0_9 t], after0_9]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dat0 V c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [outsAt0_B V c t h0 h1]
      unfold caseB; (try dsimp only)
      have hz : t.val ≠ 0 := by omega
      rw [PhiS_castSucc V c t, PhiS_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, H8, ⟨%e9, H9⟩, ⟨%es0, HS0⟩, ⟨%es1, HS1⟩, ⟨%es2, HS2⟩, HS3⟩
      isplitl [HS0 HS1 HS2 HS3 HR Hg]
      · isplitl [HS0 HS1 HS2 HS3 HR]
        · isplitl [HS0]
          · unfold owns; iexists _; isplitr
            swap; · iexact HS0
            ipureintro; exact View.read_writes_of_cover _ _ _ _ _ (cover0_B_LS0 c _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (cover0_B_LS1 c _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (cover0_B_LS2 c _ _ _ _ _ _ _ _ _ _ _ _ _ _ _ _ _ _ _ _ _ _ _ _ _ _ _ _ _ _ _ _ _ _ _ _ _ _ _ _ _ _)
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      unfold owns; iexists _; isplitr
      swap; · iexact H9
      ipureintro; exact View.read_writes_of_cover _ _ _ _ _ (cover0_B_L9 c _ _ _ _ _ _ _ _ _ _ _ _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the scratch contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end

end Cert.KernelIdeal.Hand

end
-- ==== Proof.KiR1.lean ====
import proofs.«124677_j49830210568541_2_alg».proof.Proof.Gen.KernelIdeal.Launch
import proofs.«124677_j49830210568541_2_alg».proof.Proof.Gen.KernelIdeal.Skeleton
import proofs.«124677_j49830210568541_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the second kernel, at the entry contents `V`

One grid point; the whole score matrix and the whole column of log-sum-exps are staged, and the body
stores exp (score - lse) over the whole output block. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S32x2048 := Rect.unit (s := S32x2048) ![0, 0] S32x2048.size inb_S32x2048_S32x2048_0_0
abbrev r1_1 : Rect S32x1 := Rect.unit (s := S32x1) ![0, 0] S32x1.size inb_S32x1_S32x1_0_0

/-- The output block after the body: its one store, of the payload of the two loaded blocks. -/
def out1_2 (x0 : Vec F S32x2048 .f32) (x1 : Vec F S32x1 .f32) : Vec F S32x2048 .f32 :=
  View.canon [⟨r1_0, k1_pay1 (View.ld x0 r1_0) (View.ld x1 r1_1)⟩]

theorem cover1_2 (p0 : Vec F S32x2048 .f32) (y : S32x2048.Idx) :
    ∃ pc ∈ ([⟨r1_0, p0⟩] : List (View.Piece (Elt F) S32x2048 .f32)), y ∈ pc.1.set :=
  View.cover_of_tiled [⟨r1_0, p0⟩] S32x2048.size (by rfl) y

set_option maxHeartbeats 1000000 in
/-- The body on whole staging memrefs: the two inputs kept, the output at `out1_2` of them. -/
theorem sound_kernel1 (c : Dev nD) (E : Set ℕ) (i : grid1.Coords) (arg1 : Memref sig .tc .vmem S32x2048 .f32) (harg1 : arg1.IsWhole) (arg2 : Memref sig .tc .vmem S32x1 .f32) (harg2 : arg2.IsWhole) (arg3 : Memref sig .tc .vmem S32x2048 .f32) (harg3 : arg3.IsWhole)
    (x0 : Vec F S32x2048 .f32) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__kernel_b i arg1 harg1 arg2 harg2 arg3 harg3) K := by
  simp only [cc1__kernel_b_eq_skeleton]; unfold cc1__kernel_b_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second pipeline: the arrays as found, the inputs kept, the output at `out1_2`
    of the input blocks, the class invariant, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KiRun.lean ====
import proofs.«124677_j49830210568541_2_alg».proof.Proof.KiR0Frame
import proofs.«124677_j49830210568541_2_alg».proof.Proof.KiR1
import proofs.«124677_j49830210568541_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's five segments from the launch to the return

A host stretch, the first kernel's region, a host stretch (two reshapes), the second kernel's region, a
host stretch (one broadcast). The buffer contents at each boundary are a fold from the launch memory. -/

variable (m : (ℓ : Loc nD τ sig) → Buf (Elt F) ℓ)

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: what @main returns from. -/
abbrev W5 : Dev nD → Valuation τ sig (Elt F) := fun c => StableHlo.after hostOps2 (W4 m c)

/-! ### The arguments end as launched: no host operation and no region writes one -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := (W2_arr m c 1).trans (((dat0 (U1 m) c).arrAt_in 1 rfl _).trans (A_eq0 (U1 m) c 1))
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := (W2_arr m c 4).trans (((dat0 (U1 m) c).arrAt_in 4 rfl _).trans (A_eq0 (U1 m) c 4))
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg5) := (W2_arr m c 6).trans (((dat0 (U1 m) c).arrAt_in 6 rfl _).trans (A_eq0 (U1 m) c 6))
    _ = W0 m c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. Its arrays are
    split out of the unscoped buffers and put back at their final contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (U1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at their final contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (mainSegs m) := (main_chain c).trans (by chain_rfl)

set_option backward.isDefEq.respectTransparency.types false in
/-- From any launch memory with zero counters every weakly fair execution of @main terminates, nothing
    faulting, and every final memory holds every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c)⟩) (run_all m ρ)

end Cert.KernelIdeal.Hand

end
-- ==== Proof.KiR0Pieces.lean ====
import proofs.«124677_j49830210568541_2_alg».proof.Proof.KiR0Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-! # Region 0: each case's stores as one tile step on the carried state

The body at any tile does the same thing to the running maximum `m`, the running denominator `l` and the
running numerator `acc`, given the tile's block of values, the two weight blocks, the bias and the query
projection `qp` it finds in scratch; at a row's first tile it first resets `m` to -inf, `l` and `acc` to
zero and computes `qp`. So every case is `step` applied to a state: the one the tile before left, or the
reset one. -/

/-- The carried state: running maximum, denominator, numerator, and the query projection. -/
structure St (F : FTy → Type) [FloatOps F] where
  m : Vec F S1x1x1 .f32
  l : Vec F S1x1x1 .f32
  acc : Vec F S1x1x2048 .f32
  qp : Vec F S1x1024 .f32

/-- The state a row's first tile starts from: -inf, zero, zero, and the query row through the query half of
    the dense layer plus the bias. -/
def reset (x0 : Vec F S1x1x1024 .f32) (x3 : Vec F S1024x1024 .bf16) (x4 : Vec F S1024 .f32) : St F :=
  ⟨k0_pay6, k0_pay7, k0_pay8, k0_pay9 x0 x3 x4⟩

/-- The tile's scores. -/
def tileScore (x1 : Vec F S1x512x2048 .f32) (x2 : Vec F S1024x1024 .bf16) (x5 : Vec F S1024x1 .bf16) (x6 : Vec F S1 .f32) (st : St F) : Vec F S1x512x1 .f32 :=
  k0_pay11 x1 x2 st.qp x5 x6

/-- One tile's update of the carried state. -/
def step (x1 : Vec F S1x512x2048 .f32) (x2 : Vec F S1024x1024 .bf16) (x5 : Vec F S1024x1 .bf16) (x6 : Vec F S1 .f32) (st : St F) : St F :=
  ⟨k0_pay3 (k0_pay12 x1 x2 st.qp x5 x6 st.m),
   k0_pay1 (k0_pay13 x1 x2 st.qp x5 x6 st.m) (k0_pay14 x1 x2 st.qp x5 x6 st.m) st.l,
   k0_pay2 (k0_pay10 x1) (k0_pay13 x1 x2 st.qp x5 x6 st.m) (k0_pay14 x1 x2 st.qp x5 x6 st.m) st.acc,
   st.qp⟩

/-- The state a point leaves. -/
def stOf (o : Outs0 F) : St F := ⟨o.s0, o.s1, o.s2, o.s3⟩

/-! ## A middle tile -/

theorem caseB_o9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).o9 = tileScore x1 x2 x5 x6 ⟨xs0, xs1, xs2, xs3⟩ := by
  unfold caseB; dsimp only
  rw [View.read_writes_eq_canon _ _ _ (cover0_B_L9 c _ _ _ _ _ _ _ _ _ _ _ _ _ _ _ _ _ _ _ _ _ _ _ _ _ _ _ _ _ _ _ _ _ _ _ _ _ _ _ _ _ _)]
  unfold kernelRun0_B; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseB_s0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s0 = (step x1 x2 x5 x6 ⟨xs0, xs1, xs2, xs3⟩).m := by
  unfold caseB; dsimp only
  rw [View.read_writes_eq_canon _ _ _ (cover0_B_LS0 c _ _ _ _ _ _ _ _ _ _ _ _ _ _ _ _ _ _ _ _ _ _ _ _ _ _ _ _ _ _ _ _ _ _ _ _ _ _ _ _ _ _)]
  unfold kernelRun0_B; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseB_s1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s1 = (step x1 x2 x5 x6 ⟨xs0, xs1, xs2, xs3⟩).l := by
  unfold caseB; dsimp only
  rw [View.read_writes_eq_canon _ _ _ (cover0_B_LS1 c _ _ _ _ _ _ _ _ _ _ _ _ _ _ _ _ _ _ _ _ _ _ _ _ _ _ _ _ _ _ _ _ _ _ _ _ _ _ _ _ _ _)]
  unfold kernelRun0_B; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseB_s2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s2 = (step x1 x2 x5 x6 ⟨xs0, xs1, xs2, xs3⟩).acc := by
  unfold caseB; dsimp only
  rw [View.read_writes_eq_canon _ _ _ (cover0_B_LS2 c _ _ _ _ _ _ _ _ _ _ _ _ _ _ _ _ _ _ _ _ _ _ _ _ _ _ _ _ _ _ _ _ _ _ _ _ _ _ _ _ _ _)]
  unfold kernelRun0_B; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseB_s3 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s3 = xs3 := rfl
theorem caseB_st (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : stOf (caseB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3) = step x1 x2 x5 x6 ⟨xs0, xs1, xs2, xs3⟩ := by
  unfold stOf
  rw [caseB_s0, caseB_s1, caseB_s2, caseB_s3]
  rfl

/-! ## The last tile of a row -/

theorem caseC_o9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).o9 = tileScore x1 x2 x5 x6 ⟨xs0, xs1, xs2, xs3⟩ := by
  unfold caseC; dsimp only
  rw [View.read_writes_eq_canon _ _ _ (cover0_C_L9 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseC_s0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s0 = (step x1 x2 x5 x6 ⟨xs0, xs1, xs2, xs3⟩).m := by
  unfold caseC; dsimp only
  rw [View.read_writes_eq_canon _ _ _ (cover0_C_LS0 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseC_s1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s1 = (step x1 x2 x5 x6 ⟨xs0, xs1, xs2, xs3⟩).l := by
  unfold caseC; dsimp only
  rw [View.read_writes_eq_canon _ _ _ (cover0_C_LS1 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseC_s2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s2 = (step x1 x2 x5 x6 ⟨xs0, xs1, xs2, xs3⟩).acc := by
  unfold caseC; dsimp only
  rw [View.read_writes_eq_canon _ _ _ (cover0_C_LS2 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseC_s3 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).s3 = xs3 := rfl
theorem caseC_st (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : stOf (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3) = step x1 x2 x5 x6 ⟨xs0, xs1, xs2, xs3⟩ := by
  unfold stOf
  rw [caseC_s0, caseC_s1, caseC_s2, caseC_s3]
  rfl
/-- The context row: the running numerator over the running denominator, after this tile. -/
theorem caseC_o7 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).o7 = k0_pay4 (step x1 x2 x5 x6 ⟨xs0, xs1, xs2, xs3⟩).acc (step x1 x2 x5 x6 ⟨xs0, xs1, xs2, xs3⟩).l := by
  unfold caseC; dsimp only
  rw [View.read_writes_eq_canon _ _ _ (cover0_C_L7 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
/-- The log-sum-exp: the running maximum plus the logarithm of the running denominator, after this tile. -/
theorem caseC_o8 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : ¬cond0_0 i) (hc1 : cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) (xs0 : Vec F S1x1x1 .f32) (xs1 : Vec F S1x1x1 .f32) (xs2 : Vec F S1x1x2048 .f32) (xs3 : Vec F S1x1024 .f32) : (caseC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 xs2 xs3).o8 = k0_pay5 (step x1 x2 x5 x6 ⟨xs0, xs1, xs2, xs3⟩).m (step x1 x2 x5 x6 ⟨xs0, xs1, xs2, xs3⟩).l := by
  unfold caseC; dsimp only
  rw [View.read_writes_eq_canon _ _ _ (cover0_C_L8 c _ _ _ _ _ _ _ _ _ _ _ _ _ _ _ _ _ _ _ _ _ _ _ _ _ _ _ _ _ _ _ _ _ _ _ _ _ _ _ _ _ _)]
  unfold kernelRun0_C; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl

/-! ## The first tile of a row -/

theorem caseA_o9 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).o9 = tileScore x1 x2 x5 x6 (reset x0 x3 x4) := by
  unfold caseA; dsimp only
  rw [View.read_writes_eq_canon _ _ _ (cover0_A_L9 c _ _ _ _ _ _ _ _ _ _ _ _ _ _ _ _ _ _ _ _ _ _ _ _ _ _ _ _ _ _ _ _ _ _ _ _ _ _)]
  unfold kernelRun0_A; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseA_s0 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).s0 = (step x1 x2 x5 x6 (reset x0 x3 x4)).m := by
  unfold caseA; dsimp only
  rw [View.read_writes_eq_canon _ _ _ (cover0_A_LS0 c _ _ _ _ _ _ _ _ _ _ _ _ _ _ _ _ _ _ _ _ _ _ _ _ _ _ _ _ _ _ _ _ _ _ _ _ _ _)]
  unfold kernelRun0_A; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseA_s1 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).s1 = (step x1 x2 x5 x6 (reset x0 x3 x4)).l := by
  unfold caseA; dsimp only
  rw [View.read_writes_eq_canon _ _ _ (cover0_A_LS1 c _ _ _ _ _ _ _ _ _ _ _ _ _ _ _ _ _ _ _ _ _ _ _ _ _ _ _ _ _ _ _ _ _ _ _ _ _ _)]
  unfold kernelRun0_A; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseA_s2 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).s2 = (step x1 x2 x5 x6 (reset x0 x3 x4)).acc := by
  unfold caseA; dsimp only
  rw [View.read_writes_eq_canon _ _ _ (cover0_A_LS2 c _ _ _ _ _ _ _ _ _ _ _ _ _ _ _ _ _ _ _ _ _ _ _ _ _ _ _ _ _ _ _ _ _ _ _ _ _ _)]
  unfold kernelRun0_A; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseA_s3 (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6).s3 = (reset x0 x3 x4).qp := by
  unfold caseA; dsimp only
  rw [View.read_writes_eq_canon _ _ _ (cover0_A_LS3 c _ _ _ _ _ _ _ _ _ _ _ _ _ _ _ _ _ _ _ _ _ _ _ _ _ _ _ _ _ _ _ _ _ _ _ _ _ _)]
  unfold kernelRun0_A; dsimp only; sl_unfold_words
  first
    | rw [View.canon_cons_unit_zero hz3]
    | rw [View.canon_cons_unit_zero hz2]
  simp only [View.readAt_eq_ld, Memref.IsWhole.read_unread, View.ld_unit_zero (S := S1x1x1) hz3, View.ld_unit_zero (S := S1x1x2048) hz3, View.ld_unit_zero (S := S1x1x1024) hz3, View.ld_unit_zero (S := S1x512x2048) hz3, View.ld_unit_zero (S := S1x512x1) hz3, View.ld_unit_zero (S := S1024x1024) hz2, View.ld_unit_zero (S := S1x1024) hz2, View.ld_unit_zero (S := S1024x1) hz2, View.ld_unit_zero (S := S1024) hz1, View.ld_unit_zero (S := S1) hz1, View.readCov_unit_zero (S := S1x1x1) _ hz3, View.readCov_unit_zero (S := S1x1x2048) _ hz3, View.readCov_unit_zero (S := S1x1024) _ hz2, View.readCov_unit_zero (S := S1x512x1) _ hz3] <;> rfl
theorem caseA_st (c : Dev nD) (i : grid0.Coords) (arg2 : Memref sig .tc .vmem S1x1x1024 .f32) (harg2 : arg2.IsWhole) (arg3 : Memref sig .tc .vmem S1x512x2048 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x1 .bf16) (harg7 : arg7.IsWhole) (arg8 : Memref sig .tc .vmem S1 .f32) (harg8 : arg8.IsWhole) (arg9 : Memref sig .tc .vmem S1x1x2048 .f32) (harg9 : arg9.IsWhole) (arg10 : Memref sig .tc .vmem S1x1x1 .f32) (harg10 : arg10.IsWhole) (arg11 : Memref sig .tc .vmem S1x512x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x2048 .f32) (harg14 : arg14.IsWhole) (arg15 : Memref sig .tc .vmem S1x1024 .f32) (harg15 : arg15.IsWhole) (hc0 : cond0_0 i) (hc1 : ¬cond0_1 i) (x0 : Vec F S1x1x1024 .f32) (x1 : Vec F S1x512x2048 .f32) (x2 : Vec F S1024x1024 .bf16) (x3 : Vec F S1024x1024 .bf16) (x4 : Vec F S1024 .f32) (x5 : Vec F S1024x1 .bf16) (x6 : Vec F S1 .f32) : stOf (caseA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6) = step x1 x2 x5 x6 (reset x0 x3 x4) := by
  unfold stOf
  rw [caseA_s0, caseA_s1, caseA_s2, caseA_s3]
  rfl

end Cert.KernelIdeal.Hand

end
-- ==== Proof.LibRank3Middle.lean ====
import Idealize.ShloMosaic.Lib.ValueIdx
import Idealize.ShloMosaic.Lib.Pipeline.Value
import Idealize.ShloMosaic.PureOps.Ideal.Laws

/-!
# Rank-3 arrays along their middle axis, and a running maximum of real numbers

Three facts that hold for any sizes.

* A reduction of a rank-3 array `[n0, n1, n2]` along its middle axis to `[n0, n2]`: over a result index `(p, q)`
  the source index whose reduced coordinate is `k` is `(p, k, q)`. With it a lane sum or a lane maximum along the
  middle axis reads, on the extended reals, as the sum or the fold of max over `k` of the source at `(p, k, q)`.
* A broadcast between two rank-3 shapes read at `(p, q, r)`: the operand at the same coordinates, `0` on each of
  its unit axes.
* Folding `max` from minus infinity over a nonempty finite family of coerced real numbers gives the coercion of
  the family's supremum: a running maximum started at minus infinity is a real number as soon as one real has
  been seen.
-/

noncomputable section

namespace Cert.Lib.Rank3Middle

open Idealize.ShloMosaic Idealize.ShloMosaic.ValueIdx

/-- Over a result index `(p, q)` of a reduction along the middle axis, the source index with coordinate `k` on
    the reduced axis is `(p, k, q)`. -/
theorem lift_mid {n0 n1 n2 : ℕ} (h : (⟨3, ![n0, n1, n2]⟩ : Shape).Reduces [(1 : Fin 3)] ⟨2, ![n0, n2]⟩) (p : Fin n0) (q : Fin n2)
    (k : Fin ((⟨3, ![n0, n1, n2]⟩ : Shape).size 1)) : h.lift (ix2 p q) k = ix3 p (k : Fin n1) q := by
  funext c; apply Fin.ext; rw [h.lift_val]
  match c with
  | ⟨0, _⟩ => rfl
  | ⟨1, _⟩ => rfl
  | ⟨2, _⟩ => rfl

/-- A rank-3 broadcast read at `(p, q, r)`: the operand at the same coordinates, zero on its unit axes. -/
theorem bcast3_apply {α : Type} {a b c a' b' c' : ℕ} (v : (⟨3, ![a, b, c]⟩ : Shape).Idx → α)
    (h : (⟨3, ![a, b, c]⟩ : Shape).Broadcasts ⟨3, ![a', b', c']⟩) (p : Fin a') (q : Fin b') (r : Fin c')
    (p0 : Fin a) (q0 : Fin b) (r0 : Fin c) (hp : p0.val = if a = 1 then 0 else p.val) (hq : q0.val = if b = 1 then 0 else q.val)
    (hr : r0.val = if c = 1 then 0 else r.val) :
    broadcastTo ⟨3, ![a', b', c']⟩ v h (ix3 p q r) = v (ix3 p0 q0 r0) := by
  refine broadcastTo_apply v h (ix3 p q r) (ix3 p0 q0 r0) fun ax => ?_
  match ax with
  | ⟨0, _⟩ => exact hp
  | ⟨1, _⟩ => exact hq
  | ⟨2, _⟩ => exact hr

/-- Folding `max` from minus infinity over a nonempty family of coerced reals gives the coerced supremum. -/
theorem fold_max_coe {ι : Type} (s : Finset ι) (hs : s.Nonempty) (f : ι → ℝ) :
    s.fold max (⊥ : EReal) (fun i => ((f i : ℝ) : EReal)) = ((s.sup' hs f : ℝ) : EReal) := by
  rw [Finset.comp_sup'_eq_sup'_comp hs (fun x : ℝ => (x : EReal)) (fun x y => EReal.coe_strictMono.monotone.map_max),
    Finset.sup'_eq_sup]
  rfl

end Cert.Lib.Rank3Middle

end
-- ==== Proof.KiVal.lean ====
import proofs.«124677_j49830210568541_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«124677_j49830210568541_2_alg».proof.Proof.LibRank3Middle

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx Cert.Lib.Rank3Middle

/-! # The body's three matrix products read at an index, on the extended reals -/

/-! ### The contraction of `dot_S1x1024_S1024x1024_S1x1024_1_0_0_1_n_n` -/
theorem mmQ_l0 (i : S1x1024.Idx) (q : dot_S1x1024_S1024x1024_S1x1024_1_0_0_1_n_n.contr.Idx) : (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem mmQ_l1 (i : S1x1024.Idx) (q : dot_S1x1024_S1024x1024_S1x1024_1_0_0_1_n_n.contr.Idx) : (dot_S1x1024_S1024x1024_S1x1024_1_0_0_1_n_n.lhsIdx i q 1).val = (q ⟨0, by decide⟩).val :=
  dot_S1x1024_S1024x1024_S1x1024_1_0_0_1_n_n.lhsIdx_val_of_single rfl i q
theorem mmQ_r0 (i : S1x1024.Idx) (q : dot_S1x1024_S1024x1024_S1x1024_1_0_0_1_n_n.contr.Idx) : (dot_S1x1024_S1024x1024_S1x1024_1_0_0_1_n_n.rhsIdx i q 0).val = (q ⟨0, by decide⟩).val :=
  dot_S1x1024_S1024x1024_S1x1024_1_0_0_1_n_n.rhsIdx_val_of_single rfl i q
theorem mmQ_r1 (i : S1x1024.Idx) (q : dot_S1x1024_S1024x1024_S1x1024_1_0_0_1_n_n.contr.Idx) : (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl
/-- Into a zero accumulator the product at (p, q) is the sum over the 1024 contracted positions. -/
theorem mmQ_apply (A : FVec Ideal S1x1024 .bf16) (B : FVec Ideal S1024x1024 .bf16) (p : Fin 1) (q : Fin 1024) :
    FloatOps.matmul dot_S1x1024_S1024x1024_S1x1024_1_0_0_1_n_n none A B (constant S1x1024 .f32 0x00000000#32) (ix2 p q) = ∑ k : Fin 1024, A (ix2 p k) * B (ix2 k q) := by
  rw [Ideal.matmul_constant_zero_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 p q) ((ValueIdx.contrEquiv1 dot_S1x1024_S1024x1024_S1x1024_1_0_0_1_n_n 1024 rfl rfl).symm k) = ix2 p k := funext fun a => Fin.ext (by
    match a with
    | ⟨0, _⟩ => exact mmQ_l0 _ _
    | ⟨1, _⟩ => exact (mmQ_l1 _ _).trans hk)
  have er : dot_S1x1024_S1024x1024_S1x1024_1_0_0_1_n_n.rhsIdx (ix2 p q) ((ValueIdx.contrEquiv1 dot_S1x1024_S1024x1024_S1x1024_1_0_0_1_n_n 1024 rfl rfl).symm k) = ix2 k q := funext fun a => Fin.ext (by
    match a with
    | ⟨0, _⟩ => exact (mmQ_r0 _ _).trans hk
    | ⟨1, _⟩ => exact mmQ_r1 _ _)
  rw [el, er]

/-! ### The contraction of `dot_S512x1024_S1024x1024_S512x1024_1_0_0_1_n_n` -/
theorem mmK_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmK_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mmK_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mmK_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- Into a zero accumulator the product at (p, q) is the sum over the 1024 contracted positions. -/
theorem mmK_apply (A : FVec Ideal S512x1024 .bf16) (B : FVec Ideal S1024x1024 .bf16) (p : Fin 512) (q : Fin 1024) :
    FloatOps.matmul dot_S512x1024_S1024x1024_S512x1024_1_0_0_1_n_n none A B (constant S512x1024 .f32 0x00000000#32) (ix2 p q) = ∑ k : Fin 1024, A (ix2 p k) * B (ix2 k q) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact mmK_l0 _ _
    | ⟨1, _⟩ => exact (mmK_l1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (mmK_r0 _ _).trans hk
    | ⟨1, _⟩ => exact mmK_r1 _ _)
  rw [el, er]

/-! ### The contraction of `dot_S512x1024_S1024x1_S512x1_1_0_0_1_n_n` -/
theorem mmV_l0 (i : S512x1.Idx) (q : dot_S512x1024_S1024x1_S512x1_1_0_0_1_n_n.contr.Idx) : (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
theorem mmV_l1 (i : S512x1.Idx) (q : dot_S512x1024_S1024x1_S512x1_1_0_0_1_n_n.contr.Idx) : (dot_S512x1024_S1024x1_S512x1_1_0_0_1_n_n.lhsIdx i q 1).val = (q ⟨0, by decide⟩).val :=
  dot_S512x1024_S1024x1_S512x1_1_0_0_1_n_n.lhsIdx_val_of_single rfl i q
theorem mmV_r0 (i : S512x1.Idx) (q : dot_S512x1024_S1024x1_S512x1_1_0_0_1_n_n.contr.Idx) : (dot_S512x1024_S1024x1_S512x1_1_0_0_1_n_n.rhsIdx i q 0).val = (q ⟨0, by decide⟩).val :=
  dot_S512x1024_S1024x1_S512x1_1_0_0_1_n_n.rhsIdx_val_of_single rfl i q
theorem mmV_r1 (i : S512x1.Idx) (q : dot_S512x1024_S1024x1_S512x1_1_0_0_1_n_n.contr.Idx) : (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl
/-- Into a zero accumulator the product at (p, q) is the sum over the 1024 contracted positions. -/
theorem mmV_apply (A : FVec Ideal S512x1024 .bf16) (B : FVec Ideal S1024x1 .bf16) (p : Fin 512) (q : Fin 1) :
    FloatOps.matmul dot_S512x1024_S1024x1_S512x1_1_0_0_1_n_n none A B (constant S512x1 .f32 0x00000000#32) (ix2 p q) = ∑ k : Fin 1024, A (ix2 p k) * B (ix2 k q) := by
  rw [Ideal.matmul_constant_zero_apply, ← Equiv.sum_comp (ValueIdx.contrEquiv1 dot_S512x1024_S1024x1_S512x1_1_0_0_1_n_n 1024 rfl rfl).symm]
  refine Finset.sum_congr rfl fun k _ => ?_
  have hk := ValueIdx.contrEquiv1_symm_val dot_S512x1024_S1024x1_S512x1_1_0_0_1_n_n 1024 rfl rfl k
  have el : dot_S512x1024_S1024x1_S512x1_1_0_0_1_n_n.lhsIdx (ix2 p q) ((ValueIdx.contrEquiv1 dot_S512x1024_S1024x1_S512x1_1_0_0_1_n_n 1024 rfl rfl).symm k) = ix2 p k := funext fun a => Fin.ext (by
    match a with
    | ⟨0, _⟩ => exact mmV_l0 _ _
    | ⟨1, _⟩ => exact (mmV_l1 _ _).trans hk)
  have er : dot_S512x1024_S1024x1_S512x1_1_0_0_1_n_n.rhsIdx (ix2 p q) ((ValueIdx.contrEquiv1 dot_S512x1024_S1024x1_S512x1_1_0_0_1_n_n 1024 rfl rfl).symm k) = ix2 k q := funext fun a => Fin.ext (by
    match a with
    | ⟨0, _⟩ => exact (mmV_r0 _ _).trans hk
    | ⟨1, _⟩ => exact mmV_r1 _ _)
  rw [el, er]

/-- The query projection at unit `u`: the query row through the query half of the dense layer, plus the bias. -/
theorem pay9_apply (x0 : Vec Ideal S1x1x1024 .f32) (x3 : Vec Ideal S1024x1024 .bf16) (x4 : Vec Ideal S1024 .f32) (u : Fin 1024) :
    k0_pay9 x0 x3 x4 (ix2 0 u) = (∑ k : Fin 1024, x0 (ix3 0 0 k) * x3 (ix2 k u)) + x4 (ix1 u) := by
  unfold k0_pay9
  simp only [shapeCast_self, addf_apply, matmul, mmQ_apply, truncf_apply, shapeCast_a_1a_apply, shapeCast_1ab_ab_apply]

/-- The word of -inf denotes the bottom of the extended reals. -/
theorem ofBits_neg_inf : Ideal.ofBits .f32 0xFF800000#32 = (⊥ : EReal) := by simp [Ideal.ofBits, Ideal.ieee]

/-- A tile's largest score: the fold of max from -inf over the tile's 512 rows. -/
theorem maxRed_apply (v : FVec Ideal S1x512x1 .f32) (hφ : FKind.Formats .f32) (hacc : (0xFF800000#32 : BitVec 32) = 0xFF800000#32) :
    multiReduction .maximumf [1] S1x1 v 0xFF800000#32 reduces_S1x512x1_S1x1 hφ hacc (ix2 0 0)
      = (Finset.univ : Finset (Fin 512)).fold max (⊥ : EReal) (fun r => v (ix3 0 r 0)) :=
  (Ideal.multiReduction_maximumf_single v 0xFF800000#32 reduces_S1x512x1_S1x1 hφ hacc (ix2 0 0)).trans (by
    show (Finset.univ : Finset (Fin 512)).fold max (Ideal.ofBits .f32 0xFF800000#32) (fun k => v (reduces_S1x512x1_S1x1.lift (ix2 0 0) k)) = _
    rw [ofBits_neg_inf]
    exact congrArg (fun g : Fin 512 → EReal => (Finset.univ : Finset (Fin 512)).fold max (⊥ : EReal) g) (funext fun k => congrArg v (lift_mid reduces_S1x512x1_S1x1 0 0 k)))

/-- A tile's sum of a column of 512 entries. -/
theorem sumRed1_apply (v : FVec Ideal S1x512x1 .f32) (hφ : FKind.Formats .f32) (hacc : (0x00000000#32 : BitVec 32) = 0x00000000#32) :
    multiReduction .add [1] S1x1 v 0x00000000#32 reduces_S1x512x1_S1x1 hφ hacc (ix2 0 0)
      = ∑ r : Fin 512, v (ix3 0 r 0) :=
  (Ideal.multiReduction_add_single v 0x00000000#32 reduces_S1x512x1_S1x1 hφ hacc (ix2 0 0)).trans (by
    show ∑ k : Fin 512, v (reduces_S1x512x1_S1x1.lift (ix2 0 0) k) = _
    exact Finset.sum_congr rfl fun k _ => congrArg v (lift_mid reduces_S1x512x1_S1x1 0 0 k))

/-- A tile's sum down each of the 2048 feature columns. -/
theorem sumRed2_apply (v : FVec Ideal S1x512x2048 .f32) (f : Fin 2048) (hφ : FKind.Formats .f32) (hacc : (0x00000000#32 : BitVec 32) = 0x00000000#32) :
    multiReduction .add [1] S1x2048 v 0x00000000#32 reduces_S1x512x2048_S1x2048 hφ hacc (ix2 0 f)
      = ∑ r : Fin 512, v (ix3 0 r f) :=
  (Ideal.multiReduction_add_single v 0x00000000#32 reduces_S1x512x2048_S1x2048 hφ hacc (ix2 0 f)).trans (by
    show ∑ k : Fin 512, v (reduces_S1x512x2048_S1x2048.lift (ix2 0 f) k) = _
    exact Finset.sum_congr rfl fun k _ => congrArg v (lift_mid reduces_S1x512x2048_S1x2048 0 f k))

/-! # The skeleton's payloads read at an index, on the extended reals -/

theorem exp_apply {s : Shape} {φ : FTy} (v : FVec Ideal s φ) (i : s.Idx) : (exp v : FVec Ideal s φ) i = Ideal.exp (v i) := rfl
theorem log_apply {s : Shape} {φ : FTy} (v : FVec Ideal s φ) (i : s.Idx) : (log v : FVec Ideal s φ) i = Ideal.log (v i) := rfl

/-- The key half of a tile of values: the first 1024 of the 2048 features. -/
theorem keySlice_apply (X : FVec Ideal S512x2048 .f32) (r : Fin 512) (c : Fin 1024) :
    extractStridedSlice S512x1024 ![0, 0] X slices_S512x2048_o0_0_S512x1024 (ix2 r c) = X (ix2 r ⟨c.val, by omega⟩) :=
  slice2_axis1_apply 0 X _ r c ⟨c.val, by omega⟩ (by simp)

/-- The reset values: -inf, zero, zero. -/
theorem pay6_eq : (k0_pay6 (F := Ideal)) = fun _ => (⊥ : EReal) := by
  unfold k0_pay6
  simp only [shapeCast_self]
  funext i
  exact ofBits_neg_inf
theorem pay7_eq : (k0_pay7 (F := Ideal)) = fun _ => (0 : EReal) := by
  unfold k0_pay7
  simp only [shapeCast_self]
  funext i
  exact Ideal.ofBits_zero_f32
theorem pay8_eq : (k0_pay8 (F := Ideal)) = fun _ => (0 : EReal) := by
  unfold k0_pay8
  simp only [shapeCast_self]
  funext i
  exact Ideal.ofBits_zero_f32

theorem pay3_eq (v : FVec Ideal S1x1x1 .f32) : k0_pay3 v = v := by
  unfold k0_pay3; rw [shapeCast_self]

theorem pay10_apply (x1 : Vec Ideal S1x512x2048 .f32) (r : Fin 512) (f : Fin 2048) : k0_pay10 x1 (ix2 r f) = x1 (ix3 0 r f) := by
  unfold k0_pay10
  exact shapeCast_1ab_ab_apply _ _ r f

/-- A tile's score at row r: the key half through the key half of the dense layer plus the query projection,
    through the projection to a scalar, plus its bias. -/
theorem pay11_apply (x1 : Vec Ideal S1x512x2048 .f32) (x2 : Vec Ideal S1024x1024 .bf16) (qp : Vec Ideal S1x1024 .f32)
    (x5 : Vec Ideal S1024x1 .bf16) (x6 : Vec Ideal S1 .f32) (r : Fin 512) :
    k0_pay11 x1 x2 qp x5 x6 (ix3 0 r 0)
      = (∑ u : Fin 1024, ((∑ c : Fin 1024, x1 (ix3 0 r ⟨c.val, by omega⟩) * x2 (ix2 c u)) + qp (ix2 0 u)) * x5 (ix2 u 0)) + x6 (ix1 0) := by
  unfold k0_pay11
  simp only [shapeCast_ab_1ab_apply, addf_apply, matmul, mmV_apply, truncf_apply, mmK_apply, broadcastTo_1b_ab_apply,
    shapeCast_self, shapeCast_a_1a_apply, keySlice_apply, pay10_apply]

/-- The new running maximum: the old one against the tile's largest score. -/
theorem pay12_apply (x1 : Vec Ideal S1x512x2048 .f32) (x2 : Vec Ideal S1024x1024 .bf16) (qp : Vec Ideal S1x1024 .f32)
    (x5 : Vec Ideal S1024x1 .bf16) (x6 : Vec Ideal S1 .f32) (m : Vec Ideal S1x1x1 .f32) :
    k0_pay12 x1 x2 qp x5 x6 m (ix3 0 0 0)
      = max (m (ix3 0 0 0)) ((Finset.univ : Finset (Fin 512)).fold max (⊥ : EReal) (fun r => k0_pay11 x1 x2 qp x5 x6 (ix3 0 r 0))) := by
  unfold k0_pay12
  simp only [maximumf_apply, shapeCast_ab_1ab_apply]
  exact congrArg (max (m (ix3 0 0 0))) (maxRed_apply _ _ _)

/-- The rescaling factor of the old running quantities. -/
theorem pay13_apply (x1 : Vec Ideal S1x512x2048 .f32) (x2 : Vec Ideal S1024x1024 .bf16) (qp : Vec Ideal S1x1024 .f32)
    (x5 : Vec Ideal S1024x1 .bf16) (x6 : Vec Ideal S1 .f32) (m : Vec Ideal S1x1x1 .f32) :
    k0_pay13 x1 x2 qp x5 x6 m (ix3 0 0 0) = Ideal.exp (m (ix3 0 0 0) - k0_pay12 x1 x2 qp x5 x6 m (ix3 0 0 0)) := by
  unfold k0_pay13
  simp only [exp_apply, subf_apply]

/-- The tile's shifted exponentials. -/
theorem pay14_apply (x1 : Vec Ideal S1x512x2048 .f32) (x2 : Vec Ideal S1024x1024 .bf16) (qp : Vec Ideal S1x1024 .f32)
    (x5 : Vec Ideal S1024x1 .bf16) (x6 : Vec Ideal S1 .f32) (m : Vec Ideal S1x1x1 .f32) (r : Fin 512) :
    k0_pay14 x1 x2 qp x5 x6 m (ix3 0 r 0) = Ideal.exp (k0_pay11 x1 x2 qp x5 x6 (ix3 0 r 0) - k0_pay12 x1 x2 qp x5 x6 m (ix3 0 0 0)) := by
  unfold k0_pay14
  simp only [exp_apply, subf_apply]
  rw [bcast3_apply (k0_pay12 x1 x2 qp x5 x6 m) broadcasts_S1x1x1_S1x512x1 0 r 0 0 0 0 (by simp) (by simp) (by simp)]

/-- The new running denominator. -/
theorem pay1_apply (a : FVec Ideal S1x1x1 .f32) (p : FVec Ideal S1x512x1 .f32) (l : Vec Ideal S1x1x1 .f32) :
    k0_pay1 a p l (ix3 0 0 0) = a (ix3 0 0 0) * l (ix3 0 0 0) + ∑ r : Fin 512, p (ix3 0 r 0) := by
  unfold k0_pay1
  simp only [shapeCast_self, addf_apply, mulf_apply, shapeCast_ab_1ab_apply]
  exact congrArg (a (ix3 0 0 0) * l (ix3 0 0 0) + ·) (sumRed1_apply _ _ _)

/-- The new running numerator at feature f. -/
theorem pay2_apply (v4 : FVec Ideal S512x2048 .f32) (a : FVec Ideal S1x1x1 .f32) (p : FVec Ideal S1x512x1 .f32) (acc : Vec Ideal S1x1x2048 .f32) (f : Fin 2048) :
    k0_pay2 v4 a p acc (ix3 0 0 f) = a (ix3 0 0 0) * acc (ix3 0 0 f) + ∑ r : Fin 512, p (ix3 0 r 0) * v4 (ix2 r f) := by
  unfold k0_pay2
  simp only [shapeCast_self, addf_apply, mulf_apply, shapeCast_ab_1ab_apply]
  rw [bcast3_apply a broadcasts_S1x1x1_S1x1x2048 0 0 f 0 0 0 (by simp) (by simp) (by simp)]
  refine congrArg (a (ix3 0 0 0) * acc (ix3 0 0 f) + ·) ((sumRed2_apply _ f _ _).trans (Finset.sum_congr rfl fun r _ => ?_))
  rw [mulf_apply, bcast3_apply p broadcasts_S1x512x1_S1x512x2048 0 r f 0 r 0 (by simp) (by simp) (by simp), shapeCast_ab_1ab_apply]

/-- The context row at feature f: numerator over denominator. -/
theorem pay4_apply (acc : Vec Ideal S1x1x2048 .f32) (l : Vec Ideal S1x1x1 .f32) (f : Fin 2048) :
    k0_pay4 acc l (ix3 0 0 f) = Ideal.div (acc (ix3 0 0 f)) (l (ix3 0 0 0)) := by
  unfold k0_pay4
  simp only [divf_apply]
  rw [bcast3_apply l broadcasts_S1x1x1_S1x1x2048 0 0 f 0 0 0 (by simp) (by simp) (by simp)]

/-- The log-sum-exp: running maximum plus the logarithm of the running denominator. -/
theorem pay5_apply (m l : Vec Ideal S1x1x1 .f32) : k0_pay5 m l (ix3 0 0 0) = m (ix3 0 0 0) + Ideal.log (l (ix3 0 0 0)) := by
  unfold k0_pay5
  simp only [addf_apply, log_apply]

end Cert.KernelIdeal.Val

end
-- ==== Proof.AttnSpec.lean ====
import Mathlib.Analysis.SpecialFunctions.Log.Basic
import Mathlib.Analysis.SpecialFunctions.Exp
import Mathlib.Algebra.BigOperators.Fin
import Mathlib.Order.Fin.Basic

/-!
# The attention head both programs compute, over the reals

For one batch row: a score per time step from the key half of the values and the query, through one dense
layer and a projection to a scalar; a softmax over the 2048 time steps; the context vector as the
softmax-weighted sum of the values. Everything here is a plain function of real arrays.

The second half is the same softmax computed tile by tile, 512 time steps at a time, carrying a running
maximum, a running denominator and a running numerator that are rescaled whenever the maximum grows.
-/

noncomputable section

namespace Cert.Attn

/-! ## The score -/

section Score
variable (q : Fin 32 → Fin 1024 → ℝ) (vals : Fin 32 → Fin 2048 → Fin 2048 → ℝ) (w1 : Fin 2048 → Fin 1024 → ℝ)
  (b1 : Fin 1024 → ℝ) (vv : Fin 1024 → ℝ) (bv : ℝ)

/-- The query's projection through the lower half of the dense layer, plus its bias. -/
def qproj (b : Fin 32) (u : Fin 1024) : ℝ :=
  (∑ k : Fin 1024, q b k * w1 ⟨1024 + k.val, by omega⟩ u) + b1 u

/-- The dense layer's unit `u` at time step `t`: the key half of the values through the upper half of the
    layer, plus the query's projection. -/
def hidden (b : Fin 32) (t : Fin 2048) (u : Fin 1024) : ℝ :=
  (∑ c : Fin 1024, vals b t ⟨c.val, by omega⟩ * w1 ⟨c.val, by omega⟩ u) + qproj q w1 b1 b u

/-- The score of time step `t`. -/
def score (b : Fin 32) (t : Fin 2048) : ℝ :=
  (∑ u : Fin 1024, hidden q vals w1 b1 b t u * vv u) + bv

end Score

/-! ## The softmax over the time steps and the context -/

section Softmax
variable (sc : Fin 2048 → ℝ)

/-- The largest score. -/
def smax : ℝ := Finset.univ.sup' (Finset.univ_nonempty (α := Fin 2048)) sc

/-- The softmax's denominator. -/
def sden : ℝ := ∑ t : Fin 2048, Real.exp (sc t - smax sc)

/-- The attention weight of time step `t`. -/
def attn (t : Fin 2048) : ℝ := Real.exp (sc t - smax sc) / sden sc

/-- The weighted sum of a real sequence under the attention weights. -/
def ctx (x : Fin 2048 → ℝ) : ℝ := ∑ t : Fin 2048, attn sc t * x t

end Softmax

/-! ## The same, tile by tile -/

section Online
variable (s : ℕ → Fin 512 → ℝ)

/-- The largest score of tile `k`. -/
def tileMax (k : ℕ) : ℝ := Finset.univ.sup' (Finset.univ_nonempty (α := Fin 512)) (s k)

/-- The running maximum after tile `k`. -/
def runMax : ℕ → ℝ
  | 0 => tileMax s 0
  | k + 1 => max (runMax k) (tileMax s (k + 1))

/-- The running denominator after tile `k`: the old one rescaled to the new maximum, plus the tile's terms. -/
def runDen : ℕ → ℝ
  | 0 => ∑ r : Fin 512, Real.exp (s 0 r - runMax s 0)
  | k + 1 => Real.exp (runMax s k - runMax s (k + 1)) * runDen k + ∑ r : Fin 512, Real.exp (s (k + 1) r - runMax s (k + 1))

/-- The running numerator after tile `k`, for one sequence `x` of values. -/
def runNum (x : ℕ → Fin 512 → ℝ) : ℕ → ℝ
  | 0 => ∑ r : Fin 512, Real.exp (s 0 r - runMax s 0) * x 0 r
  | k + 1 => Real.exp (runMax s k - runMax s (k + 1)) * runNum x k + ∑ r : Fin 512, Real.exp (s (k + 1) r - runMax s (k + 1)) * x (k + 1) r

end Online

/-- A sequence over the 2048 time steps cut into tiles of 512: tile `k`, row `r` is time step `512 k + r`
    (tiles past the fourth repeat the last time step; nothing reads them). -/
def tiles (f : Fin 2048 → ℝ) (k : ℕ) (r : Fin 512) : ℝ := f ⟨min (512 * k + r.val) 2047, by omega⟩

end Cert.Attn

end
-- ==== Proof.KiStep.lean ====
import proofs.«124677_j49830210568541_2_alg».proof.Proof.KiVal
import proofs.«124677_j49830210568541_2_alg».proof.Proof.AttnSpec

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx Cert.Lib.Rank3Middle

/-! # One tile step on real data

When the tile's blocks and the carried state hold real numbers, every payload is the coercion of a real
expression: the coercion commutes with sums, products, differences, maxima, and the exponential of a real is
real. The first tile starts from -inf and zero: exp of -inf is zero and zero times zero is zero, so the old
running quantities drop out. -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Tile
variable (x1 : Vec Ideal S1x512x2048 .f32) (x2 : Vec Ideal S1024x1024 .bf16) (qp : Vec Ideal S1x1024 .f32)
  (x5 : Vec Ideal S1024x1 .bf16) (x6 : Vec Ideal S1 .f32)
  (X : Fin 512 → Fin 2048 → ℝ) (Wk : Fin 1024 → Fin 1024 → ℝ) (QP : Fin 1024 → ℝ) (VV : Fin 1024 → ℝ) (BV : ℝ)

/-- The tile's real score at row r. -/
def tscore (r : Fin 512) : ℝ :=
  (∑ u : Fin 1024, ((∑ c : Fin 1024, X r ⟨c.val, by omega⟩ * Wk c u) + QP u) * VV u) + BV

variable (hx1 : ∀ r f, x1 (ix3 0 r f) = ((X r f : ℝ) : EReal)) (hx2 : ∀ c u, x2 (ix2 c u) = ((Wk c u : ℝ) : EReal))
  (hqp : ∀ u, qp (ix2 0 u) = ((QP u : ℝ) : EReal)) (hx5 : ∀ u, x5 (ix2 u 0) = ((VV u : ℝ) : EReal)) (hx6 : x6 (ix1 0) = ((BV : ℝ) : EReal))

include hx1 hx2 hqp hx5 hx6

theorem score_real (r : Fin 512) : k0_pay11 x1 x2 qp x5 x6 (ix3 0 r 0) = ((tscore X Wk QP VV BV r : ℝ) : EReal) := by
  rw [pay11_apply]
  unfold tscore
  simp only [hx1, hx2, hqp, hx5, hx6, ← EReal.coe_mul, ← coe_sum, ← EReal.coe_add]

theorem tilemax_real : (Finset.univ : Finset (Fin 512)).fold max (⊥ : EReal) (fun r => k0_pay11 x1 x2 qp x5 x6 (ix3 0 r 0))
    = ((Finset.univ.sup' (Finset.univ_nonempty (α := Fin 512)) (tscore X Wk QP VV BV) : ℝ) : EReal) := by
  rw [← fold_max_coe]
  exact congrArg (fun g : Fin 512 → EReal => (Finset.univ : Finset (Fin 512)).fold max (⊥ : EReal) g)
    (funext fun r => score_real x1 x2 qp x5 x6 X Wk QP VV BV hx1 hx2 hqp hx5 hx6 r)

/-! ## The first tile: from -inf, zero, zero -/

theorem first_max (m : Vec Ideal S1x1x1 .f32) (hm : m (ix3 0 0 0) = ⊥) :
    k0_pay12 x1 x2 qp x5 x6 m (ix3 0 0 0) = ((Finset.univ.sup' (Finset.univ_nonempty (α := Fin 512)) (tscore X Wk QP VV BV) : ℝ) : EReal) := by
  rw [pay12_apply, tilemax_real x1 x2 qp x5 x6 X Wk QP VV BV hx1 hx2 hqp hx5 hx6, hm]
  exact max_eq_right bot_le

theorem first_scale (m : Vec Ideal S1x1x1 .f32) (hm : m (ix3 0 0 0) = ⊥) : k0_pay13 x1 x2 qp x5 x6 m (ix3 0 0 0) = 0 := by
  rw [pay13_apply, first_max x1 x2 qp x5 x6 X Wk QP VV BV hx1 hx2 hqp hx5 hx6 m hm, hm, EReal.bot_sub]
  rfl

/-! ## Any tile: the shifted exponentials against a real new maximum -/

theorem shifted_real (m : Vec Ideal S1x1x1 .f32) (M' : ℝ) (hM : k0_pay12 x1 x2 qp x5 x6 m (ix3 0 0 0) = ((M' : ℝ) : EReal)) (r : Fin 512) :
    k0_pay14 x1 x2 qp x5 x6 m (ix3 0 r 0) = ((Real.exp (tscore X Wk QP VV BV r - M') : ℝ) : EReal) := by
  rw [pay14_apply, score_real x1 x2 qp x5 x6 X Wk QP VV BV hx1 hx2 hqp hx5 hx6 r, hM, ← EReal.coe_sub]
  rfl

/-! ## A later tile: from a real running maximum -/

theorem later_max (m : Vec Ideal S1x1x1 .f32) (M : ℝ) (hm : m (ix3 0 0 0) = ((M : ℝ) : EReal)) :
    k0_pay12 x1 x2 qp x5 x6 m (ix3 0 0 0) = ((max M (Finset.univ.sup' (Finset.univ_nonempty (α := Fin 512)) (tscore X Wk QP VV BV)) : ℝ) : EReal) := by
  rw [pay12_apply, tilemax_real x1 x2 qp x5 x6 X Wk QP VV BV hx1 hx2 hqp hx5 hx6, hm]
  exact (EReal.coe_strictMono.monotone.map_max).symm

theorem later_scale (m : Vec Ideal S1x1x1 .f32) (M M' : ℝ) (hm : m (ix3 0 0 0) = ((M : ℝ) : EReal))
    (hM : k0_pay12 x1 x2 qp x5 x6 m (ix3 0 0 0) = ((M' : ℝ) : EReal)) :
    k0_pay13 x1 x2 qp x5 x6 m (ix3 0 0 0) = ((Real.exp (M - M') : ℝ) : EReal) := by
  rw [pay13_apply, hM, hm, ← EReal.coe_sub]
  rfl

end Tile

/-! ## The new denominator and numerator from real pieces -/

theorem den_first (a : FVec Ideal S1x1x1 .f32) (p : FVec Ideal S1x512x1 .f32) (l : Vec Ideal S1x1x1 .f32) (P : Fin 512 → ℝ)
    (ha : a (ix3 0 0 0) = 0) (hl : l (ix3 0 0 0) = 0) (hp : ∀ r, p (ix3 0 r 0) = ((P r : ℝ) : EReal)) :
    k0_pay1 a p l (ix3 0 0 0) = ((∑ r : Fin 512, P r : ℝ) : EReal) := by
  rw [pay1_apply, ha, hl, mul_zero, zero_add, coe_sum]
  exact Finset.sum_congr rfl fun r _ => hp r

theorem den_later (a : FVec Ideal S1x1x1 .f32) (p : FVec Ideal S1x512x1 .f32) (l : Vec Ideal S1x1x1 .f32) (A Lr : ℝ) (P : Fin 512 → ℝ)
    (ha : a (ix3 0 0 0) = ((A : ℝ) : EReal)) (hl : l (ix3 0 0 0) = ((Lr : ℝ) : EReal)) (hp : ∀ r, p (ix3 0 r 0) = ((P r : ℝ) : EReal)) :
    k0_pay1 a p l (ix3 0 0 0) = ((A * Lr + ∑ r : Fin 512, P r : ℝ) : EReal) := by
  rw [pay1_apply, ha, hl, EReal.coe_add, EReal.coe_mul, coe_sum]
  exact congrArg (((A : ℝ) : EReal) * ((Lr : ℝ) : EReal) + ·) (Finset.sum_congr rfl fun r _ => hp r)

theorem num_first (v4 : FVec Ideal S512x2048 .f32) (a : FVec Ideal S1x1x1 .f32) (p : FVec Ideal S1x512x1 .f32) (acc : Vec Ideal S1x1x2048 .f32)
    (P : Fin 512 → ℝ) (X : Fin 512 → Fin 2048 → ℝ) (f : Fin 2048)
    (ha : a (ix3 0 0 0) = 0) (hacc : acc (ix3 0 0 f) = 0) (hp : ∀ r, p (ix3 0 r 0) = ((P r : ℝ) : EReal))
    (hv : ∀ r, v4 (ix2 r f) = ((X r f : ℝ) : EReal)) :
    k0_pay2 v4 a p acc (ix3 0 0 f) = ((∑ r : Fin 512, P r * X r f : ℝ) : EReal) := by
  rw [pay2_apply, ha, hacc, mul_zero, zero_add, coe_sum]
  exact Finset.sum_congr rfl fun r _ => by rw [hp r, hv r, EReal.coe_mul]

theorem num_later (v4 : FVec Ideal S512x2048 .f32) (a : FVec Ideal S1x1x1 .f32) (p : FVec Ideal S1x512x1 .f32) (acc : Vec Ideal S1x1x2048 .f32)
    (A Ac : ℝ) (P : Fin 512 → ℝ) (X : Fin 512 → Fin 2048 → ℝ) (f : Fin 2048)
    (ha : a (ix3 0 0 0) = ((A : ℝ) : EReal)) (hacc : acc (ix3 0 0 f) = ((Ac : ℝ) : EReal)) (hp : ∀ r, p (ix3 0 r 0) = ((P r : ℝ) : EReal))
    (hv : ∀ r, v4 (ix2 r f) = ((X r f : ℝ) : EReal)) :
    k0_pay2 v4 a p acc (ix3 0 0 f) = ((A * Ac + ∑ r : Fin 512, P r * X r f : ℝ) : EReal) := by
  rw [pay2_apply, ha, hacc, EReal.coe_add, EReal.coe_mul, coe_sum]
  exact congrArg (((A : ℝ) : EReal) * ((Ac : ℝ) : EReal) + ·) (Finset.sum_congr rfl fun r _ => by rw [hp r, hv r, EReal.coe_mul])

/-! ## The query projection, the context row and the log-sum-exp from real pieces -/

theorem qproj_real (x0 : Vec Ideal S1x1x1024 .f32) (x3 : Vec Ideal S1024x1024 .bf16) (x4 : Vec Ideal S1024 .f32)
    (Q : Fin 1024 → ℝ) (Wq : Fin 1024 → Fin 1024 → ℝ) (B1 : Fin 1024 → ℝ)
    (h0 : ∀ k, x0 (ix3 0 0 k) = ((Q k : ℝ) : EReal)) (h3 : ∀ k u, x3 (ix2 k u) = ((Wq k u : ℝ) : EReal)) (h4 : ∀ u, x4 (ix1 u) = ((B1 u : ℝ) : EReal))
    (u : Fin 1024) : k0_pay9 x0 x3 x4 (ix2 0 u) = (((∑ k : Fin 1024, Q k * Wq k u) + B1 u : ℝ) : EReal) := by
  rw [pay9_apply]
  simp only [h0, h3, h4, ← EReal.coe_mul, ← coe_sum, ← EReal.coe_add]

theorem ctx_real (acc : Vec Ideal S1x1x2048 .f32) (l : Vec Ideal S1x1x1 .f32) (A Lr : ℝ) (f : Fin 2048) (hL : Lr ≠ 0)
    (hacc : acc (ix3 0 0 f) = ((A : ℝ) : EReal)) (hl : l (ix3 0 0 0) = ((Lr : ℝ) : EReal)) :
    k0_pay4 acc l (ix3 0 0 f) = ((A / Lr : ℝ) : EReal) := by
  rw [pay4_apply, hacc, hl, Ideal.div_coe hL, ← EReal.coe_mul, mul_one_div]

theorem lse_real (m l : Vec Ideal S1x1x1 .f32) (M Lr : ℝ) (hL : 0 < Lr)
    (hm : m (ix3 0 0 0) = ((M : ℝ) : EReal)) (hl : l (ix3 0 0 0) = ((Lr : ℝ) : EReal)) :
    k0_pay5 m l (ix3 0 0 0) = ((M + Real.log Lr : ℝ) : EReal) := by
  rw [pay5_apply, hm, hl, Ideal.log_coe, if_neg (not_le.mpr hL), EReal.coe_add]

end Cert.KernelIdeal.Val

end
-- ==== Proof.KiTile.lean ====
import proofs.«124677_j49830210568541_2_alg».proof.Proof.KiStep

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.ValueIdx

open Cert.Attn

/-! # One tile's update against the running quantities of the specification

For a row's scores `s` and values `xv` cut into tiles: the first tile takes -inf, zero, zero to the
running maximum, denominator and numerator after tile 0; tile k+1 takes those after tile k to those after
tile k+1. -/

theorem tile_first (x1 : Vec Ideal S1x512x2048 .f32) (x2 : Vec Ideal S1024x1024 .bf16) (qp : Vec Ideal S1x1024 .f32)
    (x5 : Vec Ideal S1024x1 .bf16) (x6 : Vec Ideal S1 .f32)
    (X : Fin 512 → Fin 2048 → ℝ) (Wk : Fin 1024 → Fin 1024 → ℝ) (QP : Fin 1024 → ℝ) (VV : Fin 1024 → ℝ) (BV : ℝ)
    (hx1 : ∀ r f, x1 (ix3 0 r f) = ((X r f : ℝ) : EReal)) (hx2 : ∀ c u, x2 (ix2 c u) = ((Wk c u : ℝ) : EReal))
    (hqp : ∀ u, qp (ix2 0 u) = ((QP u : ℝ) : EReal)) (hx5 : ∀ u, x5 (ix2 u 0) = ((VV u : ℝ) : EReal)) (hx6 : x6 (ix1 0) = ((BV : ℝ) : EReal))
    (s : ℕ → Fin 512 → ℝ) (hs : ∀ r, tscore X Wk QP VV BV r = s 0 r)
    (m l : Vec Ideal S1x1x1 .f32) (acc : Vec Ideal S1x1x2048 .f32)
    (hm : m (ix3 0 0 0) = ⊥) (hl : l (ix3 0 0 0) = 0) (hacc : ∀ f, acc (ix3 0 0 f) = 0) :
    k0_pay12 x1 x2 qp x5 x6 m (ix3 0 0 0) = ((runMax s 0 : ℝ) : EReal)
    ∧ k0_pay1 (k0_pay13 x1 x2 qp x5 x6 m) (k0_pay14 x1 x2 qp x5 x6 m) l (ix3 0 0 0) = ((runDen s 0 : ℝ) : EReal)
    ∧ ∀ (xv : ℕ → Fin 512 → ℝ) (f : Fin 2048), (∀ r, X r f = xv 0 r) →
        k0_pay2 (k0_pay10 x1) (k0_pay13 x1 x2 qp x5 x6 m) (k0_pay14 x1 x2 qp x5 x6 m) acc (ix3 0 0 f) = ((runNum s xv 0 : ℝ) : EReal) := by
  have hfun : tscore X Wk QP VV BV = s 0 := funext hs
  have hM : k0_pay12 x1 x2 qp x5 x6 m (ix3 0 0 0) = ((runMax s 0 : ℝ) : EReal) := by
    rw [first_max x1 x2 qp x5 x6 X Wk QP VV BV hx1 hx2 hqp hx5 hx6 m hm, hfun]; rfl
  have ha := first_scale x1 x2 qp x5 x6 X Wk QP VV BV hx1 hx2 hqp hx5 hx6 m hm
  have hp : ∀ r, k0_pay14 x1 x2 qp x5 x6 m (ix3 0 r 0) = ((Real.exp (s 0 r - runMax s 0) : ℝ) : EReal) := fun r => by
    rw [shifted_real x1 x2 qp x5 x6 X Wk QP VV BV hx1 hx2 hqp hx5 hx6 m (runMax s 0) hM r, hs r]
  refine ⟨hM, ?_, fun xv f hxv => ?_⟩
  · rw [den_first _ _ _ (fun r => Real.exp (s 0 r - runMax s 0)) ha hl hp]; rfl
  · rw [num_first _ _ _ _ (fun r => Real.exp (s 0 r - runMax s 0)) X f ha (hacc f) hp (fun r => by rw [pay10_apply, hx1])]
    exact congrArg (fun z : ℝ => (z : EReal)) (Finset.sum_congr rfl fun r _ => by rw [hxv r])

theorem tile_later (x1 : Vec Ideal S1x512x2048 .f32) (x2 : Vec Ideal S1024x1024 .bf16) (qp : Vec Ideal S1x1024 .f32)
    (x5 : Vec Ideal S1024x1 .bf16) (x6 : Vec Ideal S1 .f32)
    (X : Fin 512 → Fin 2048 → ℝ) (Wk : Fin 1024 → Fin 1024 → ℝ) (QP : Fin 1024 → ℝ) (VV : Fin 1024 → ℝ) (BV : ℝ)
    (hx1 : ∀ r f, x1 (ix3 0 r f) = ((X r f : ℝ) : EReal)) (hx2 : ∀ c u, x2 (ix2 c u) = ((Wk c u : ℝ) : EReal))
    (hqp : ∀ u, qp (ix2 0 u) = ((QP u : ℝ) : EReal)) (hx5 : ∀ u, x5 (ix2 u 0) = ((VV u : ℝ) : EReal)) (hx6 : x6 (ix1 0) = ((BV : ℝ) : EReal))
    (s : ℕ → Fin 512 → ℝ) (k : ℕ) (hs : ∀ r, tscore X Wk QP VV BV r = s (k + 1) r)
    (m l : Vec Ideal S1x1x1 .f32) (acc : Vec Ideal S1x1x2048 .f32)
    (hm : m (ix3 0 0 0) = ((runMax s k : ℝ) : EReal)) (hl : l (ix3 0 0 0) = ((runDen s k : ℝ) : EReal)) :
    k0_pay12 x1 x2 qp x5 x6 m (ix3 0 0 0) = ((runMax s (k + 1) : ℝ) : EReal)
    ∧ k0_pay1 (k0_pay13 x1 x2 qp x5 x6 m) (k0_pay14 x1 x2 qp x5 x6 m) l (ix3 0 0 0) = ((runDen s (k + 1) : ℝ) : EReal)
    ∧ ∀ (xv : ℕ → Fin 512 → ℝ) (f : Fin 2048), (∀ r, X r f = xv (k + 1) r) → acc (ix3 0 0 f) = ((runNum s xv k : ℝ) : EReal) →
        k0_pay2 (k0_pay10 x1) (k0_pay13 x1 x2 qp x5 x6 m) (k0_pay14 x1 x2 qp x5 x6 m) acc (ix3 0 0 f) = ((runNum s xv (k + 1) : ℝ) : EReal) := by
  have hfun : tscore X Wk QP VV BV = s (k + 1) := funext hs
  have hM : k0_pay12 x1 x2 qp x5 x6 m (ix3 0 0 0) = ((runMax s (k + 1) : ℝ) : EReal) := by
    rw [later_max x1 x2 qp x5 x6 X Wk QP VV BV hx1 hx2 hqp hx5 hx6 m (runMax s k) hm, hfun]; rfl
  have ha := later_scale x1 x2 qp x5 x6 X Wk QP VV BV hx1 hx2 hqp hx5 hx6 m (runMax s k) (runMax s (k + 1)) hm hM
  have hp : ∀ r, k0_pay14 x1 x2 qp x5 x6 m (ix3 0 r 0) = ((Real.exp (s (k + 1) r - runMax s (k + 1)) : ℝ) : EReal) := fun r => by
    rw [shifted_real x1 x2 qp x5 x6 X Wk QP VV BV hx1 hx2 hqp hx5 hx6 m (runMax s (k + 1)) hM r, hs r]
  refine ⟨hM, ?_, fun xv f hxv hacc => ?_⟩
  · rw [den_later _ _ _ (Real.exp (runMax s k - runMax s (k + 1))) (runDen s k) (fun r => Real.exp (s (k + 1) r - runMax s (k + 1))) ha hl hp]; rfl
  · rw [num_later _ _ _ _ (Real.exp (runMax s k - runMax s (k + 1))) (runNum s xv k) (fun r => Real.exp (s (k + 1) r - runMax s (k + 1))) X f ha hacc hp (fun r => by rw [pay10_apply, hx1])]
    exact congrArg (fun z : ℝ => (z : EReal)) (congrArg (Real.exp (runMax s k - runMax s (k + 1)) * runNum s xv k + ·) (Finset.sum_congr rfl fun r _ => by rw [hxv r]))

end Cert.KernelIdeal.Val

end
-- ==== Proof.AttnOnline.lean ====
import proofs.«124677_j49830210568541_2_alg».proof.Proof.AttnSpec
import Mathlib.Algebra.Order.BigOperators.Group.Finset
import Mathlib.Logic.Equiv.Fin.Basic

/-!
# The tile-by-tile softmax equals the plain softmax

By induction on the tile index, the running denominator after tile `k` is the sum over the tiles seen so far
of `exp (s j r - runMax s k)`, and likewise the running numerator with the weights `x j r`; the step is
`exp (a - b) * exp (c - a) = exp (c - b)`. After the fourth tile of a sequence over 2048 time steps cut into
tiles of 512, the running maximum is the largest score and the double sum over (tile, row) is the sum over
the time steps.
-/

open Finset

noncomputable section

namespace Cert.Attn

/-! ## The invariants of the running quantities -/

section Online
variable (s : ℕ → Fin 512 → ℝ)

/-- The running denominator is the sum of the shifted exponentials over all tiles seen so far. -/
theorem runDen_eq (k : ℕ) :
    runDen s k = ∑ j ∈ range (k + 1), ∑ r : Fin 512, Real.exp (s j r - runMax s k) := by
  induction k with
  | zero => simp [runDen]
  | succ k ih =>
    rw [runDen, ih, Finset.sum_range_succ _ (k + 1), Finset.mul_sum]
    congr 1
    refine Finset.sum_congr rfl fun j _ => ?_
    rw [Finset.mul_sum]
    refine Finset.sum_congr rfl fun r _ => ?_
    rw [← Real.exp_add]
    congr 1
    ring

/-- The running numerator is the weighted sum of the shifted exponentials over all tiles seen so far. -/
theorem runNum_eq (x : ℕ → Fin 512 → ℝ) (k : ℕ) :
    runNum s x k = ∑ j ∈ range (k + 1), ∑ r : Fin 512, Real.exp (s j r - runMax s k) * x j r := by
  induction k with
  | zero => simp [runNum]
  | succ k ih =>
    rw [runNum, ih, Finset.sum_range_succ _ (k + 1), Finset.mul_sum]
    congr 1
    refine Finset.sum_congr rfl fun j _ => ?_
    rw [Finset.mul_sum]
    refine Finset.sum_congr rfl fun r _ => ?_
    rw [← mul_assoc, ← Real.exp_add]
    congr 2
    ring

theorem runDen_pos (k : ℕ) : 0 < runDen s k := by
  rw [runDen_eq]
  refine Finset.sum_pos (fun j _ => ?_) ⟨0, by simp⟩
  exact Finset.sum_pos (fun r _ => Real.exp_pos _) Finset.univ_nonempty

/-- Every tile seen so far has its maximum below the running maximum. -/
theorem tileMax_le_runMax {j k : ℕ} (h : j ≤ k) : tileMax s j ≤ runMax s k := by
  induction k with
  | zero =>
    have : j = 0 := by omega
    subst this
    exact le_of_eq rfl
  | succ k ih =>
    rw [runMax]
    rcases Nat.lt_or_ge j (k + 1) with h' | h'
    · exact le_trans (ih (by omega)) (le_max_left _ _)
    · have : j = k + 1 := by omega
      subst this
      exact le_max_right _ _

/-- A bound on every tile's maximum is a bound on the running maximum. -/
theorem runMax_le {k : ℕ} {b : ℝ} (h : ∀ j, j ≤ k → tileMax s j ≤ b) : runMax s k ≤ b := by
  induction k with
  | zero => exact h 0 le_rfl
  | succ k ih =>
    rw [runMax]
    exact max_le (ih fun j hj => h j (by omega)) (h (k + 1) le_rfl)

end Online

theorem sden_pos (sc : Fin 2048 → ℝ) : 0 < sden sc :=
  Finset.sum_pos (fun _ _ => Real.exp_pos _) Finset.univ_nonempty

/-! ## Four tiles of 512 are the 2048 time steps -/

/-- The double sum over (tile, row) is the sum over the time steps. -/
theorem sum_tiles (g : Fin 2048 → ℝ) :
    ∑ j ∈ range 4, ∑ r : Fin 512, g ⟨min (512 * j + r.val) 2047, by omega⟩ = ∑ t : Fin 2048, g t := by
  rw [← Fin.sum_univ_eq_sum_range (fun j => ∑ r : Fin 512, g ⟨min (512 * j + r.val) 2047, by omega⟩) 4]
  rw [← Fintype.sum_prod_type' (f := fun (j : Fin 4) (r : Fin 512) => g ⟨min (512 * j.val + r.val) 2047, by omega⟩)]
  refine Fintype.sum_equiv (finProdFinEquiv (m := 4) (n := 512)) _ _ fun p => ?_
  congr 1
  apply Fin.ext
  have h1 := p.1.isLt
  have h2 := p.2.isLt
  simp only [finProdFinEquiv_apply_val]
  omega

/-- The running maximum after the fourth tile is the largest score. -/
theorem runMax_tiles (sc : Fin 2048 → ℝ) : runMax (tiles sc) 3 = smax sc := by
  apply le_antisymm
  · refine runMax_le _ fun j _ => ?_
    exact Finset.sup'_le _ _ fun r _ => Finset.le_sup' sc (Finset.mem_univ _)
  · refine Finset.sup'_le _ _ fun t _ => ?_
    have ht := t.isLt
    have hr : t.val % 512 < 512 := Nat.mod_lt _ (by norm_num)
    have hj : t.val / 512 ≤ 3 := by omega
    have heq : sc t = tiles sc (t.val / 512) ⟨t.val % 512, hr⟩ := by
      unfold tiles
      congr 1
      apply Fin.ext
      simp only
      omega
    rw [heq]
    refine le_trans ?_ (tileMax_le_runMax (tiles sc) hj)
    exact Finset.le_sup' (tiles sc (t.val / 512)) (Finset.mem_univ _)

theorem runDen_tiles (sc : Fin 2048 → ℝ) : runDen (tiles sc) 3 = sden sc := by
  rw [runDen_eq, runMax_tiles]
  exact sum_tiles fun t => Real.exp (sc t - smax sc)

theorem runNum_tiles (sc x : Fin 2048 → ℝ) :
    runNum (tiles sc) (tiles x) 3 = ∑ t : Fin 2048, Real.exp (sc t - smax sc) * x t := by
  rw [runNum_eq, runMax_tiles]
  exact sum_tiles fun t => Real.exp (sc t - smax sc) * x t

/-! ## The two results -/

theorem online_ctx (sc x : Fin 2048 → ℝ) :
    runNum (tiles sc) (tiles x) 3 / runDen (tiles sc) 3 = ctx sc x := by
  rw [runNum_tiles, runDen_tiles]
  unfold ctx attn
  rw [div_eq_mul_inv, Finset.sum_mul]
  refine Finset.sum_congr rfl fun t _ => ?_
  ring

theorem online_attn (sc : Fin 2048 → ℝ) (t : Fin 2048) :
    Real.exp (sc t - (runMax (tiles sc) 3 + Real.log (runDen (tiles sc) 3))) = attn sc t := by
  rw [← sub_sub, Real.exp_sub, Real.exp_log (runDen_pos _ _), runMax_tiles, runDen_tiles]
  rfl

end Cert.Attn

end
-- ==== Proof.KiRow.lean ====
import proofs.«124677_j49830210568541_2_alg».proof.Proof.KiR0Pieces
import proofs.«124677_j49830210568541_2_alg».proof.Proof.KiTile
import proofs.«124677_j49830210568541_2_alg».proof.Proof.AttnOnline

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn Cert.KernelIdeal.Val

/-! # Region 0 on real data: the state after every point, and what a row's last tile stores

At the extended reals, with the region's seven input arrays holding real numbers. Point `4 b + k` of the
32 x 4 grid works on tile `k` (time steps `512 k … 512 k + 511`) of batch row `b`. By induction on the point
number the carried state after that point is the specification's running maximum, denominator and numerator
after tile `k` of row `b`, and the score block stored there is the row's scores on that tile. -/

/-- The grid has 128 points: 32 batch rows of 4 tiles. -/
theorem N128 : cfg0.N = 128 := N_0

/-! ## The index maps, decided over the grid -/

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)

section
variable (V : (c : Dev nD) → (b : Ref sig .tc) → Buf (Elt Ideal) ((c : Thread nD τ).loc b)) (c : Dev nD)

/-! ## Each input window's block at a point, read off its array -/

theorem blk0_apply (t : Fin cfg0.N) (b : Fin 32) (hb : t.val / 4 = b.val) (k : Fin 1024) :
    iblk0 V c 0 t (ix3 0 0 k) = V c main_v0 (ix3 b 0 k) := by
  unfold iblk0
  show V c main_v0 (((cfg0.win 0).blk t).view.emb (ix3 0 0 k)) = V c main_v0 (ix3 b 0 k)
  refine congrArg (V c main_v0) (funext fun a => Fin.ext ?_)
  obtain ⟨e0, e1, e2⟩ := idx0 t
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 1024 + 1 * k.val = k.val; omega

theorem blk1_apply (t : Fin cfg0.N) (b : Fin 32) (hb : t.val / 4 = b.val) (ts : Fin 2048) (r : Fin 512) (hts : ts.val = 512 * (t.val % 4) + r.val) (f : Fin 2048) :
    iblk0 V c 1 t (ix3 0 r f) = V c main_arg1 (ix3 b ts f) := by
  unfold iblk0
  show V c main_arg1 (((cfg0.win 1).blk t).view.emb (ix3 0 r f)) = V c main_arg1 (ix3 b ts f)
  refine congrArg (V c main_arg1) (funext fun a => Fin.ext ?_)
  obtain ⟨e0, e1, e2⟩ := idx1 t
  match a with
  | ⟨0, _⟩ => show win0_1.index t (0 : Fin 3) * 1 + 1 * 0 = b.val; omega
  | ⟨1, _⟩ => show win0_1.index t (1 : Fin 3) * 512 + 1 * r.val = ts.val; omega
  | ⟨2, _⟩ => show win0_1.index t (2 : Fin 3) * 2048 + 1 * f.val = f.val; omega

theorem blk2_apply (t : Fin cfg0.N) (p u : Fin 1024) : iblk0 V c 2 t (ix2 p u) = V c main_v2 (ix2 p u) := by
  unfold iblk0
  show V c main_v2 (((cfg0.win 2).blk t).view.emb (ix2 p u)) = V c main_v2 (ix2 p u)
  refine congrArg (V c main_v2) (funext fun a => Fin.ext ?_)
  obtain ⟨e0, e1⟩ := idx2 t
  match a with
  | ⟨0, _⟩ => show win0_2.index t (0 : Fin 2) * 1024 + 1 * p.val = p.val; omega
  | ⟨1, _⟩ => show win0_2.index t (1 : Fin 2) * 1024 + 1 * u.val = u.val; omega

theorem blk3_apply (t : Fin cfg0.N) (p u : Fin 1024) : iblk0 V c 3 t (ix2 p u) = V c main_v4 (ix2 p u) := by
  unfold iblk0
  show V c main_v4 (((cfg0.win 3).blk t).view.emb (ix2 p u)) = V c main_v4 (ix2 p u)
  refine congrArg (V c main_v4) (funext fun a => Fin.ext ?_)
  obtain ⟨e0, e1⟩ := idx3 t
  match a with
  | ⟨0, _⟩ => show win0_3.index t (0 : Fin 2) * 1024 + 1 * p.val = p.val; omega
  | ⟨1, _⟩ => show win0_3.index t (1 : Fin 2) * 1024 + 1 * u.val = u.val; omega

theorem blk4_apply (t : Fin cfg0.N) (u : Fin 1024) : iblk0 V c 4 t (ix1 u) = V c main_arg3 (ix1 u) := by
  unfold iblk0
  show V c main_arg3 (((cfg0.win 4).blk t).view.emb (ix1 u)) = V c main_arg3 (ix1 u)
  refine congrArg (V c main_arg3) (funext fun a => Fin.ext ?_)
  have e0 := idx4 t
  match a with
  | ⟨0, _⟩ => show win0_4.index t (0 : Fin 1) * 1024 + 1 * u.val = u.val; omega

theorem blk5_apply (t : Fin cfg0.N) (u : Fin 1024) : iblk0 V c 5 t (ix2 u 0) = V c main_v5 (ix2 u 0) := by
  unfold iblk0
  show V c main_v5 (((cfg0.win 5).blk t).view.emb (ix2 u 0)) = V c main_v5 (ix2 u 0)
  refine congrArg (V c main_v5) (funext fun a => Fin.ext ?_)
  obtain ⟨e0, e1⟩ := idx5 t
  match a with
  | ⟨0, _⟩ => show win0_5.index t (0 : Fin 2) * 1024 + 1 * u.val = u.val; omega
  | ⟨1, _⟩ => show win0_5.index t (1 : Fin 2) * 1 + 1 * 0 = 0; omega

theorem blk6_apply (t : Fin cfg0.N) : iblk0 V c 6 t (ix1 0) = V c main_arg5 (ix1 0) := by
  unfold iblk0
  show V c main_arg5 (((cfg0.win 6).blk t).view.emb (ix1 0)) = V c main_arg5 (ix1 0)
  refine congrArg (V c main_arg5) (funext fun a => Fin.ext ?_)
  have e0 := idx6 t
  match a with
  | ⟨0, _⟩ => show win0_6.index t (0 : Fin 1) * 1 + 1 * 0 = 0; omega

/-! ## The real data -/

variable (q : Fin 32 → Fin 1024 → ℝ) (vals : Fin 32 → Fin 2048 → Fin 2048 → ℝ) (w1 : Fin 2048 → Fin 1024 → ℝ)
  (b1 : Fin 1024 → ℝ) (vv : Fin 1024 → ℝ) (bv : ℝ)

/-- The region's seven input arrays hold the real data: the query rows, the values, the two halves of the
    dense layer, its bias, the projection and its bias. -/
structure RealIn : Prop where
  h0 : ∀ (b : Fin 32) (k : Fin 1024), V c main_v0 (ix3 b 0 k) = ((q b k : ℝ) : EReal)
  h1 : ∀ (b : Fin 32) (t f : Fin 2048), V c main_arg1 (ix3 b t f) = ((vals b t f : ℝ) : EReal)
  h2 : ∀ (p u : Fin 1024), V c main_v2 (ix2 p u) = ((w1 ⟨p.val, by omega⟩ u : ℝ) : EReal)
  h3 : ∀ (p u : Fin 1024), V c main_v4 (ix2 p u) = ((w1 ⟨1024 + p.val, by omega⟩ u : ℝ) : EReal)
  h4 : ∀ (u : Fin 1024), V c main_arg3 (ix1 u) = ((b1 u : ℝ) : EReal)
  h5 : ∀ (u : Fin 1024), V c main_v5 (ix2 u 0) = ((vv u : ℝ) : EReal)
  h6 : V c main_arg5 (ix1 0) = ((bv : ℝ) : EReal)

/-- Row `b`'s scores, tile by tile. -/
abbrev sRow (b : Fin 32) : ℕ → Fin 512 → ℝ := tiles (score q vals w1 b1 vv bv b)
/-- Row `b`'s values at feature `f`, tile by tile. -/
abbrev xRow (b : Fin 32) (f : Fin 2048) : ℕ → Fin 512 → ℝ := tiles (fun t => vals b t f)

/-- Time step `512 k + r` of a row, for a tile `k` below 4. -/
def tstep (k : ℕ) (hk : k < 4) (r : Fin 512) : Fin 2048 := ⟨512 * k + r.val, by omega⟩

theorem tiles_eq (g : Fin 2048 → ℝ) (k : ℕ) (hk : k < 4) (r : Fin 512) : tiles g k r = g (tstep k hk r) := by
  unfold tiles tstep
  exact congrArg g (Fin.ext (by show min (512 * k + r.val) 2047 = 512 * k + r.val; omega))

/-- The carried state is the specification's running quantities after tile `k` of row `b`. -/
def StReal (st : St Ideal) (b : Fin 32) (k : ℕ) : Prop :=
  st.m (ix3 0 0 0) = ((runMax (sRow q vals w1 b1 vv bv b) k : ℝ) : EReal)
  ∧ st.l (ix3 0 0 0) = ((runDen (sRow q vals w1 b1 vv bv b) k : ℝ) : EReal)
  ∧ (∀ f : Fin 2048, st.acc (ix3 0 0 f) = ((runNum (sRow q vals w1 b1 vv bv b) (xRow vals b f) k : ℝ) : EReal))
  ∧ (∀ u : Fin 1024, st.qp (ix2 0 u) = ((qproj q w1 b1 b u : ℝ) : EReal))

variable {V c q vals w1 b1 vv bv}

/-- At point `4 b + k` the tile's real score at row `r` is the row's score at time step `512 k + r`. -/
theorem tscore_eq (b : Fin 32) (k : ℕ) (hk : k < 4) (r : Fin 512) :
    tscore (fun r f => vals b (tstep k hk r) f) (fun p u => w1 ⟨p.val, by omega⟩ u) (qproj q w1 b1 b) vv bv r
      = sRow q vals w1 b1 vv bv b k r := by
  rw [sRow, tiles_eq _ k hk r]
  rfl

/-- The first tile of row `b`, at point `4 b`. -/
theorem step_first (hV : RealIn V c q vals w1 b1 vv bv) (t : Fin cfg0.N) (b : Fin 32) (ht : t.val = 4 * b.val) :
    StReal q vals w1 b1 vv bv (step (iblk0 V c 1 t) (iblk0 V c 2 t) (iblk0 V c 5 t) (iblk0 V c 6 t) (reset (iblk0 V c 0 t) (iblk0 V c 3 t) (iblk0 V c 4 t))) b 0
    ∧ ∀ r : Fin 512, tileScore (iblk0 V c 1 t) (iblk0 V c 2 t) (iblk0 V c 5 t) (iblk0 V c 6 t) (reset (iblk0 V c 0 t) (iblk0 V c 3 t) (iblk0 V c 4 t)) (ix3 0 r 0)
        = ((sRow q vals w1 b1 vv bv b 0 r : ℝ) : EReal) := by
  have hb : t.val / 4 = b.val := by omega
  have hk : t.val % 4 = 0 := by omega
  have hx1 : ∀ r f, iblk0 V c 1 t (ix3 0 r f) = ((vals b (tstep 0 (by omega) r) f : ℝ) : EReal) := fun r f => by
    rw [blk1_apply V c t b hb (tstep 0 (by omega) r) r (by show 512 * 0 + r.val = 512 * (t.val % 4) + r.val; omega) f, hV.h1]
  have hx2 : ∀ p u, iblk0 V c 2 t (ix2 p u) = ((w1 ⟨p.val, by omega⟩ u : ℝ) : EReal) := fun p u => by rw [blk2_apply, hV.h2]
  have hx5 : ∀ u, iblk0 V c 5 t (ix2 u 0) = ((vv u : ℝ) : EReal) := fun u => by rw [blk5_apply, hV.h5]
  have hx6 : iblk0 V c 6 t (ix1 0) = ((bv : ℝ) : EReal) := by rw [blk6_apply, hV.h6]
  have hqp : ∀ u, k0_pay9 (iblk0 V c 0 t) (iblk0 V c 3 t) (iblk0 V c 4 t) (ix2 0 u) = ((qproj q w1 b1 b u : ℝ) : EReal) := fun u =>
    qproj_real _ _ _ (q b) (fun p u => w1 ⟨1024 + p.val, by omega⟩ u) b1
      (fun k => by rw [blk0_apply V c t b hb, hV.h0]) (fun p u => by rw [blk3_apply, hV.h3]) (fun u => by rw [blk4_apply, hV.h4]) u
  obtain ⟨hM, hL, hA⟩ := tile_first (iblk0 V c 1 t) (iblk0 V c 2 t) (k0_pay9 (iblk0 V c 0 t) (iblk0 V c 3 t) (iblk0 V c 4 t)) (iblk0 V c 5 t) (iblk0 V c 6 t)
    (fun r f => vals b (tstep 0 (by omega) r) f) (fun p u => w1 ⟨p.val, by omega⟩ u) (qproj q w1 b1 b) vv bv hx1 hx2 hqp hx5 hx6
    (sRow q vals w1 b1 vv bv b) (fun r => tscore_eq b 0 (by omega) r)
    (k0_pay6 (F := Ideal)) (k0_pay7 (F := Ideal)) (k0_pay8 (F := Ideal)) (by rw [pay6_eq]) (by rw [pay7_eq]) (fun f => by rw [pay8_eq])
  refine ⟨⟨?_, hL, fun f => hA (xRow vals b f) f (fun r => (tiles_eq (fun t => vals b t f) 0 (by omega) r).symm), hqp⟩, fun r => ?_⟩
  · simp only [step, reset, pay3_eq]; exact hM
  · simp only [tileScore, reset]
    rw [score_real _ _ _ _ _ _ _ _ _ _ hx1 hx2 hqp hx5 hx6 r, tscore_eq b 0 (by omega) r]

/-- Tile `k + 1` of row `b`, at point `4 b + (k + 1)`, from the state after tile `k`. -/
theorem step_next (hV : RealIn V c q vals w1 b1 vv bv) (t : Fin cfg0.N) (b : Fin 32) (k : ℕ) (hk : k + 1 < 4) (ht : t.val = 4 * b.val + (k + 1))
    (st : St Ideal) (hst : StReal q vals w1 b1 vv bv st b k) :
    StReal q vals w1 b1 vv bv (step (iblk0 V c 1 t) (iblk0 V c 2 t) (iblk0 V c 5 t) (iblk0 V c 6 t) st) b (k + 1)
    ∧ ∀ r : Fin 512, tileScore (iblk0 V c 1 t) (iblk0 V c 2 t) (iblk0 V c 5 t) (iblk0 V c 6 t) st (ix3 0 r 0)
        = ((sRow q vals w1 b1 vv bv b (k + 1) r : ℝ) : EReal) := by
  obtain ⟨sm, sl, sacc, sqp⟩ := hst
  have hb : t.val / 4 = b.val := by omega
  have hx1 : ∀ r f, iblk0 V c 1 t (ix3 0 r f) = ((vals b (tstep (k + 1) hk r) f : ℝ) : EReal) := fun r f => by
    rw [blk1_apply V c t b hb (tstep (k + 1) hk r) r (by show 512 * (k + 1) + r.val = 512 * (t.val % 4) + r.val; omega) f, hV.h1]
  have hx2 : ∀ p u, iblk0 V c 2 t (ix2 p u) = ((w1 ⟨p.val, by omega⟩ u : ℝ) : EReal) := fun p u => by rw [blk2_apply, hV.h2]
  have hx5 : ∀ u, iblk0 V c 5 t (ix2 u 0) = ((vv u : ℝ) : EReal) := fun u => by rw [blk5_apply, hV.h5]
  have hx6 : iblk0 V c 6 t (ix1 0) = ((bv : ℝ) : EReal) := by rw [blk6_apply, hV.h6]
  obtain ⟨hM, hL, hA⟩ := tile_later (iblk0 V c 1 t) (iblk0 V c 2 t) st.qp (iblk0 V c 5 t) (iblk0 V c 6 t)
    (fun r f => vals b (tstep (k + 1) hk r) f) (fun p u => w1 ⟨p.val, by omega⟩ u) (qproj q w1 b1 b) vv bv hx1 hx2 sqp hx5 hx6
    (sRow q vals w1 b1 vv bv b) k (fun r => tscore_eq b (k + 1) hk r) st.m st.l st.acc sm sl
  refine ⟨⟨?_, hL, fun f => hA (xRow vals b f) f (fun r => (tiles_eq (fun t => vals b t f) (k + 1) hk r).symm) (sacc f), sqp⟩, fun r => ?_⟩
  · simp only [step, reset, pay3_eq]; exact hM
  · simp only [tileScore]
    rw [score_real _ _ _ _ _ _ _ _ _ _ hx1 hx2 sqp hx5 hx6 r, tscore_eq b (k + 1) hk r]

end

end Cert.KernelIdeal.Hand

end
-- ==== Proof.KiArr.lean ====
import proofs.«124677_j49830210568541_2_alg».proof.Proof.KiRow

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn Cert.KernelIdeal.Val

/-! # Region 0 on real data: the three result arrays

The state after every point by induction on the point number; at a row's last tile the context row is the
softmax-weighted sum of the row's values and the stored log-sum-exp is the largest score plus the logarithm of
the softmax's denominator; every tile's score block is the row's scores there. Each result array then is one
function of its index: every index lies in the block some point writes back, and that block is the function's. -/

section
variable {V : (c : Dev nD) → (b : Ref sig .tc) → Buf (Elt Ideal) ((c : Thread nD τ).loc b)} {c : Dev nD}
variable {q : Fin 32 → Fin 1024 → ℝ} {vals : Fin 32 → Fin 2048 → Fin 2048 → ℝ} {w1 : Fin 2048 → Fin 1024 → ℝ}
  {b1 : Fin 1024 → ℝ} {vv : Fin 1024 → ℝ} {bv : ℝ}

/-- After point `4 b + k` the carried state is the running quantities after tile `k` of row `b`, and the score
    block stored there is the row's scores on that tile. -/
theorem state_at (hV : RealIn V c q vals w1 b1 vv bv) (k : ℕ) : ∀ (n : ℕ) (hn : n < cfg0.N) (b : Fin 32), k < 4 → n = 4 * b.val + k →
    StReal q vals w1 b1 vv bv (stOf (outsAt0 V c n hn)) b k
    ∧ ∀ r : Fin 512, (outsAt0 V c n hn).o9 (ix3 0 r 0) = ((sRow q vals w1 b1 vv bv b k r : ℝ) : EReal) := by
  induction k with
  | zero =>
    intro n hn b _ hnb
    have h0 : (⟨n, hn⟩ : Fin cfg0.N).val % 4 = 0 := by show n % 4 = 0; omega
    have h1 : ¬(⟨n, hn⟩ : Fin cfg0.N).val % 4 = 3 := by show ¬n % 4 = 3; omega
    rw [show outsAt0 V c n hn = _ from outsAt0_A V c ⟨n, hn⟩ h0 h1, caseA_st, caseA_o9]
    exact step_first hV ⟨n, hn⟩ b hnb
  | succ k ih =>
    intro n hn b hk hnb
    have hN := N128
    obtain ⟨hst, -⟩ := ih (n - 1) (by omega) b (by omega) (by omega)
    have h0 : ¬(⟨n, hn⟩ : Fin cfg0.N).val % 4 = 0 := by show ¬n % 4 = 0; omega
    by_cases h1 : (⟨n, hn⟩ : Fin cfg0.N).val % 4 = 3
    · rw [show outsAt0 V c n hn = _ from outsAt0_C V c ⟨n, hn⟩ h0 h1, caseC_st, caseC_o9]
      exact step_next hV ⟨n, hn⟩ b k hk hnb _ hst
    · rw [show outsAt0 V c n hn = _ from outsAt0_B V c ⟨n, hn⟩ h0 h1, caseB_st, caseB_o9]
      exact step_next hV ⟨n, hn⟩ b k hk hnb _ hst

/-- At a row's last tile the stored context row is the attention-weighted sum of the row's values. -/
theorem out7_at (hV : RealIn V c q vals w1 b1 vv bv) (n : ℕ) (hn : n < cfg0.N) (b : Fin 32) (hnb : n = 4 * b.val + 3) (f : Fin 2048) :
    (outsAt0 V c n hn).o7 (ix3 0 0 f) = ((ctx (score q vals w1 b1 vv bv b) (fun t => vals b t f) : ℝ) : EReal) := by
  have hN := N128
  obtain ⟨hst, -⟩ := state_at hV 2 (n - 1) (by omega) b (by omega) (by omega)
  have h0 : ¬(⟨n, hn⟩ : Fin cfg0.N).val % 4 = 0 := by show ¬n % 4 = 0; omega
  have h1 : (⟨n, hn⟩ : Fin cfg0.N).val % 4 = 3 := by show n % 4 = 3; omega
  rw [show outsAt0 V c n hn = _ from outsAt0_C V c ⟨n, hn⟩ h0 h1, caseC_o7]
  obtain ⟨⟨-, sl, sacc, -⟩, -⟩ := step_next hV ⟨n, hn⟩ b 2 (by omega) hnb _ hst
  refine (ctx_real _ _ (runNum (sRow q vals w1 b1 vv bv b) (xRow vals b f) 3) (runDen (sRow q vals w1 b1 vv bv b) 3) f
    (ne_of_gt (runDen_pos (sRow q vals w1 b1 vv bv b) 3)) (sacc f) sl).trans ?_
  exact congrArg (fun z : ℝ => (z : EReal)) (online_ctx (score q vals w1 b1 vv bv b) (fun t => vals b t f))

/-- And the stored log-sum-exp is the running maximum plus the logarithm of the running denominator after the
    row's four tiles. -/
theorem out8_at (hV : RealIn V c q vals w1 b1 vv bv) (n : ℕ) (hn : n < cfg0.N) (b : Fin 32) (hnb : n = 4 * b.val + 3) :
    (outsAt0 V c n hn).o8 (ix3 0 0 0)
      = ((runMax (sRow q vals w1 b1 vv bv b) 3 + Real.log (runDen (sRow q vals w1 b1 vv bv b) 3) : ℝ) : EReal) := by
  have hN := N128
  obtain ⟨hst, -⟩ := state_at hV 2 (n - 1) (by omega) b (by omega) (by omega)
  have h0 : ¬(⟨n, hn⟩ : Fin cfg0.N).val % 4 = 0 := by show ¬n % 4 = 0; omega
  have h1 : (⟨n, hn⟩ : Fin cfg0.N).val % 4 = 3 := by show n % 4 = 3; omega
  rw [show outsAt0 V c n hn = _ from outsAt0_C V c ⟨n, hn⟩ h0 h1, caseC_o8]
  obtain ⟨⟨sm, sl, -, -⟩, -⟩ := step_next hV ⟨n, hn⟩ b 2 (by omega) hnb _ hst
  exact lse_real _ _ (runMax (sRow q vals w1 b1 vv bv b) 3) (runDen (sRow q vals w1 b1 vv bv b) 3) (runDen_pos (sRow q vals w1 b1 vv bv b) 3) sm sl

end

/-! ## The result arrays as functions of their index -/

section
variable (q : Fin 32 → Fin 1024 → ℝ) (vals : Fin 32 → Fin 2048 → Fin 2048 → ℝ) (w1 : Fin 2048 → Fin 1024 → ℝ)
  (b1 : Fin 1024 → ℝ) (vv : Fin 1024 → ℝ) (bv : ℝ)

/-- The context at batch row `bn`, feature `fn` (zero outside the array). -/
def g7 (bn fn : ℕ) : EReal :=
  if h : bn < 32 ∧ fn < 2048 then ((ctx (score q vals w1 b1 vv bv ⟨bn, h.1⟩) (fun t => vals ⟨bn, h.1⟩ t ⟨fn, h.2⟩) : ℝ) : EReal) else 0
/-- The log-sum-exp of batch row `bn`. -/
def g8 (bn : ℕ) : EReal :=
  if h : bn < 32 then ((runMax (sRow q vals w1 b1 vv bv ⟨bn, h⟩) 3 + Real.log (runDen (sRow q vals w1 b1 vv bv ⟨bn, h⟩) 3) : ℝ) : EReal) else 0
/-- The score of batch row `bn` at time step `tn`. -/
def g9 (bn tn : ℕ) : EReal :=
  if h : bn < 32 ∧ tn < 2048 then ((score q vals w1 b1 vv bv ⟨bn, h.1⟩ ⟨tn, h.2⟩ : ℝ) : EReal) else 0

abbrev G7 : S32x1x2048.Idx → EReal := fun i => g7 q vals w1 b1 vv bv (i 0).val (i 2).val
abbrev G8 : S32x1x1.Idx → EReal := fun i => g8 q vals w1 b1 vv bv (i 0).val
abbrev G9 : S32x2048x1.Idx → EReal := fun i => g9 q vals w1 b1 vv bv (i 0).val (i 1).val
end

theorem idx7 : ∀ t : Fin cfg0.N, win0_7.index t (0 : Fin 3) = t.val / 4 ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val / 4 ∧ win0_9.index t (1 : Fin 3) = t.val % 4 ∧ win0_9.index t (2 : Fin 3) = 0 :=
  (by decide +kernel : ∀ t : Fin grid0.N, _)

theorem mem_blk7 (t : Fin cfg0.N) (i : S32x1x2048.Idx) :
    i ∈ ((cfg0.win 7).blk t).view.set ↔ ∀ a : Fin 3, win0_7.index t a * S1x1x2048.size a ≤ (i a).val ∧ (i a).val < win0_7.index t a * S1x1x2048.size a + S1x1x2048.size a := by
  show i ∈ ((View.whole main_v6_0).slice (win0_7.rect t)).set ↔ _
  rw [View.set_slice_whole, Rect.mem_set_unit]
  exact Iff.rfl
theorem mem_blk8 (t : Fin cfg0.N) (i : S32x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v6_1).slice (win0_8.rect t)).set ↔ _
  rw [View.set_slice_whole, Rect.mem_set_unit]
  exact Iff.rfl
theorem mem_blk9 (t : Fin cfg0.N) (i : S32x2048x1.Idx) :
    i ∈ ((cfg0.win 9).blk t).view.set ↔ ∀ a : Fin 3, win0_9.index t a * S1x512x1.size a ≤ (i a).val ∧ (i a).val < win0_9.index t a * S1x512x1.size a + S1x512x1.size a := by
  show i ∈ ((View.whole main_v6_2).slice (win0_9.rect t)).set ↔ _
  rw [View.set_slice_whole, Rect.mem_set_unit]
  exact Iff.rfl

section
variable {V : (c : Dev nD) → (b : Ref sig .tc) → Buf (Elt Ideal) ((c : Thread nD τ).loc b)} {c : Dev nD}
variable {q : Fin 32 → Fin 1024 → ℝ} {vals : Fin 32 → Fin 2048 → Fin 2048 → ℝ} {w1 : Fin 2048 → Fin 1024 → ℝ}
  {b1 : Fin 1024 → ℝ} {vv : Fin 1024 → ℝ} {bv : ℝ}

/-- What a flushing point writes back of the context is its block of `G7`. -/
theorem flushed7 (hV : RealIn V c q vals w1 b1 vv bv) (t : Fin cfg0.N) (hf : (cfg0.win 7).flush t = true) :
    (dat0 V c).flushed 7 t = ((cfg0.win 7).blk t).view.read (Elt Ideal) (G7 q vals w1 b1 vv bv) := by
  have hN := N128
  have h3 : t.val % 4 = 3 := (flush0_7 t).mp hf
  show (cfg0.win 7).cut (grid0.coords t) ((dat0 V c).after 7 t) = _
  rw [after0_7]
  funext y
  show (outsAt0 V c t.val t.isLt).o7 y = G7 q vals w1 b1 vv bv (((cfg0.win 7).blk t).view.emb y)
  have hy0 : (y 0).val < 1 := (y 0).isLt
  have hy1 : (y 1).val < 1 := (y 1).isLt
  have hy2 : (y 2).val < 2048 := (y 2).isLt
  obtain ⟨fv, hfv⟩ : ∃ fv : Fin 2048, fv.val = (y 2).val := ⟨⟨(y 2).val, hy2⟩, rfl⟩
  have hy : y = ix3 (0 : Fin 1) (0 : Fin 1) fv := funext fun a => Fin.ext (by
    match a with
    | ⟨0, _⟩ => show (y 0).val = 0; omega
    | ⟨1, _⟩ => show (y 1).val = 0; omega
    | ⟨2, _⟩ => exact hfv.symm)
  obtain ⟨e0, e1, e2⟩ := idx7 t
  have c0 : ((((cfg0.win 7).blk t).view.emb y) 0).val = t.val / 4 := by
    show win0_7.index t (0 : Fin 3) * 1 + 1 * (y 0).val = t.val / 4; omega
  have c2 : ((((cfg0.win 7).blk t).view.emb y) 2).val = fv.val := by
    show win0_7.index t (2 : Fin 3) * 2048 + 1 * (y 2).val = fv.val; omega
  show _ = g7 q vals w1 b1 vv bv ((((cfg0.win 7).blk t).view.emb y) 0).val ((((cfg0.win 7).blk t).view.emb y) 2).val
  rw [c0, c2, hy, out7_at hV t.val t.isLt ⟨t.val / 4, by omega⟩ (by show t.val = 4 * (t.val / 4) + 3; omega) fv]
  unfold g7
  rw [dif_pos ⟨by omega, fv.isLt⟩]

theorem cover7 (i : S32x1x2048.Idx) : ∃ t : Fin cfg0.N, (cfg0.win 7).flush t = true ∧ i ∈ ((cfg0.win 7).blk t).view.set := by
  have hN := N128
  have hi0 : (i 0).val < 32 := (i 0).isLt
  have hi1 : (i 1).val < 1 := (i 1).isLt
  have hi2 : (i 2).val < 2048 := (i 2).isLt
  refine ⟨⟨4 * (i 0).val + 3, by omega⟩, (flush0_7 _).mpr (by show (4 * (i 0).val + 3) % 4 = 3; omega), ?_⟩
  rw [mem_blk7]
  obtain ⟨e0, e1, e2⟩ := idx7 ⟨4 * (i 0).val + 3, by omega⟩
  intro a
  match a with
  | ⟨0, _⟩ => show win0_7.index _ (0 : Fin 3) * 1 ≤ (i 0).val ∧ (i 0).val < win0_7.index _ (0 : Fin 3) * 1 + 1; rw [e0]; show (4 * (i 0).val + 3) / 4 * 1 ≤ _ ∧ _ < (4 * (i 0).val + 3) / 4 * 1 + 1; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 2048 ≤ (i 2).val ∧ (i 2).val < win0_7.index _ (2 : Fin 3) * 2048 + 2048; rw [e2]; omega

/-- The context array after the region. -/
theorem final7 (hV : RealIn V c q vals w1 b1 vv bv) : (dat0 V c).arrAt 7 cfg0.N = G7 q vals w1 b1 vv bv :=
  (dat0 V c).arrAt_eq_of_cover 7 (G7 q vals w1 b1 vv bv) (fun t hf => flushed7 hV t hf) cover7

theorem flushed8 (hV : RealIn V c q vals w1 b1 vv bv) (t : Fin cfg0.N) (hf : (cfg0.win 8).flush t = true) :
    (dat0 V c).flushed 8 t = ((cfg0.win 8).blk t).view.read (Elt Ideal) (G8 q vals w1 b1 vv bv) := by
  have hN := N128
  have h3 : t.val % 4 = 3 := (flush0_8 t).mp hf
  show (cfg0.win 8).cut (grid0.coords t) ((dat0 V c).after 8 t) = _
  rw [after0_8]
  funext y
  show (outsAt0 V c t.val t.isLt).o8 y = G8 q vals w1 b1 vv bv (((cfg0.win 8).blk t).view.emb y)
  have hy0 : (y 0).val < 1 := (y 0).isLt
  have hy1 : (y 1).val < 1 := (y 1).isLt
  have hy2 : (y 2).val < 1 := (y 2).isLt
  have hy : y = ix3 (0 : Fin 1) (0 : Fin 1) (0 : Fin 1) := funext fun a => Fin.ext (by
    match a with
    | ⟨0, _⟩ => show (y 0).val = 0; omega
    | ⟨1, _⟩ => show (y 1).val = 0; omega
    | ⟨2, _⟩ => show (y 2).val = 0; omega)
  obtain ⟨e0, e1, e2⟩ := idx8 t
  have c0 : ((((cfg0.win 8).blk t).view.emb y) 0).val = t.val / 4 := by
    show win0_8.index t (0 : Fin 3) * 1 + 1 * (y 0).val = t.val / 4; omega
  show _ = g8 q vals w1 b1 vv bv ((((cfg0.win 8).blk t).view.emb y) 0).val
  rw [c0, hy, out8_at hV t.val t.isLt ⟨t.val / 4, by omega⟩ (by show t.val = 4 * (t.val / 4) + 3; omega)]
  unfold g8
  rw [dif_pos (by omega)]

theorem cover8 (i : S32x1x1.Idx) : ∃ t : Fin cfg0.N, (cfg0.win 8).flush t = true ∧ i ∈ ((cfg0.win 8).blk t).view.set := by
  have hN := N128
  have hi0 : (i 0).val < 32 := (i 0).isLt
  have hi1 : (i 1).val < 1 := (i 1).isLt
  have hi2 : (i 2).val < 1 := (i 2).isLt
  refine ⟨⟨4 * (i 0).val + 3, by omega⟩, (flush0_8 _).mpr (by show (4 * (i 0).val + 3) % 4 = 3; omega), ?_⟩
  rw [mem_blk8]
  obtain ⟨e0, e1, e2⟩ := idx8 ⟨4 * (i 0).val + 3, by omega⟩
  intro a
  match a with
  | ⟨0, _⟩ => show win0_8.index _ (0 : Fin 3) * 1 ≤ (i 0).val ∧ (i 0).val < win0_8.index _ (0 : Fin 3) * 1 + 1; rw [e0]; show (4 * (i 0).val + 3) / 4 * 1 ≤ _ ∧ _ < (4 * (i 0).val + 3) / 4 * 1 + 1; omega
  | ⟨1, _⟩ => show win0_8.index _ (1 : Fin 3) * 1 ≤ (i 1).val ∧ (i 1).val < win0_8.index _ (1 : Fin 3) * 1 + 1; rw [e1]; omega
  | ⟨2, _⟩ => show win0_8.index _ (2 : Fin 3) * 1 ≤ (i 2).val ∧ (i 2).val < win0_8.index _ (2 : Fin 3) * 1 + 1; rw [e2]; omega

/-- The log-sum-exp array after the region. -/
theorem final8 (hV : RealIn V c q vals w1 b1 vv bv) : (dat0 V c).arrAt 8 cfg0.N = G8 q vals w1 b1 vv bv :=
  (dat0 V c).arrAt_eq_of_cover 8 (G8 q vals w1 b1 vv bv) (fun t hf => flushed8 hV t hf) cover8

theorem flushed9 (hV : RealIn V c q vals w1 b1 vv bv) (t : Fin cfg0.N) (hf : (cfg0.win 9).flush t = true) :
    (dat0 V c).flushed 9 t = ((cfg0.win 9).blk t).view.read (Elt Ideal) (G9 q vals w1 b1 vv bv) := by
  have hN := N128
  show (cfg0.win 9).cut (grid0.coords t) ((dat0 V c).after 9 t) = _
  rw [after0_9]
  funext y
  show (outsAt0 V c t.val t.isLt).o9 y = G9 q vals w1 b1 vv bv (((cfg0.win 9).blk t).view.emb y)
  have hy0 : (y 0).val < 1 := (y 0).isLt
  have hy1 : (y 1).val < 512 := (y 1).isLt
  have hy2 : (y 2).val < 1 := (y 2).isLt
  obtain ⟨rv, hrv⟩ : ∃ rv : Fin 512, rv.val = (y 1).val := ⟨⟨(y 1).val, hy1⟩, rfl⟩
  have hy : y = ix3 (0 : Fin 1) rv (0 : Fin 1) := funext fun a => Fin.ext (by
    match a with
    | ⟨0, _⟩ => show (y 0).val = 0; omega
    | ⟨1, _⟩ => exact hrv.symm
    | ⟨2, _⟩ => show (y 2).val = 0; omega)
  obtain ⟨e0, e1, e2⟩ := idx9 t
  have c0 : ((((cfg0.win 9).blk t).view.emb y) 0).val = t.val / 4 := by
    show win0_9.index t (0 : Fin 3) * 1 + 1 * (y 0).val = t.val / 4; omega
  have c1 : ((((cfg0.win 9).blk t).view.emb y) 1).val = 512 * (t.val % 4) + rv.val := by
    show win0_9.index t (1 : Fin 3) * 512 + 1 * (y 1).val = 512 * (t.val % 4) + rv.val; omega
  show _ = g9 q vals w1 b1 vv bv ((((cfg0.win 9).blk t).view.emb y) 0).val ((((cfg0.win 9).blk t).view.emb y) 1).val
  have hk : t.val % 4 < 4 := Nat.mod_lt _ (by omega)
  rw [c0, c1, hy, (state_at hV (t.val % 4) t.val t.isLt ⟨t.val / 4, by omega⟩ hk (by show t.val = 4 * (t.val / 4) + t.val % 4; omega)).2 rv]
  have hrv' : rv.val < 512 := rv.isLt
  unfold g9
  rw [dif_pos ⟨by omega, by omega⟩, sRow, tiles_eq _ (t.val % 4) hk rv]
  rfl

theorem cover9 (i : S32x2048x1.Idx) : ∃ t : Fin cfg0.N, (cfg0.win 9).flush t = true ∧ i ∈ ((cfg0.win 9).blk t).view.set := by
  have hN := N128
  have hi0 : (i 0).val < 32 := (i 0).isLt
  have hi1 : (i 1).val < 2048 := (i 1).isLt
  have hi2 : (i 2).val < 1 := (i 2).isLt
  refine ⟨⟨4 * (i 0).val + (i 1).val / 512, by omega⟩, flush0_9 _, ?_⟩
  rw [mem_blk9]
  obtain ⟨e0, e1, e2⟩ := idx9 ⟨4 * (i 0).val + (i 1).val / 512, by omega⟩
  intro a
  match a with
  | ⟨0, _⟩ => show win0_9.index _ (0 : Fin 3) * 1 ≤ (i 0).val ∧ (i 0).val < win0_9.index _ (0 : Fin 3) * 1 + 1; rw [e0]; show (4 * (i 0).val + (i 1).val / 512) / 4 * 1 ≤ _ ∧ _ < (4 * (i 0).val + (i 1).val / 512) / 4 * 1 + 1; omega
  | ⟨1, _⟩ => show win0_9.index _ (1 : Fin 3) * 512 ≤ (i 1).val ∧ (i 1).val < win0_9.index _ (1 : Fin 3) * 512 + 512; rw [e1]; show (4 * (i 0).val + (i 1).val / 512) % 4 * 512 ≤ _ ∧ _ < (4 * (i 0).val + (i 1).val / 512) % 4 * 512 + 512; omega
  | ⟨2, _⟩ => show win0_9.index _ (2 : Fin 3) * 1 ≤ (i 2).val ∧ (i 2).val < win0_9.index _ (2 : Fin 3) * 1 + 1; rw [e2]; omega

/-- The score array after the region. -/
theorem final9 (hV : RealIn V c q vals w1 b1 vv bv) : (dat0 V c).arrAt 9 cfg0.N = G9 q vals w1 b1 vv bv :=
  (dat0 V c).arrAt_eq_of_cover 9 (G9 q vals w1 b1 vv bv) (fun t hf => flushed9 hV t hf) cover9

end

end Cert.KernelIdeal.Hand

end
-- ==== Proof.KiR1Val.lean ====
import proofs.«124677_j49830210568541_2_alg».proof.Proof.KiR1
import proofs.«124677_j49830210568541_2_alg».proof.Proof.KiVal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.Val

/-! # Region 1 on the extended reals: the attention weights before normalisation is folded in

The second kernel's one block is its whole array, and its body stores, entry by entry, the exponential of the
score minus the row's log-sum-exp. -/

theorem hz2' : (![0, 0] : Fin 2 → Nat) = fun _ => 0 := by funext a; fin_cases a <;> rfl

/-- A column broadcast along the rows: at (p, q) the column's entry p. -/
theorem bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

theorem pay1k_apply (x0 : Vec Ideal S32x2048 .f32) (x2 : Vec Ideal S32x1 .f32) (p : Fin 32) (ts : Fin 2048) :
    k1_pay1 x0 x2 (ix2 p ts) = Ideal.exp (x0 (ix2 p ts) - x2 (ix2 p 0)) := by
  unfold k1_pay1
  simp only [exp_apply, subf_apply, shapeCast_self]
  rw [bcast_col_apply]

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)

theorem mem_blk1_2 (t : Fin cfg1.N) (i : S32x2048.Idx) :
    i ∈ ((cfg1.win 2).blk t).view.set ↔ ∀ a : Fin 2, win1_2.index t a * S32x2048.size a ≤ (i a).val ∧ (i a).val < win1_2.index t a * S32x2048.size a + S32x2048.size a := by
  show i ∈ ((View.whole main_v9).slice (win1_2.rect t)).set ↔ _
  rw [View.set_slice_whole, Rect.mem_set_unit]
  exact Iff.rfl

section
variable (V : (c : Dev nD) → (b : Ref sig .tc) → Buf (Elt Ideal) ((c : Thread nD τ).loc b)) (c : Dev nD)

theorem r1blk0_apply (t : Fin cfg1.N) (p : Fin 32) (ts : Fin 2048) : iblk1 V c 0 t (ix2 p ts) = V c main_v7 (ix2 p ts) := by
  unfold iblk1
  show V c main_v7 (((cfg1.win 0).blk t).view.emb (ix2 p ts)) = V c main_v7 (ix2 p ts)
  refine congrArg (V c main_v7) (funext fun a => Fin.ext ?_)
  obtain ⟨e0, e1⟩ := idx1_0 t
  match a with
  | ⟨0, _⟩ => show win1_0.index t (0 : Fin 2) * 32 + 1 * p.val = p.val; omega
  | ⟨1, _⟩ => show win1_0.index t (1 : Fin 2) * 2048 + 1 * ts.val = ts.val; omega

theorem r1blk1_apply (t : Fin cfg1.N) (p : Fin 32) : iblk1 V c 1 t (ix2 p 0) = V c main_v8 (ix2 p 0) := by
  unfold iblk1
  show V c main_v8 (((cfg1.win 1).blk t).view.emb (ix2 p 0)) = V c main_v8 (ix2 p 0)
  refine congrArg (V c main_v8) (funext fun a => Fin.ext ?_)
  obtain ⟨e0, e1⟩ := idx1_1 t
  match a with
  | ⟨0, _⟩ => show win1_1.index t (0 : Fin 2) * 32 + 1 * p.val = p.val; omega
  | ⟨1, _⟩ => show win1_1.index t (1 : Fin 2) * 1 + 1 * 0 = 0; omega

/-- The reshaped scores and the reshaped log-sum-exps, as the region finds them. -/
abbrev arr7 : S32x2048.Idx → EReal := V c main_v7
abbrev arr8 : S32x1.Idx → EReal := V c main_v8

/-- The second kernel's result as one function of the two arrays it reads. -/
def G1 : S32x2048.Idx → EReal := fun i =>
  Ideal.exp (arr7 V c (ix2 (⟨(i 0).val, (i 0).isLt⟩ : Fin 32) (⟨(i 1).val, (i 1).isLt⟩ : Fin 2048))
    - arr8 V c (ix2 (⟨(i 0).val, (i 0).isLt⟩ : Fin 32) (0 : Fin 1)))

theorem flushed1 (t : Fin cfg1.N) : (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz2']
  simp only [View.ld_unit_zero (S := S32x2048) hz2', View.ld_unit_zero (S := S32x1) hz2']
  funext y
  show k1_pay1 (iblk1 V c 0 t) (iblk1 V c 1 t) y = G1 V c (((cfg1.win 2).blk t).view.emb y)
  obtain ⟨e0, e1⟩ := idx1_2 t
  have hy0 : (y 0).val < 32 := (y 0).isLt
  have hy1 : (y 1).val < 2048 := (y 1).isLt
  obtain ⟨pv, hpv⟩ : ∃ pv : Fin 32, pv.val = (y 0).val := ⟨⟨(y 0).val, hy0⟩, rfl⟩
  obtain ⟨tv, htv⟩ : ∃ tv : Fin 2048, tv.val = (y 1).val := ⟨⟨(y 1).val, hy1⟩, rfl⟩
  have hy : y = ix2 pv tv := funext fun a => Fin.ext (by
    match a with
    | ⟨0, _⟩ => exact hpv.symm
    | ⟨1, _⟩ => exact htv.symm)
  have c0 : ((((cfg1.win 2).blk t).view.emb y) 0).val = pv.val := by
    show win1_2.index t (0 : Fin 2) * 32 + 1 * (y 0).val = pv.val; omega
  have c1 : ((((cfg1.win 2).blk t).view.emb y) 1).val = tv.val := by
    show win1_2.index t (1 : Fin 2) * 2048 + 1 * (y 1).val = tv.val; omega
  have hG : G1 V c (((cfg1.win 2).blk t).view.emb y)
      = Ideal.exp (arr7 V c (ix2 pv tv) - arr8 V c (ix2 pv (0 : Fin 1))) := by
    unfold G1
    have f0 : (⟨((((cfg1.win 2).blk t).view.emb y) 0).val, ((((cfg1.win 2).blk t).view.emb y) 0).isLt⟩ : Fin 32) = pv := Fin.ext c0
    have f1 : (⟨((((cfg1.win 2).blk t).view.emb y) 1).val, ((((cfg1.win 2).blk t).view.emb y) 1).isLt⟩ : Fin 2048) = tv := Fin.ext c1
    rw [f0, f1]
  rw [hG, hy, pay1k_apply, r1blk0_apply, r1blk1_apply]

theorem cover1 (i : S32x2048.Idx) : ∃ t : Fin cfg1.N, (cfg1.win 2).flush t = true ∧ i ∈ ((cfg1.win 2).blk t).view.set := by
  have hi0 : (i 0).val < 32 := (i 0).isLt
  have hi1 : (i 1).val < 2048 := (i 1).isLt
  refine ⟨t1_0, flush1_2 _, ?_⟩
  rw [mem_blk1_2]
  obtain ⟨e0, e1⟩ := idx1_2 t1_0
  intro a
  match a with
  | ⟨0, _⟩ => show win1_2.index _ (0 : Fin 2) * 32 ≤ (i 0).val ∧ (i 0).val < win1_2.index _ (0 : Fin 2) * 32 + 32; rw [e0]; omega
  | ⟨1, _⟩ => show win1_2.index _ (1 : Fin 2) * 2048 ≤ (i 1).val ∧ (i 1).val < win1_2.index _ (1 : Fin 2) * 2048 + 2048; rw [e1]; omega

/-- The second kernel's array after its region. -/
theorem final1 : (dat1 V c).arrAt 2 cfg1.N = G1 V c :=
  (dat1 V c).arrAt_eq_of_cover 2 (G1 V c) (fun t _ => flushed1 V c t) (cover1)

end

end Cert.KernelIdeal.Hand

end
-- ==== Proof.KiFinal.lean ====
import proofs.«124677_j49830210568541_2_alg».proof.Proof.KiArr
import proofs.«124677_j49830210568541_2_alg».proof.Proof.KiR1Val
import proofs.«124677_j49830210568541_2_alg».proof.Proof.KiRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn Cert.KernelIdeal.Val

/-! # The idealized kernel's two results on real arguments

From the launch memory to the return: the first host stretch lays the query out per batch row and cuts the
dense layer into its key and query halves; the first region leaves the context, the log-sum-exp and the scores;
two reshapes drop their unit axes; the second region exponentiates score minus log-sum-exp; a last broadcast
puts the unit axis back. On real arguments the context is the specification's and the last array its
attention weights: exp (s - (M + log Z)) = exp (s - M) / Z. -/

/-! ## The host stretches, at any instance -/

section Host
variable {F : FTy → Type} [FloatOps F] (m : (ℓ : Loc nD τ sig) → Buf (Elt F) ℓ) (c : Dev nD)

theorem W1_v0 : W1 m c (Proc.devRef .tc main_v0)
    = broadcastInDim S32x1x1024 ![0, 2] bcast_S32x1024_S32x1x1024_0_2 (m ((c : Thread nD τ).loc main_arg0)) := by
  show StableHlo.after hostOps0 (fun b => m (c, b)) (Proc.devRef .tc main_v0) = _
  after_results
  try rfl
theorem W1_v2 : W1 m c (Proc.devRef .tc main_v2)
    = truncf .bf16 (extractStridedSlice S1024x1024 ![0, 0] (m ((c : Thread nD τ).loc main_arg2)) slices_S2048x1024_S1024x1024_0_0) bitsLt_bf16_f32 := by
  show StableHlo.after hostOps0 (fun b => m (c, b)) (Proc.devRef .tc main_v2) = _
  after_results
  try rfl
theorem W1_v4 : W1 m c (Proc.devRef .tc main_v4)
    = truncf .bf16 (extractStridedSlice S1024x1024 ![1024, 0] (m ((c : Thread nD τ).loc main_arg2)) slices_S2048x1024_S1024x1024_1024_0) bitsLt_bf16_f32 := by
  show StableHlo.after hostOps0 (fun b => m (c, b)) (Proc.devRef .tc main_v4) = _
  after_results
  try rfl
theorem W1_v5 : W1 m c (Proc.devRef .tc main_v5)
    = truncf .bf16 (m ((c : Thread nD τ).loc main_arg4)) bitsLt_bf16_f32 := by
  show StableHlo.after hostOps0 (fun b => m (c, b)) (Proc.devRef .tc main_v5) = _
  after_results
  try rfl
theorem W1_arg (r : Ref sig .tc) (h : r ∉ (hostOps0_W : List (Ref sig .tc))) : W1 m c (Proc.devRef .tc r) = m ((c : Thread nD τ).loc r) :=
  StableHlo.after_of_writes_sub hostOps0 _ hostOps0_writes h
theorem W3_v7 : W3 m c (Proc.devRef .tc main_v7) = shapeCast S32x2048 (W2 m c (Proc.devRef .tc main_v6_2)) shapeCasts_S32x2048x1_S32x2048 := by
  show StableHlo.after hostOps1 (W2 m c) (Proc.devRef .tc main_v7) = _
  after_results
  try rfl
theorem W3_v8 : W3 m c (Proc.devRef .tc main_v8) = shapeCast S32x1 (W2 m c (Proc.devRef .tc main_v6_1)) shapeCasts_S32x1x1_S32x1 := by
  show StableHlo.after hostOps1 (W2 m c) (Proc.devRef .tc main_v8) = _
  after_results
  try rfl
theorem W5_v10 : W5 m c (Proc.devRef .tc main_v10)
    = broadcastInDim S32x2048x1 ![0, 1] bcast_S32x2048_S32x2048x1_0_1 (W4 m c (Proc.devRef .tc main_v9)) := by
  show StableHlo.after hostOps2 (W4 m c) (Proc.devRef .tc main_v10) = _
  after_results
  try rfl
/-- The context array is untouched from the first region's exit to the return. -/
theorem W5_ctx : W5 m c (Proc.devRef .tc main_v6_0) = W2 m c (Proc.devRef .tc main_v6_0) :=
  (StableHlo.after_of_writes_sub hostOps2 _ hostOps2_writes (by decide : main_v6_0 ∉ (hostOps2_W : List (Ref sig .tc)))).trans
    ((W4_of_ne m c main_v6_0 (by decide)).trans
      (StableHlo.after_of_writes_sub hostOps1 _ hostOps1_writes (by decide : main_v6_0 ∉ (hostOps1_W : List (Ref sig .tc)))))
end Host

variable (m : (ℓ : Loc nD τ sig) → Buf (Elt Ideal) ℓ) (c : Dev nD)
variable (q : Fin 32 → Fin 1024 → ℝ) (vals : Fin 32 → Fin 2048 → Fin 2048 → ℝ) (w1 : Fin 2048 → Fin 1024 → ℝ)
  (b1 : Fin 1024 → ℝ) (vv : Fin 1024 → ℝ) (bv : ℝ)

/-- The six argument arrays hold the real data. -/
structure ArgsReal : Prop where
  a0 : ∀ (b : Fin 32) (k : Fin 1024), (m ((c : Thread nD τ).loc main_arg0) : S32x1024.Idx → EReal) (ix2 b k) = ((q b k : ℝ) : EReal)
  a1 : ∀ (b : Fin 32) (t f : Fin 2048), (m ((c : Thread nD τ).loc main_arg1) : S32x2048x2048.Idx → EReal) (ix3 b t f) = ((vals b t f : ℝ) : EReal)
  a2 : ∀ (p : Fin 2048) (u : Fin 1024), (m ((c : Thread nD τ).loc main_arg2) : S2048x1024.Idx → EReal) (ix2 p u) = ((w1 p u : ℝ) : EReal)
  a3 : ∀ (u : Fin 1024), (m ((c : Thread nD τ).loc main_arg3) : S1024.Idx → EReal) (ix1 u) = ((b1 u : ℝ) : EReal)
  a4 : ∀ (u : Fin 1024), (m ((c : Thread nD τ).loc main_arg4) : S1024x1.Idx → EReal) (ix2 u (0 : Fin 1)) = ((vv u : ℝ) : EReal)
  a5 : (m ((c : Thread nD τ).loc main_arg5) : S1.Idx → EReal) (ix1 (0 : Fin 1)) = ((bv : ℝ) : EReal)

variable {m c q vals w1 b1 vv bv}

/-- The first region's seven input arrays hold the real data. -/
theorem realIn_of_args (hA : ArgsReal m c q vals w1 b1 vv bv) : RealIn (U1 m) c q vals w1 b1 vv bv where
  h0 b k := by
    show W1 m c (Proc.devRef .tc main_v0) (ix3 b 0 k) = _
    rw [W1_v0, broadcastInDim_apply _ _ _ (ix3 b 0 k) (ix2 b k) (fun a => by
      match a with
      | ⟨0, _⟩ => show b.val = if (32 : ℕ) = 1 then 0 else b.val; rw [if_neg (by decide)]
      | ⟨1, _⟩ => show k.val = if (1024 : ℕ) = 1 then 0 else k.val; rw [if_neg (by decide)])]
    exact hA.a0 b k
  h1 b t f := by
    show W1 m c (Proc.devRef .tc main_arg1) (ix3 b t f) = _
    rw [W1_arg m c main_arg1 (by decide)]
    exact hA.a1 b t f
  h2 p u := by
    show W1 m c (Proc.devRef .tc main_v2) (ix2 p u) = _
    rw [W1_v2, truncf_apply, slice2_axis0_apply 0 _ _ p u ⟨p.val, by omega⟩ (by simp)]
    exact hA.a2 ⟨p.val, by omega⟩ u
  h3 p u := by
    show W1 m c (Proc.devRef .tc main_v4) (ix2 p u) = _
    rw [W1_v4, truncf_apply, slice2_axis0_apply 1024 _ _ p u ⟨1024 + p.val, by omega⟩ rfl]
    exact hA.a2 ⟨1024 + p.val, by omega⟩ u
  h4 u := by
    show W1 m c (Proc.devRef .tc main_arg3) (ix1 u) = _
    rw [W1_arg m c main_arg3 (by decide)]
    exact hA.a3 u
  h5 u := by
    show W1 m c (Proc.devRef .tc main_v5) (ix2 u 0) = _
    rw [W1_v5, truncf_apply]
    exact hA.a4 u
  h6 := by
    show W1 m c (Proc.devRef .tc main_arg5) (ix1 0) = _
    rw [W1_arg m c main_arg5 (by decide)]
    exact hA.a5

/-! ## The first region's three result arrays -/

theorem W2_ctx (hA : ArgsReal m c q vals w1 b1 vv bv) : W2 m c (Proc.devRef .tc main_v6_0) = G7 q vals w1 b1 vv bv :=
  (W2_arr m c 7).trans (final7 (realIn_of_args hA))
theorem W2_lse (hA : ArgsReal m c q vals w1 b1 vv bv) : W2 m c (Proc.devRef .tc main_v6_1) = G8 q vals w1 b1 vv bv :=
  (W2_arr m c 8).trans (final8 (realIn_of_args hA))
theorem W2_score (hA : ArgsReal m c q vals w1 b1 vv bv) : W2 m c (Proc.devRef .tc main_v6_2) = G9 q vals w1 b1 vv bv :=
  (W2_arr m c 9).trans (final9 (realIn_of_args hA))

/-- THE CONTEXT the idealized kernel returns, on real arguments. -/
theorem kernel_ctx (hA : ArgsReal m c q vals w1 b1 vv bv) (b : Fin 32) (f : Fin 2048) :
    (W5 m c (Proc.devRef .tc main_v6_0) : S32x1x2048.Idx → EReal) (ix3 b 0 f)
      = ((ctx (score q vals w1 b1 vv bv b) (fun t => vals b t f) : ℝ) : EReal) := by
  rw [W5_ctx, W2_ctx hA]
  show g7 q vals w1 b1 vv bv b.val f.val = _
  unfold g7
  rw [dif_pos ⟨b.isLt, f.isLt⟩]

/-- THE ATTENTION WEIGHTS the idealized kernel returns, on real arguments. -/
theorem kernel_attn (hA : ArgsReal m c q vals w1 b1 vv bv) (b : Fin 32) (t : Fin 2048) :
    (W5 m c (Proc.devRef .tc main_v10) : S32x2048x1.Idx → EReal) (ix3 b t 0)
      = ((attn (score q vals w1 b1 vv bv b) t : ℝ) : EReal) := by
  rw [W5_v10, broadcastInDim_apply _ _ _ (ix3 b t 0) (ix2 b t) (fun a => by
      match a with
      | ⟨0, _⟩ => show b.val = if (32 : ℕ) = 1 then 0 else b.val; rw [if_neg (by decide)]
      | ⟨1, _⟩ => show t.val = if (2048 : ℕ) = 1 then 0 else t.val; rw [if_neg (by decide)])]
  rw [show W4 m c (Proc.devRef .tc main_v9) = G1 (U3 m) c from (W4_arr m c 2).trans (final1 (U3 m) c)]
  have e7 : arr7 (U3 m) c (ix2 b t) = ((score q vals w1 b1 vv bv b t : ℝ) : EReal) := by
    show W3 m c (Proc.devRef .tc main_v7) (ix2 b t) = _
    rw [W3_v7, shapeCast_apply _ _ (ix2 b t) (ix3 b t (0 : Fin 1)) (by
      rw [Shape.rowMajor_val_three, Shape.rowMajor_val_two]
      show (b.val * 2048 + t.val) * 1 + 0 = b.val * 2048 + t.val; omega), W2_score hA]
    show g9 q vals w1 b1 vv bv b.val t.val = _
    unfold g9
    rw [dif_pos ⟨b.isLt, t.isLt⟩]
  have e8 : arr8 (U3 m) c (ix2 b (0 : Fin 1))
      = ((runMax (sRow q vals w1 b1 vv bv b) 3 + Real.log (runDen (sRow q vals w1 b1 vv bv b) 3) : ℝ) : EReal) := by
    show W3 m c (Proc.devRef .tc main_v8) (ix2 b 0) = _
    rw [W3_v8, shapeCast_apply _ _ (ix2 b (0 : Fin 1)) (ix3 b (0 : Fin 1) (0 : Fin 1)) (by
      rw [Shape.rowMajor_val_three, Shape.rowMajor_val_two]
      show (b.val * 1 + 0) * 1 + 0 = b.val * 1 + 0; omega), W2_lse hA]
    show g8 q vals w1 b1 vv bv b.val = _
    unfold g8
    rw [dif_pos b.isLt]
  show Ideal.exp (arr7 (U3 m) c (ix2 b t) - arr8 (U3 m) c (ix2 b (0 : Fin 1))) = _
  rw [e7, e8, ← EReal.coe_sub]
  exact congrArg (fun z : ℝ => (z : EReal)) (online_attn (score q vals w1 b1 vv bv b) t)

end Cert.KernelIdeal.Hand

end
-- ==== Proof.RefSide.lean ====
import proofs.«124677_j49830210568541_2_alg».proof.Defs
import proofs.«124677_j49830210568541_2_alg».proof.Proof.Gen.ReferenceIdeal.Read
import proofs.«124677_j49830210568541_2_alg».proof.Proof.AttnSpec
import Idealize.ShloMosaic.Lib.ValueIdx
import Idealize.ShloMosaic.Lib.Pipeline.Value
import Idealize.ShloMosaic.PureOps.Ideal.Laws

/-!
# The reference program computes the attention head of the specification

At the extended reals every operation of the reference is exact. When its six arguments are real arrays, each
intermediate value is a real too, and reading the operations one at a time gives, for batch row `b`:

* the concatenated row is the key half of the values followed by the query, so the first contraction over its 2048
  columns splits into the key sum plus the query sum; with the bias this is the hidden unit (the reference adds
  `(key + query) + bias`, the specification `key + (query + bias)`: associativity of real addition);
* the second contraction plus its bias is the score of each time step;
* the maximum over the 2048 time steps, folded from minus infinity, then taken once more against a broadcast minus
  infinity, is the largest score;
* the exponential of a real is real, the sum of the 2048 exponentials from zero is the softmax's denominator, which is
  positive, so the quotient is the real quotient: the attention weight;
* the last contraction, over the time steps, is the weighted sum of a feature's values: the context.

The two statements at the end, `ref_attn` and `ref_ctx`, are what the comparison with the kernel uses.
-/

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The word for minus infinity, and a running maximum of coerced reals -/

/-- The single-precision word `0xFF800000` denotes minus infinity. -/
theorem ofBits_negInf : Ideal.ofBits .f32 0xFF800000#32 = ⊥ := by simp [Ideal.ofBits, Ideal.ieee]

/-- Folding `max` from minus infinity over a nonempty family of coerced reals gives the coerced supremum. -/
theorem fold_max_coe {ι : Type} (s : Finset ι) (hs : s.Nonempty) (f : ι → ℝ) :
    s.fold max (⊥ : EReal) (fun i => ((f i : ℝ) : EReal)) = ((s.sup' hs f : ℝ) : EReal) := by
  rw [Finset.comp_sup'_eq_sup'_comp hs (fun x : ℝ => (x : EReal)) (fun x y => EReal.coe_strictMono.monotone.map_max),
    Finset.sup'_eq_sup]
  rfl

/-! ## Sums of coerced reals -/

/-- The coercion from the reals to the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The concatenated row -/

/-- The concatenated row at a column of the first half is the values array there. -/
theorem cat_left (x0 : (⟨S32x1024, .f32⟩ : BufTy).Contents (Elt Ideal)) (x1 : (⟨S32x2048x2048, .f32⟩ : BufTy).Contents (Elt Ideal))
    (b : Fin 32) (t : Fin 2048) (c : Fin 1024) :
    Read.val_main_v3 (F := Ideal) x0 x1 (ix3 b t (Fin.castAdd 1024 c)) = x1 (ix3 b t (Fin.castAdd 1024 c)) := by
  unfold Read.val_main_v3
  refine (concatenate_pair_apply_left (t := S32x2048x2048) (s₁ := S32x2048x1024) (s₂ := S32x2048x1024) (2 : Fin 3) _ _
    concatenates_S32x2048x1024_S32x2048x1024_S32x2048x2048_d2 _ rfl (ix3 b t c) (fun a => by
      match a with
      | ⟨0, _⟩ => rfl
      | ⟨1, _⟩ => rfl
      | ⟨2, _⟩ => rfl)).trans ?_
  rw [Read.val_main_v0_apply]
  exact congrArg x1 (funext fun a => by
    match a with
    | ⟨0, _⟩ => rfl
    | ⟨1, _⟩ => rfl
    | ⟨2, _⟩ => rfl)

/-- The concatenated row at a column of the second half is the query there. -/
theorem cat_right (x0 : (⟨S32x1024, .f32⟩ : BufTy).Contents (Elt Ideal)) (x1 : (⟨S32x2048x2048, .f32⟩ : BufTy).Contents (Elt Ideal))
    (b : Fin 32) (t : Fin 2048) (k : Fin 1024) :
    Read.val_main_v3 (F := Ideal) x0 x1 (ix3 b t (Fin.natAdd 1024 k)) = x0 (ix2 b k) := by
  unfold Read.val_main_v3
  refine (concatenate_pair_apply_right (t := S32x2048x2048) (s₁ := S32x2048x1024) (s₂ := S32x2048x1024) (2 : Fin 3) _ _
    concatenates_S32x2048x1024_S32x2048x1024_S32x2048x2048_d2 _ rfl rfl (ix3 b t k) (fun a ha => by
      match a with
      | ⟨0, _⟩ => rfl
      | ⟨1, _⟩ => rfl
      | ⟨2, _⟩ => exact absurd rfl ha) (by show k.val + 1024 = 1024 + k.val; omega)).trans ?_
  rw [Read.val_main_v2_apply, Read.val_main_v1_apply]
  exact congrArg x0 (funext fun a => by
    match a with
    | ⟨0, _⟩ => rfl
    | ⟨1, _⟩ => rfl)

/-! ## The reference read at an index, for real arguments -/

section Ref
variable (q : Fin 32 → Fin 1024 → ℝ) (vals : Fin 32 → Fin 2048 → Fin 2048 → ℝ) (w1 : Fin 2048 → Fin 1024 → ℝ)
  (b1 : Fin 1024 → ℝ) (vv : Fin 1024 → ℝ) (bv : ℝ)
variable (x0 : (⟨S32x1024, .f32⟩ : BufTy).Contents (Elt Ideal)) (x1 : (⟨S32x2048x2048, .f32⟩ : BufTy).Contents (Elt Ideal))
  (x2 : (⟨S2048x1024, .f32⟩ : BufTy).Contents (Elt Ideal)) (x3 : (⟨S1024, .f32⟩ : BufTy).Contents (Elt Ideal))
  (x4 : (⟨S1024x1, .f32⟩ : BufTy).Contents (Elt Ideal)) (x5 : (⟨S1, .f32⟩ : BufTy).Contents (Elt Ideal))

/-- The first dense layer before its bias: the key half through the upper rows of the weights plus the query
    through the lower rows. -/
theorem ref_v4 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (b : Fin 32) (t : Fin 2048) (u : Fin 1024) :
    Read.val_main_v4 (F := Ideal) x0 x1 x2 (ix3 b t u)
      = (((∑ c : Fin 1024, vals b t ⟨c.val, by omega⟩ * w1 ⟨c.val, by omega⟩ u)
          + ∑ k : Fin 1024, q b k * w1 ⟨1024 + k.val, by omega⟩ u : ℝ) : EReal) := by
  rw [Read.val_main_v4_apply]
  have e : ∀ k : Fin 2048, Read.val_main_v3 (F := Ideal) x0 x1 (Read.lidx_main_v4 (ix3 b t u) k) * x2 (Read.ridx_main_v4 (ix3 b t u) k)
      = Read.val_main_v3 (F := Ideal) x0 x1 (ix3 b t k) * x2 (ix2 k u) := fun k => by
    congr 2
    · funext a; match a with | ⟨0, _⟩ => rfl | ⟨1, _⟩ => rfl | ⟨2, _⟩ => rfl
    · funext a; match a with | ⟨0, _⟩ => rfl | ⟨1, _⟩ => rfl
  rw [Finset.sum_congr rfl fun k _ => e k]
  rw [show (∑ k : Fin 2048, Read.val_main_v3 (F := Ideal) x0 x1 (ix3 b t k) * x2 (ix2 k u))
      = ∑ k : Fin (1024 + 1024), Read.val_main_v3 (F := Ideal) x0 x1 (ix3 b t k) * x2 (ix2 k u) from rfl]
  rw [Fin.sum_univ_add, EReal.coe_add, coe_sum, coe_sum]
  congr 1
  · refine Finset.sum_congr rfl fun c _ => ?_
    rw [cat_left, h1, h2, ← EReal.coe_mul]; rfl
  · refine Finset.sum_congr rfl fun k _ => ?_
    rw [cat_right, h0, h2, ← EReal.coe_mul]; rfl

/-- The first dense layer with its bias is the specification's hidden unit. -/
theorem ref_v7 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (b : Fin 32) (t : Fin 2048) (u : Fin 1024) :
    Read.val_main_v7 (F := Ideal) x0 x1 x2 x3 (ix3 b t u) = ((Cert.Attn.hidden q vals w1 b1 b t u : ℝ) : EReal) := by
  rw [Read.val_main_v7_apply, ref_v4 q vals w1 x0 x1 x2 h0 h1 h2, Read.val_main_v6_apply, Read.val_main_v5_apply]
  rw [show Read.idx_main_v5 (Read.idx_main_v6 (ix3 b t u)) = ix1 u from funext fun a => by
    match a with | ⟨0, _⟩ => rfl]
  rw [h3, Ideal.addf_def, ← EReal.coe_add]
  unfold Cert.Attn.hidden Cert.Attn.qproj
  rw [add_assoc]

/-- The second dense layer with its bias is the specification's score. -/
theorem ref_score (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal))
    (b : Fin 32) (t : Fin 2048) :
    Read.val_main_v11 (F := Ideal) x0 x1 x2 x3 x4 x5 (ix3 b t 0) = ((Cert.Attn.score q vals w1 b1 vv bv b t : ℝ) : EReal) := by
  rw [Read.val_main_v11_apply, Read.val_main_v8_apply, Read.val_main_v10_apply, Read.val_main_v9_apply]
  rw [show Read.idx_main_v9 (Read.idx_main_v10 (ix3 b t (0 : Fin 1))) = ix1 (0 : Fin 1) from funext fun a => by
    match a with | ⟨0, _⟩ => rfl]
  rw [h5, Ideal.addf_def]
  unfold Cert.Attn.score
  rw [EReal.coe_add, coe_sum]
  congr 1
  refine Finset.sum_congr rfl fun k _ => ?_
  rw [show Read.lidx_main_v8 (ix3 b t (0 : Fin 1)) k = ix3 b t k from funext fun a => by
    match a with | ⟨0, _⟩ => rfl | ⟨1, _⟩ => rfl | ⟨2, _⟩ => rfl]
  rw [show Read.ridx_main_v8 (ix3 b t (0 : Fin 1)) k = ix2 k (0 : Fin 1) from funext fun a => by
    match a with | ⟨0, _⟩ => rfl | ⟨1, _⟩ => rfl]
  rw [ref_v7 q vals w1 b1 x0 x1 x2 x3 h0 h1 h2 h3, h4, ← EReal.coe_mul]

/-- The maximum over the time axis, from minus infinity, is the specification's largest score. -/
theorem ref_v12 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) :
    Read.val_main_v12 (F := Ideal) x0 x1 x2 x3 x4 x5 (ix2 b 0)
      = ((Cert.Attn.smax (Cert.Attn.score q vals w1 b1 vv bv b) : ℝ) : EReal) := by
  unfold Read.val_main_v12
  have hR : S32x2048x1.Reduces [1] S32x1 := by decide
  rw [Host.reduce_eq_fold_single FloatOps.maximumf _ _ reducesTo_S32x2048x1_S32x1_d1 hR h_S_]
  have hl : ∀ k : Fin 2048, hR.lift (ix2 b (0 : Fin 1)) k = ix3 b k (0 : Fin 1) := fun k => by
    funext c; apply Fin.ext
    fin_cases c <;> rfl
  have hf : (Read.val_main_v11 (F := Ideal) x0 x1 x2 x3 x4 x5 ∘ hR.lift (ix2 b (0 : Fin 1)))
      = fun k : Fin 2048 => ((Cert.Attn.score q vals w1 b1 vv bv b k : ℝ) : EReal) := funext fun (k : Fin 2048) =>
    (congrArg (Read.val_main_v11 (F := Ideal) x0 x1 x2 x3 x4 x5) (hl k)).trans
      (ref_score q vals w1 b1 vv bv x0 x1 x2 x3 x4 x5 h0 h1 h2 h3 h4 h5 b k)
  rw [hf]
  show (Finset.univ : Finset (Fin 2048)).fold max (Ideal.ofBits .f32 0xFF800000#32) _ = _
  rw [ofBits_negInf, fold_max_coe _ Finset.univ_nonempty]
  rfl

/-- The maximum with a broadcast minus infinity changes nothing. -/
theorem ref_v14 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) :
    Read.val_main_v14 (F := Ideal) x0 x1 x2 x3 x4 x5 (ix2 b 0) = ((Cert.Attn.smax (Cert.Attn.score q vals w1 b1 vv bv b) : ℝ) : EReal) := by
  rw [Read.val_main_v14_apply, Read.val_main_v13_apply, Read.val_main_cst_0_apply, ref_v12 q vals w1 b1 vv bv x0 x1 x2 x3 x4 x5 h0 h1 h2 h3 h4 h5,
    Ideal.maximumf_def, Ideal.ofBits_def, ofBits_negInf]
  exact max_eq_right bot_le

/-- The largest score broadcast back along the time axis. -/
theorem ref_v16 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) (t : Fin 2048) :
    Read.val_main_v16 (F := Ideal) x0 x1 x2 x3 x4 x5 (ix3 b t 0) = ((Cert.Attn.smax (Cert.Attn.score q vals w1 b1 vv bv b) : ℝ) : EReal) := by
  rw [Read.val_main_v16_apply, Read.val_main_v15_apply]
  rw [show Read.idx_main_v15 (Read.idx_main_v16 (ix3 b t (0 : Fin 1))) = ix2 b (0 : Fin 1) from funext fun a => by
    match a with | ⟨0, _⟩ => rfl | ⟨1, _⟩ => rfl]
  exact ref_v14 q vals w1 b1 vv bv x0 x1 x2 x3 x4 x5 h0 h1 h2 h3 h4 h5 b

/-- The exponential of the shifted score. -/
theorem ref_v18 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) (t : Fin 2048) :
    Read.val_main_v18 (F := Ideal) x0 x1 x2 x3 x4 x5 (ix3 b t 0)
      = ((Real.exp (Cert.Attn.score q vals w1 b1 vv bv b t - Cert.Attn.smax (Cert.Attn.score q vals w1 b1 vv bv b)) : ℝ) : EReal) := by
  rw [Read.val_main_v18_apply, Read.val_main_v17_apply, ref_score q vals w1 b1 vv bv x0 x1 x2 x3 x4 x5 h0 h1 h2 h3 h4 h5, ref_v16 q vals w1 b1 vv bv x0 x1 x2 x3 x4 x5 h0 h1 h2 h3 h4 h5,
    Ideal.subf_def, ← EReal.coe_sub, Ideal.hostUnary_exp_def, Ideal.exp_coe]

/-- The sum of the exponentials over the time axis, from zero, is the specification's denominator. -/
theorem ref_v19 (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) :
    Read.val_main_v19 (F := Ideal) x0 x1 x2 x3 x4 x5 (ix2 b 0) = ((Cert.Attn.sden (Cert.Attn.score q vals w1 b1 vv bv b) : ℝ) : EReal) := by
  rw [Read.val_main_v19_apply, Read.val_main_cst_1_apply, Ideal.ofBits_def, Ideal.ofBits_zero_f32, zero_add]
  unfold Cert.Attn.sden
  rw [coe_sum]
  refine Finset.sum_congr rfl fun k _ => ?_
  rw [show Read.idx_main_v19 (ix2 b (0 : Fin 1)) k = ix3 b k (0 : Fin 1) from funext fun a => by
    match a with | ⟨0, _⟩ => rfl | ⟨1, _⟩ => rfl | ⟨2, _⟩ => rfl]
  exact ref_v18 q vals w1 b1 vv bv x0 x1 x2 x3 x4 x5 h0 h1 h2 h3 h4 h5 b k

/-- The denominator is positive: a nonempty sum of exponentials. -/
theorem sden_pos (sc : Fin 2048 → ℝ) : 0 < Cert.Attn.sden sc :=
  Finset.sum_pos (fun _ _ => Real.exp_pos _) Finset.univ_nonempty

/-- THE ATTENTION WEIGHTS: the reference's second result at batch row `b` and time step `t` is the specification's
    softmax weight of the scores of that row. -/
theorem ref_attn (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) (t : Fin 2048) :
    Cert.ReferenceIdeal.Read.val_main_v22 x0 x1 x2 x3 x4 x5 (ix3 b t 0)
      = ((Cert.Attn.attn (Cert.Attn.score q vals w1 b1 vv bv b) t : ℝ) : EReal) := by
  rw [Read.val_main_v22_apply, ref_v18 q vals w1 b1 vv bv x0 x1 x2 x3 x4 x5 h0 h1 h2 h3 h4 h5, Read.val_main_v21_apply, Read.val_main_v20_apply]
  rw [show Read.idx_main_v20 (Read.idx_main_v21 (ix3 b t (0 : Fin 1))) = ix2 b (0 : Fin 1) from funext fun a => by
    match a with | ⟨0, _⟩ => rfl | ⟨1, _⟩ => rfl]
  rw [ref_v19 q vals w1 b1 vv bv x0 x1 x2 x3 x4 x5 h0 h1 h2 h3 h4 h5, Ideal.hostDivf_def, Ideal.div_coe (sden_pos _).ne', ← EReal.coe_mul]
  unfold Cert.Attn.attn
  rw [mul_one_div]

/-- THE CONTEXT: the reference's first result at batch row `b` and feature `f` is the specification's weighted sum of
    that feature's values over the time steps. -/
theorem ref_ctx (h0 : ∀ b k, x0 (ix2 b k) = ((q b k : ℝ) : EReal)) (h1 : ∀ b t f, x1 (ix3 b t f) = ((vals b t f : ℝ) : EReal))
    (h2 : ∀ c u, x2 (ix2 c u) = ((w1 c u : ℝ) : EReal)) (h3 : ∀ u, x3 (ix1 u) = ((b1 u : ℝ) : EReal))
    (h4 : ∀ u, x4 (ix2 u 0) = ((vv u : ℝ) : EReal)) (h5 : x5 (ix1 0) = ((bv : ℝ) : EReal)) (b : Fin 32) (f : Fin 2048) :
    Cert.ReferenceIdeal.Read.val_main_v23 x0 x1 x2 x3 x4 x5 (ix3 b 0 f)
      = ((Cert.Attn.ctx (Cert.Attn.score q vals w1 b1 vv bv b) (fun t => vals b t f) : ℝ) : EReal) := by
  rw [Read.val_main_v23_apply]
  unfold Cert.Attn.ctx
  rw [coe_sum]
  refine Finset.sum_congr rfl fun k _ => ?_
  rw [show Read.lidx_main_v23 (ix3 b (0 : Fin 1) f) k = ix3 b k (0 : Fin 1) from funext fun a => by
    match a with | ⟨0, _⟩ => rfl | ⟨1, _⟩ => rfl | ⟨2, _⟩ => rfl]
  rw [show Read.ridx_main_v23 (ix3 b (0 : Fin 1) f) k = ix3 b k f from funext fun a => by
    match a with | ⟨0, _⟩ => rfl | ⟨1, _⟩ => rfl | ⟨2, _⟩ => rfl]
  rw [ref_attn q vals w1 b1 vv bv x0 x1 x2 x3 x4 x5 h0 h1 h2 h3 h4 h5, h1, ← EReal.coe_mul]

end Ref

end Cert.ReferenceIdeal.RefValue

end
-- ==== Proof.FiniteArgs.lean ====
/-
  The precondition read back: if the conjunction of the six "all |x| < +inf" tests is true at the
  extended reals, then every element of each of the six arguments is a real number.
-/
import proofs.«124677_j49830210568541_2_alg».proof.Pre_finite_inputs
import proofs.«124677_j49830210568541_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Real

open Idealize.ShloMosaic

/-- The binary32 pattern 0x7F800000 denotes +∞. -/
theorem inf_bits : Ideal.ofBits .f32 0x7F800000#32 = (⊤ : EReal) := by
  simp [Ideal.ofBits, Ideal.ieee]

/-- In the extended reals, max x (-x) < ⊤ holds only at a real x: at ⊤ the maximum is ⊤, and at ⊥
    it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance subsingleton_scalar_idx : Subsingleton S_.Idx := ⟨fun a b => funext fun d => d.elim0⟩

/-- One argument's test: if the and-reduction over all axes of the words "|x i| < +∞" is 1, every
    element of x is real. -/
theorem all_real {s : Shape} {axes : List (Fin s.rank)} (x : FVec Ideal s .f32)
    (dims : Fin S_.rank → Fin s.rank) (hb : S_.BroadcastsInDim s dims) (init : IVec S_ 1)
    (hr : s.ReducesTo axes S_) (hu : 0 < S_.numel)
    (e : Host.reduce IntOp.andi
          (cmpf .olt (Host.absf x) (broadcastInDim s dims hb (constant (F := Ideal) S_ .f32 0x7F800000#32)))
          init hr hu ValueIdx.ix0 = 1#1) :
    ∀ i, ∃ r : ℝ, x i = (r : EReal) := by
  intro i
  have hi := Host.reduce_andi_all _ init hr hu ValueIdx.ix0 e i
  have hi' : Ideal.cmp .olt (max (x i) (-(x i))) (Ideal.ofBits .f32 0x7F800000#32) = 1#1 := hi
  rw [inf_bits] at hi'
  apply real_of_abs_lt_top
  by_contra hn
  simp [Ideal.cmp, hn] at hi'

/-- The conjunction of two one-bit arrays, read at an index. -/
theorem andi_apply {s : Shape} {w : Nat} (a b : IVec s w) (i : s.Idx) : andi a b i = IntOp.andi (a i) (b i) := rfl

theorem real_of_pre [Cert.Pre_finite_inputs.Facts]
    (x0 : FVec Ideal Cert.Pre_finite_inputs.S32x1024 .f32) (x1 : FVec Ideal Cert.Pre_finite_inputs.S32x2048x2048 .f32) (x2 : FVec Ideal Cert.Pre_finite_inputs.S2048x1024 .f32)
    (x3 : FVec Ideal Cert.Pre_finite_inputs.S1024 .f32) (x4 : FVec Ideal Cert.Pre_finite_inputs.S1024x1 .f32) (x5 : FVec Ideal Cert.Pre_finite_inputs.S1 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal)) := by
  have h0 := congrFun h ValueIdx.ix0
  dsimp only [fn, fn_part1] at h0
  rw [andi_apply, IntOp.andi_eq_one, andi_apply, IntOp.andi_eq_one, andi_apply, IntOp.andi_eq_one,
    andi_apply, IntOp.andi_eq_one, andi_apply, IntOp.andi_eq_one] at h0
  obtain ⟨⟨⟨⟨⟨e0, e1⟩, e2⟩, e3⟩, e4⟩, e5⟩ := h0
  exact ⟨all_real x0 _ _ _ _ _ e0, all_real x1 _ _ _ _ _ e1, all_real x2 _ _ _ _ _ e2,
    all_real x3 _ _ _ _ _ e3, all_real x4 _ _ _ _ _ e4, all_real x5 _ _ _ _ _ e5⟩

end Cert.Pre_finite_inputs.Real

end
-- ==== Proof.Compare.lean ====
import proofs.«124677_j49830210568541_2_alg».proof.Proof.KiFinal
import proofs.«124677_j49830210568541_2_alg».proof.Proof.RefSide
import proofs.«124677_j49830210568541_2_alg».proof.Proof.FiniteArgs
import proofs.«124677_j49830210568541_2_alg».proof.Proof.Gen.Pre_finite_inputs
import proofs.«124677_j49830210568541_2_alg».proof.Proof.Gen.ReferenceIdeal
import proofs.«124677_j49830210568541_2_alg».proof.Defs

/-!
# The idealized kernel and the idealized reference return the same two arrays

Under the precondition every entry of the six arguments is a real number. On real arguments the kernel's context
and attention weights are the specification's (the tile-by-tile softmax is the softmax), and so are the
reference's; the two programs run from memories that agree on the arguments, so their results agree entry by
entry.
-/

set_option maxRecDepth 16384

noncomputable section

namespace Cert.Proof.Compare

open Idealize.ShloMosaic Idealize.ShloMosaic.TcCoe Idealize.SL.Sem Idealize.ShloMosaic.ValueIdx
open Cert.Attn Cert.KernelIdeal Cert.KernelIdeal.Hand

/-- Under the precondition the six argument arrays of a core are coerced real arrays. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (q : Fin 32 → Fin 1024 → ℝ) (vals : Fin 32 → Fin 2048 → Fin 2048 → ℝ) (w1 : Fin 2048 → Fin 1024 → ℝ)
      (b1 : Fin 1024 → ℝ) (vv : Fin 1024 → ℝ) (bv : ℝ), ArgsReal m c q vals w1 b1 vv bv := by
  obtain ⟨r0, r1, r2, r3, r4, r5⟩ := Cert.Pre_finite_inputs.Real.real_of_pre _ _ _ _ _ _ (hpre c)
  choose f0 h0 using r0
  choose f1 h1 using r1
  choose f2 h2 using r2
  choose f3 h3 using r3
  choose f4 h4 using r4
  choose f5 h5 using r5
  exact ⟨fun b k => f0 (ix2 b k), fun b t f => f1 (ix3 b t f), fun p u => f2 (ix2 p u), fun u => f3 (ix1 u), fun u => f4 (ix2 u (0 : Fin 1)), f5 (ix1 (0 : Fin 1)),
    ⟨fun b k => h0 _, fun b t f => h1 _, fun p u => h2 _, fun u => h3 _, fun u => h4 _, h5 _⟩⟩

theorem algebraic : Cert.algebraic_KernelIdeal_ReferenceIdeal := by
  intro m ρ m' ρ' hpre hagree
  choose q vals w1 b1 vv bv hA using args_real m hpre
  refine ⟨fun c => W5 m c (Proc.devRef .tc main_v6_0), fun c => W5 m c (Proc.devRef .tc main_v10), ?_, ?_⟩
  · exact (θ_run Cert.KernelIdeal.defs _ _).mono (fun r h c => ⟨
      h c _ (mem_uc main_v6_0 (by decide)),
      h c _ (mem_uc main_v10 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · -- the context
      obtain ⟨g0, g1, g2, g3, g4, g5⟩ := hagree c
      rw [Cert.ReferenceIdeal.Read.val_main_v23_eq, g0, g1, g2, g3, g4, g5]
      funext i
      have hi1 : (i 1).val < 1 := (i 1).isLt
      have hi : i = ix3 (⟨(i 0).val, (i 0).isLt⟩ : Fin 32) (0 : Fin 1) (⟨(i 2).val, (i 2).isLt⟩ : Fin 2048) := funext fun a => Fin.ext (by
        match a with
        | ⟨0, _⟩ => rfl
        | ⟨1, _⟩ => show (i 1).val = 0; omega
        | ⟨2, _⟩ => rfl)
      rw [hi]
      exact (Cert.ReferenceIdeal.RefValue.ref_ctx (q c) (vals c) (w1 c) (b1 c) (vv c) (bv c) _ _ _ _ _ _
        (hA c).a0 (hA c).a1 (hA c).a2 (hA c).a3 (hA c).a4 (hA c).a5 _ _).trans (kernel_ctx (hA c) _ _).symm
    · -- the attention weights
      obtain ⟨g0, g1, g2, g3, g4, g5⟩ := hagree c
      rw [Cert.ReferenceIdeal.Read.val_main_v22_eq, g0, g1, g2, g3, g4, g5]
      funext i
      have hi2 : (i 2).val < 1 := (i 2).isLt
      have hi : i = ix3 (⟨(i 0).val, (i 0).isLt⟩ : Fin 32) (⟨(i 1).val, (i 1).isLt⟩ : Fin 2048) (0 : Fin 1) := funext fun a => Fin.ext (by
        match a with
        | ⟨0, _⟩ => rfl
        | ⟨1, _⟩ => rfl
        | ⟨2, _⟩ => show (i 2).val = 0; omega)
      rw [hi]
      exact (Cert.ReferenceIdeal.RefValue.ref_attn (q c) (vals c) (w1 c) (b1 c) (vv c) (bv c) _ _ _ _ _ _
        (hA c).a0 (hA c).a1 (hA c).a2 (hA c).a3 (hA c).a4 (hA c).a5 _ _).trans (kernel_attn (hA c) _ _).symm

end Cert.Proof.Compare

end
-- ==== Proof.lean ====
/-
  The certificate of an additive-attention head computed two ways.

  The kernel (two pallas_calls): for each of 32 batch rows the 2048 time steps are walked in four tiles of 512.
  A tile's scores come from the key half of its values through the key half of a dense layer, plus the query's
  projection through the query half (computed once per row, at its first tile, and kept in scratch), through a
  projection to a scalar. The softmax over the time steps is accumulated tile by tile: a running maximum, a
  running denominator and a running numerator, the old ones rescaled by exp (old maximum - new maximum) before the
  tile's terms are added. At a row's last tile the context is the numerator over the denominator and the row's
  log-sum-exp is the maximum plus the logarithm of the denominator; a second kernel turns the stored scores into
  attention weights as exp (score - log-sum-exp).

  The reference: concatenate keys and the repeated query, one contraction over the 2048 concatenated columns,
  softmax over the time axis as exp (score - max) over its sum, and a batched contraction with the values.

  On the extended reals with finite (hence real) arguments both are the same real functions: the contraction over
  2048 columns splits into the key sum plus the query sum; by induction on the tile the running quantities are the
  sums of exp (score - running maximum) over the tiles seen so far, so after the fourth tile they are the softmax's;
  and exp (s - (M + log Z)) = exp (s - M) / Z. The word-level kernel and its idealization are one text read at
  two instances, and the frames hold at any instance: every store of the first kernel covers its buffer, its
  scratch contents are named point by point, and each region hands back exactly the arrays it was lent.
-/
import proofs.«124677_j49830210568541_2_alg».proof.Defs
import proofs.«124677_j49830210568541_2_alg».proof.Proof.Gen.Kernel
import proofs.«124677_j49830210568541_2_alg».proof.Proof.Gen.KernelIdeal
import proofs.«124677_j49830210568541_2_alg».proof.Proof.Gen.ReferenceIdeal
import proofs.«124677_j49830210568541_2_alg».proof.Proof.Gen.ReferenceIdeal.Run
import proofs.«124677_j49830210568541_2_alg».proof.Proof.Gen.Pre_finite_inputs
import proofs.«124677_j49830210568541_2_alg».proof.Proof.KRun
import proofs.«124677_j49830210568541_2_alg».proof.Proof.KiRun
import proofs.«124677_j49830210568541_2_alg».proof.Proof.Compare

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run with its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the kernel's own text read on the extended reals. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Compare.algebraic⟩

end Cert.Proof

end
